-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S512x512 : Shape := ⟨2, ![512, 512]⟩
abbrev S1000x512 : Shape := ⟨2, ![1000, 512]⟩
abbrev S4096 : Shape := ⟨1, ![4096]⟩
abbrev S512 : Shape := ⟨1, ![512]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S1000x512 : S_.BroadcastsInDim S1000x512 (![] : Fin 0 → Fin S1000x512.rank)
  reducesTo_S1000x512_S_d0_1 : S1000x512.ReducesTo [0, 1] S_
  bcast_S_S4096 : S_.BroadcastsInDim S4096 (![] : Fin 0 → Fin S4096.rank)
  reducesTo_S4096_S_d0 : S4096.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S4096 .f32) (main_arg5 : FVec F S512x4096 .f32) (main_arg6 : FVec F S512 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S512x4096 .f32) (main_arg1 : FVec F S512x512 .f32) (main_arg2 : FVec F S1000x512 .f32) (main_arg3 : FVec F S4096 .f32) (main_arg4 : FVec F S4096 .f32) (main_arg5 : FVec F S512x4096 .f32) (main_arg6 : FVec F S512 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S1000x512 .f32 := Host.absf main_arg2
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S512x4096 : Shape := ⟨2, ![512, 4096]⟩
abbrev S512x512 : Shape := ⟨2, ![512, 512]⟩
abbrev S1000x512 : Shape := ⟨2, ![1000, 512]⟩
abbrev S4096 : Shape := ⟨1, ![4096]⟩
abbrev S512 : Shape := ⟨1, ![512]⟩
abbrev S1x4096 : Shape := ⟨2, ![1, 4096]⟩
abbrev S1x512 : Shape := ⟨2, ![1, 512]⟩
abbrev S512x128 : Shape := ⟨2, ![512, 128]⟩
abbrev S512x1024 : Shape := ⟨2, ![512, 1024]⟩
abbrev S1x1024 : Shape := ⟨2, ![1, 1024]⟩
abbrev S1024 : Shape := ⟨1, ![1024]⟩
abbrev S512x1 : Shape := ⟨2, ![512, 1]⟩
abbrev S_ : Shape := ⟨0, ![]⟩
abbrev S1024x512 : Shape := ⟨2, ![1024, 512]⟩
abbrev S128x512 : Shape := ⟨2, ![128, 512]⟩
abbrev S128x128 : Shape := ⟨2, ![128, 128]⟩
abbrev S1x128x128 : Shape := ⟨3, ![1, 128, 128]⟩
abbrev S128x1x128 : Shape := ⟨3, ![128, 1, 128]⟩
abbrev S128x128x128 : Shape := ⟨3, ![128, 128, 128]⟩
abbrev S512x1000 : Shape := ⟨2, ![512, 1000]⟩
abbrev S512000 : Shape := ⟨1, ![512000]⟩
abbrev S512000x1 : Shape := ⟨2, ![512000, 1]⟩

abbrev nBuf : Space → Nat
  | .hbm => 24
  | .vmem => 19
  | .smem => 0
  | _ => 0

abbrev bufTy : (tb : Table) → Fin (tcTables nBuf tb) → BufTy
  | .hbm, ⟨0, _⟩ => ⟨S512x4096, .f32⟩
  | .hbm, ⟨1, _⟩ => ⟨S512x512, .f32⟩
  | .hbm, ⟨2, _⟩ => ⟨S1000x512, .f32⟩
  | .hbm, ⟨3, _⟩ => ⟨S4096, .f32⟩
  | .hbm, ⟨4, _⟩ => ⟨S4096, .f32⟩
  | .hbm, ⟨5, _⟩ => ⟨S512x4096, .f32⟩
  | .hbm, ⟨6, _⟩ => ⟨S512, .f32⟩
  | .hbm, ⟨7, _⟩ => ⟨S1x4096, .f32⟩
  | .hbm, ⟨8, _⟩ => ⟨S1x4096, .f32⟩
  | .hbm, ⟨9, _⟩ => ⟨S1x512, .f32⟩
  | .hbm, ⟨10, _⟩ => ⟨S512x512, .f32⟩
  | .hbm, ⟨11, _⟩ => ⟨S512x128, .f32⟩
  | .hbm, ⟨12, _⟩ => ⟨S_, .f32⟩
  | .hbm, ⟨13, _⟩ => ⟨S_, .f32⟩
  | .hbm, ⟨14, _⟩ => ⟨S1024x512, .f32⟩
  | .hbm, ⟨15, _⟩ => ⟨S512x1024, .f32⟩
  | .hbm, ⟨16, _⟩ => ⟨S512x1, .f32⟩
  | .hbm, ⟨17, _⟩ => ⟨S512, .f32⟩
  | .hbm, ⟨18, _⟩ => ⟨S512x1000, .f32⟩
  | .hbm, ⟨19, _⟩ => ⟨S512000, .f32⟩
  | .hbm, ⟨20, _⟩ => ⟨S512000x1, .f32⟩
  | .hbm, ⟨21, _⟩ => ⟨S512x1000, .f32⟩
  | .hbm, ⟨22, _⟩ => ⟨S512000, .f32⟩
  | .hbm, ⟨23, _⟩ => ⟨S512000x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x128, .f32⟩
  | .local _ .vmem, ⟨12, _⟩ => ⟨S512x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x128, .f32⟩
  | .local _ .vmem, ⟨18, _⟩ => ⟨S128x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v37 : BitVec 1 := Scalar.cmpi .eq arg0 c3_i32
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![4, 8], ![false, false]⟩

def k1_mult1 : BitVec 32 :=
  let c0_i32 : BitVec 32 := 0#32
  let c128_i32 : BitVec 32 := 128#32
  let v1 : BitVec 32 := Scalar.muli c0_i32 c128_i32
  v1
def k1_off1 (c0_i32 : BitVec 32) : Fin 2 → Nat :=
  let c0 : Index := 0#32
  let c128_i32 : BitVec 32 := 128#32
  let v1 : BitVec 32 := Scalar.muli c0_i32 c128_i32
  let v2 : BitVec 32 := v1
  let v3 : Index := Scalar.indexCast v2
  ![0, v3.toNat]
def k1_mult2 : BitVec 32 :=
  let c1_i32 : BitVec 32 := 1#32
  let c128_i32_3 : BitVec 32 := 128#32
  let v19 : BitVec 32 := Scalar.muli c1_i32 c128_i32_3
  v19
def k1_mult3 : BitVec 32 :=
  let c2_i32 : BitVec 32 := 2#32
  let c128_i32_8 : BitVec 32 := 128#32
  let v37 : BitVec 32 := Scalar.muli c2_i32 c128_i32_8
  v37
def k1_mult4 : BitVec 32 :=
  let c3_i32 : BitVec 32 := 3#32
  let c128_i32_13 : BitVec 32 := 128#32
  let v55 : BitVec 32 := Scalar.muli c3_i32 c128_i32_13
  v55
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4096_S1x4096 : S4096.ShapeCasts S1x4096
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  reduces_S512x1024_S1024 : S512x1024.Reduces [0] S1024
  shapeCasts_S1024_S1x1024 : S1024.ShapeCasts S1x1024
  broadcasts_S1x1024_S512x1024 : S1x1024.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  shapeCasts_S512x1_S512x1 : S512x1.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  pads_S1000x512_S1024x512_0240_000 : S1000x512.Pads (![0, 0] : Fin 2 → Nat) ![24, 0] ![0, 0] S1024x512
  h_S_ : 0 < S_.numel
  h_S128x128 : 0 < S128x128.numel
  shapeCasts_S128x128_S128x128 : S128x128.ShapeCasts S128x128
  shapeCasts_S128x128_S1x128x128 : S128x128.ShapeCasts S1x128x128
  shapeCasts_S128x128_S128x1x128 : S128x128.ShapeCasts S128x1x128
  broadcasts_S1x128x128_S128x128x128 : S1x128x128.Broadcasts S128x128x128
  broadcasts_S128x1x128_S128x128x128 : S128x1x128.Broadcasts S128x128x128
  reduces_S128x128x128_S128x128 : S128x128x128.Reduces [2] S128x128
  inb_S128x128_S128x128_0_0 : ∀ a, (![0, 0] : Fin 2 → Nat) a + S128x128.size a ≤ S128x128.size a
  slices_S512x128_S512x1_0_0 : S512x128.Slices ![0, 0] S512x1
  shapeCasts_S512x1_S512 : S512x1.ShapeCasts S512
  bcast_S512_S512x1000_0 : S512.BroadcastsInDim S512x1000 (![0] : Fin 1 → Fin S512x1000.rank)
  shapeCasts_S512x1000_S512000 : S512x1000.ShapeCasts S512000
  bcast_S512000_S512000x1_0 : S512000.BroadcastsInDim S512000x1 (![0] : Fin 1 → Fin S512000x1.rank)
  slices_S512x1024_S512x1000_0_0 : S512x1024.Slices ![0, 0] S512x1000
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x4096.size a
  hwx0_0 : ∀ i : grid0.Coords, EltTy.bits .f32 = 32 ∨ (Rect.block (s := S512x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x4096.size a
  hwx0_1 : ∀ i : grid0.Coords, EltTy.bits .f32 = 32 ∨ (Rect.block (s := S512x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .f32 = 32 ∨ (Rect.block (s := S512x128) S512x128.size (cc0_transform_7 i) (hinb0_7 i)).WholeWords (EltTy.packing .f32)
  hrank1 : 0 < grid1.rank
  k1_mult1_dvd : 128 ∣ k1_mult1.toNat
  k1_off1_inb : ∀ (r : Fin 4), ∀ a, (k1_off1 (BitVec.ofNat 32 r.val)) a + S128x128.size a ≤ S128x512.size a
  k1_mult2_dvd : 128 ∣ k1_mult2.toNat
  k1_mult3_dvd : 128 ∣ k1_mult3.toNat
  k1_mult4_dvd : 128 ∣ k1_mult4.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S512x512.size a
  hwx1_0 : ∀ i : grid1.Coords, EltTy.bits .f32 = 32 ∨ (Rect.block (s := S512x512) S128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S1024x512.size a
  hwx1_1 : ∀ i : grid1.Coords, EltTy.bits .f32 = 32 ∨ (Rect.block (s := S1024x512) S128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S512x1024.size a
  hwx1_2 : ∀ i : grid1.Coords, EltTy.bits .f32 = 32 ∨ (Rect.block (s := S512x1024) S128x128.size (cc1_transform_2 i) (hinb1_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S512x512.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S512x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v3_0) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x4096 : Shape := ⟨2, ![512, 4096]⟩
abbrev S512x512 : Shape := ⟨2, ![512, 512]⟩
abbrev S1000x512 : Shape := ⟨2, ![1000, 512]⟩
abbrev S4096 : Shape := ⟨1, ![4096]⟩
abbrev S512 : Shape := ⟨1, ![512]⟩
abbrev S_ : Shape := ⟨0, ![]⟩
abbrev S1x4096 : Shape := ⟨2, ![1, 4096]⟩
abbrev S4096x512 : Shape := ⟨2, ![4096, 512]⟩
abbrev S1x512 : Shape := ⟨2, ![1, 512]⟩
abbrev S1x1000x512 : Shape := ⟨3, ![1, 1000, 512]⟩
abbrev S512x1x512 : Shape := ⟨3, ![512, 1, 512]⟩
abbrev S512x1000x512 : Shape := ⟨3, ![512, 1000, 512]⟩
abbrev S512x1000 : Shape := ⟨2, ![512, 1000]⟩
abbrev S512000 : Shape := ⟨1, ![512000]⟩
abbrev S512000x1 : Shape := ⟨2, ![512000, 1]⟩

abbrev nBuf : Space → Nat
  | .hbm => 65
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x512, .f32⟩
  | .hbm, ⟨2, _⟩ => ⟨S1000x512, .f32⟩
  | .hbm, ⟨3, _⟩ => ⟨S4096, .f32⟩
  | .hbm, ⟨4, _⟩ => ⟨S4096, .f32⟩
  | .hbm, ⟨5, _⟩ => ⟨S512x4096, .f32⟩
  | .hbm, ⟨6, _⟩ => ⟨S512, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S512x4096, .f32⟩
  | .hbm, ⟨14, _⟩ => ⟨S512x4096, .f32⟩
  | .hbm, ⟨15, _⟩ => ⟨S512x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S1x4096, .f32⟩
  | .hbm, ⟨22, _⟩ => ⟨S512x4096, .f32⟩
  | .hbm, ⟨23, _⟩ => ⟨S512x4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S512x4096, .f32⟩
  | .hbm, ⟨30, _⟩ => ⟨S512x4096, .f32⟩
  | .hbm, ⟨31, _⟩ => ⟨S1x4096, .f32⟩
  | .hbm, ⟨32, _⟩ => ⟨S512x4096, .f32⟩
  | .hbm, ⟨33, _⟩ => ⟨S512x4096, .f32⟩
  | .hbm, ⟨34, _⟩ => ⟨S1x4096, .f32⟩
  | .hbm, ⟨35, _⟩ => ⟨S512x4096, .f32⟩
  | .hbm, ⟨36, _⟩ => ⟨S512x4096, .f32⟩
  | .hbm, ⟨37, _⟩ => ⟨S4096x512, .f32⟩
  | .hbm, ⟨38, _⟩ => ⟨S512x512, .f32⟩
  | .hbm, ⟨39, _⟩ => ⟨S1x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512, .f32⟩
  | .hbm, ⟨49, _⟩ => ⟨S1x1000x512, .f32⟩
  | .hbm, ⟨50, _⟩ => ⟨S512x1x512, .f32⟩
  | .hbm, ⟨51, _⟩ => ⟨S512x1000x512, .f32⟩
  | .hbm, ⟨52, _⟩ => ⟨S512x1000x512, .f32⟩
  | .hbm, ⟨53, _⟩ => ⟨S512x1000x512, .f32⟩
  | .hbm, ⟨54, _⟩ => ⟨S_, .f32⟩
  | .hbm, ⟨55, _⟩ => ⟨S512x1000x512, .f32⟩
  | .hbm, ⟨56, _⟩ => ⟨S512x1000x512, .f32⟩
  | .hbm, ⟨57, _⟩ => ⟨S512x1000x512, .f32⟩
  | .hbm, ⟨58, _⟩ => ⟨S_, .f32⟩
  | .hbm, ⟨59, _⟩ => ⟨S512x1000, .f32⟩
  | .hbm, ⟨60, _⟩ => ⟨S512x1000, .f32⟩
  | .hbm, ⟨61, _⟩ => ⟨S512000, .f32⟩
  | .hbm, ⟨62, _⟩ => ⟨S512000x1, .f32⟩
  | .hbm, ⟨63, _⟩ => ⟨S512000, .f32⟩
  | .hbm, ⟨64, _⟩ => ⟨S512000x1, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call1_cst : Ref sig .tc := ⟨.hbm, 54, rfl⟩
abbrev main_call1_v0 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  reducesTo_S512x4096_S4096_d0 : S512x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  transposes_S512x4096_S4096x512_1_0 : S512x4096.Transposes [1, 0] S4096x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S512_d1 : S512x512.ReducesTo [1] S512
  bcast_S1000x512_S1x1000x512_1_2 : S1000x512.BroadcastsInDim S1x1000x512 (![1, 2] : Fin 2 → Fin S1x1000x512.rank)
  bcast_S512x512_S512x1x512_0_2 : S512x512.BroadcastsInDim S512x1x512 (![0, 2] : Fin 2 → Fin S512x1x512.rank)
  bcast_S1x1000x512_S512x1000x512_0_1_2 : S1x1000x512.BroadcastsInDim S512x1000x512 (![0, 1, 2] : Fin 3 → Fin S512x1000x512.rank)
  bcast_S512x1x512_S512x1000x512_0_1_2 : S512x1x512.BroadcastsInDim S512x1000x512 (![0, 1, 2] : Fin 3 → Fin S512x1000x512.rank)
  bcast_S_S512x1000x512 : S_.BroadcastsInDim S512x1000x512 (![] : Fin 0 → Fin S512x1000x512.rank)
  reducesTo_S512x1000x512_S512x1000_d2 : S512x1000x512.ReducesTo [2] S512x1000
  bcast_S512_S512x1000_0 : S512.BroadcastsInDim S512x1000 (![0] : Fin 1 → Fin S512x1000.rank)
  shapeCasts_S512x1000_S512000 : S512x1000.ShapeCasts S512000
  bcast_S512000_S512000x1_0 : S512000.BroadcastsInDim S512000x1 (![0] : Fin 1 → Fin S512000x1.rank)
  dot_S512x4096_S4096x512_S512x512_1_0_0_1_n_n_wf : DotDims.WF S512x4096 S4096x512 S512x512 [1] [0] [0] [1] [] []

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

class Facts : Prop extends Facts₀ where

variable [Facts]
-- ==== Proof.K.R0Run.lean ====
import proofs.«177815_j10213432230335_2_alg».proof.Proof.Gen.Kernel.Launch
import proofs.«177815_j10213432230335_2_alg».proof.Proof.Gen.Kernel.Skeleton
import proofs.«177815_j10213432230335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the embedding kernel, run once per control case

The grid has four points, one per tile of 1024 feature columns. At every point the body adds to an accumulator (a scratch
matrix of 512 by 512 carried from point to point) the product of the normalised feature tile with the weight tile; at
the first point it zeroes the accumulator before, and at the last point it afterwards writes the two output blocks from
the finished accumulator. So there are three control cases: first, middle, last. Every store is through the whole
rectangle of its buffer, so each buffer ends holding exactly the last value stored into it. -/

/-- The first conditional of the body: the grid coordinate is zero. -/
abbrev cond0_1 (i : grid0.Coords) : Prop := (Scalar.cmpi .ne (Scalar.extui (Scalar.cmpi .eq (BitVec.ofNat 32 (i 0).val) 0#32)) 0#32) = 1#1
/-- The second: the grid coordinate is the last. -/
abbrev cond0_2 (i : grid0.Coords) : Prop := k0_cond2 i = 1#1

/-- The zero offsets of a rank-2 rectangle, as a constant function. -/
theorem hz2 : (![0, 0] : Fin 2 → ℕ) = fun _ => 0 := by funext a; fin_cases a <;> rfl

/-- A list whose first piece is the whole rectangle covers every index. -/
theorem cover_whole {S : Shape} {e : EltTy} (off : Fin S.rank → ℕ) (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self .., View.mem_set_unit_zero h inb y⟩

/-- The accumulator after a point: the tile's contribution added to what it held (the kernel's own payload). -/
abbrev accStep (x0 x1 : Vec F S512x1024 .f32) (x2 x3 : Vec F S1x1024 .f32) (xs : Vec F S512x512 .f32) : Vec F S512x512 .f32 :=
  k0_pay4 x0 x2 x3 x1 xs

set_option maxHeartbeats 2000000 in
/-- MIDDLE points: the accumulator goes from `xs` to `accStep … xs`; nothing else is touched. -/
theorem run_mid (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x512 .f32) (harg9 : arg9.IsWhole)
    (h1 : ¬cond0_1 i) (h2 : ¬cond0_2 i)
    (x0 x1 : Vec F S512x1024 .f32) (x2 x3 : Vec F S1x1024 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg9 fullShare (accStep x0 x1 x2 x3 xs)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg9.eq_unread hfs
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (cover_whole _ hz2 _ _ _), View.canon_unit_zero hz2]
  simp only [View.readAt_eq_ld, hf0, hf1, hf2, hf3, hfs, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]

set_option maxHeartbeats 2000000 in
/-- FIRST point: the accumulator, whatever it held, is zeroed and then takes the first tile's contribution. -/
theorem run_first (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x512 .f32) (harg9 : arg9.IsWhole)
    (h1 : cond0_1 i) (h2 : ¬cond0_2 i)
    (x0 x1 : Vec F S512x1024 .f32) (x2 x3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg9 fullShare (accStep x0 x1 x2 x3 k0_pay3)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  obtain rfl := harg4.eq_unread hf3
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_run_names
  rw [View.read_writes_eq_canon _ _ _ (cover_whole _ hz2 _ _ _), View.canon_cons_unit_zero hz2]
  simp only [View.readAt_eq_ld, hf0, hf1, hf2, hf3, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]

set_option maxHeartbeats 4000000 in
/-- LAST point: the accumulator takes the last tile's contribution; then the embedding block (accumulator plus bias row)
    and the positive-energy block are stored from it. -/
theorem run_last (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x512 .f32) (harg9 : arg9.IsWhole)
    (h1 : ¬cond0_1 i) (h2 : cond0_2 i)
    (x0 x1 : Vec F S512x1024 .f32) (x2 x3 : Vec F S1x1024 .f32) (x4 : Vec F S1x512 .f32) (x5 : Vec F S512x512 .f32)
    (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay1 (accStep x0 x1 x2 x3 xs) x4) ∗ owns (c : Thread nD τ) arg8 fullShare (k0_pay2 (accStep x0 x1 x2 x3 xs) x4 x5)
            ∗ owns (c : Thread nD τ) arg9 fullShare (accStep x0 x1 x2 x3 xs)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5; obtain rfl := harg9.eq_unread hfs
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H7]
  · iexists _; isplitr
    swap; · iexact H7
    ipureintro
    sl_unfold_run_names
    rw [View.read_writes_eq_canon _ _ _ (cover_whole _ hz2 _ _ _), View.canon_cons_unit_zero hz2]
    simp only [View.readAt_eq_ld, hf0, hf1, hf2, hf3, hf4, hf5, hfs, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]
  isplitl [H8]
  · iexists _; isplitr
    swap; · iexact H8
    ipureintro
    sl_unfold_run_names
    rw [View.read_writes_eq_canon _ _ _ (cover_whole _ hz2 _ _ _), View.canon_cons_unit_zero hz2]
    simp only [View.readAt_eq_ld, hf0, hf1, hf2, hf3, hf4, hf5, hfs, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]
  iexists _; isplitr
  swap; · iexact HS
  ipureintro
  sl_unfold_run_names
  rw [View.read_writes_eq_canon _ _ _ (cover_whole _ hz2 _ _ _), View.canon_cons_unit_zero hz2]
  simp only [View.readAt_eq_ld, hf0, hf1, hf2, hf3, hf4, hf5, hfs, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]

end Cert.Kernel.Hand

end
-- ==== Proof.K.R0Dat.lean ====
import proofs.«177815_j10213432230335_2_alg».proof.Proof.Gen.Kernel.Launch
import proofs.«177815_j10213432230335_2_alg».proof.Proof.Gen.Kernel.Skeleton
import proofs.«177815_j10213432230335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177815_j10213432230335_2_alg».proof.Proof.K.R0Run
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The embedding region's proof data

What each window's staging buffer and the carried accumulator hold after the body at each of the four grid points, as
functions of the arrays the region finds (`V`): the inputs' buffers hold their blocks; the accumulator after point `n` is
`n + 1` tile contributions added to zero; the two outputs, stored at the last point only, are the kernel's payloads of the
finished accumulator, the bias row and the positive targets. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched point has
    the same block index as the one before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched point has
    the same block index as the one before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched point has
    the same block index as the one before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched point has
    the same block index as the one before it). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched point has
    the same block index as the one before it). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched point has
    the same block index as the one before it). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The conditions in closed form, and where the output windows are idle -/

/-- The first conditional holds at the first point only. -/
theorem hcond0_1 : ∀ t : Fin cfg0.N, cond0_1 (grid0.coords t) ↔ t.val = 0 :=
  (by decide +kernel : ∀ t : Fin grid0.N, cond0_1 (grid0.coords t) ↔ t.val = 0)
/-- The second holds at the last point only. -/
theorem hcond0_2 : ∀ t : Fin cfg0.N, cond0_2 (grid0.coords t) ↔ t.val = 3 :=
  (by decide +kernel : ∀ t : Fin grid0.N, cond0_2 (grid0.coords t) ↔ t.val = 3)

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
/-- Away from the last point the two output windows are idle and not written back. -/
theorem idle0_6 : ∀ t : Fin cfg0.N, ¬cond0_2 (grid0.coords t) → cfg0.idle 6 (grid0.coords t) = true := by decide +kernel
theorem idle0_7 : ∀ t : Fin cfg0.N, ¬cond0_2 (grid0.coords t) → cfg0.idle 7 (grid0.coords t) = true := by decide +kernel
theorem noflush0_6 : ∀ t : Fin cfg0.N, ¬cond0_2 (grid0.coords t) → (cfg0.win 6).flush t = false := by decide +kernel
theorem noflush0_7 : ∀ t : Fin cfg0.N, ¬cond0_2 (grid0.coords t) → (cfg0.win 7).flush t = false := by decide +kernel
/-- At the last point they are live. -/
theorem live0_6 : ∀ t : Fin cfg0.N, cond0_2 (grid0.coords t) → cfg0.idle 6 (grid0.coords t) = false := by decide +kernel
theorem live0_7 : ∀ t : Fin cfg0.N, cond0_2 (grid0.coords t) → cfg0.idle 7 (grid0.coords t) = false := by decide +kernel

/-! ## The memrefs the body is called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM : Memref sig .tc .vmem S512x512 .f32 := Memref.whole cc0_scratch0

/-- The other region's staging buffers, at anything: they ride through this region untouched. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the accumulator as a memref owned at some contents. -/
theorem PhiA0_eq (c : Dev nD) :
    (Pipeline.ΦA spec0 c : sProp 𝕄)
      = iprop(((∃ d, owns (c : Thread nD τ) scM fullShare d) ∗ restB c) ∗ (∃ r, prngReg c r)) := by
  unfold Pipeline.ΦA restB; rw [scopedRest0_eq]; simp only [scM, owns_whole]; try rfl

/-! ## The accumulator point by point -/

/-- The accumulator after the body at position `n`: the first point starts from the zero splat, each later one from what
    the point before left. -/
def acc (c : Dev nD) : (n : ℕ) → n < cfg0.N → Vec F S512x512 .f32
  | 0, hn => accStep (iblk0 V c 0 ⟨0, hn⟩) (iblk0 V c 1 ⟨0, hn⟩) (iblk0 V c 2 ⟨0, hn⟩) (iblk0 V c 3 ⟨0, hn⟩) k0_pay3
  | n + 1, hn => accStep (iblk0 V c 0 ⟨n + 1, hn⟩) (iblk0 V c 1 ⟨n + 1, hn⟩) (iblk0 V c 2 ⟨n + 1, hn⟩) (iblk0 V c 3 ⟨n + 1, hn⟩) (acc c n (Nat.lt_of_succ_lt hn))

theorem acc_zero (c : Dev nD) (t : Fin cfg0.N) (h : t.val = 0) :
    acc V c t.val t.isLt = accStep (iblk0 V c 0 t) (iblk0 V c 1 t) (iblk0 V c 2 t) (iblk0 V c 3 t) k0_pay3 := by
  obtain ⟨n, hn⟩ := t; cases n with
  | zero => rfl
  | succ n => exact absurd h (Nat.succ_ne_zero n)

theorem acc_pos (c : Dev nD) (t : Fin cfg0.N) (h : t.val ≠ 0) :
    acc V c t.val t.isLt = accStep (iblk0 V c 0 t) (iblk0 V c 1 t) (iblk0 V c 2 t) (iblk0 V c 3 t) (acc V c (t.val - 1) (Nat.lt_of_le_of_lt (Nat.sub_le _ _) t.isLt)) := by
  obtain ⟨n, hn⟩ := t; cases n with
  | zero => exact absurd rfl h
  | succ n => rfl

/-- The region invariant before position `n`: before the first point the class's (the accumulator at anything);
    afterwards the accumulator at what the point before left, the other scoped buffers at anything, the generator
    register at some state. -/
def PhiS (c : Dev nD) : (n : ℕ) → n ≤ cfg0.N → sProp 𝕄
  | 0, _ => Pipeline.ΦA spec0 c
  | n + 1, hn => iprop((owns (c : Thread nD τ) scM fullShare (acc V c n hn) ∗ restB c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (acc V c n hn) ∗ restB c) ∗ (∃ r, prngReg c r)) := rfl

theorem PhiS_pos (c : Dev nD) (n : ℕ) (h : n ≤ cfg0.N) (hz : n ≠ 0) :
    PhiS V c n h = iprop((owns (c : Thread nD τ) scM fullShare (acc V c (n - 1) (by omega)) ∗ restB c) ∗ (∃ r, prngReg c r)) := by
  cases n with
  | zero => exact absurd rfl hz
  | succ n => rfl

/-! ## The proof data -/

/-- The embedding block the last point stores: the finished accumulator plus the bias row. -/
abbrev embOut (a : Vec F S512x512 .f32) (x4 : Vec F S1x512 .f32) : Vec F S512x512 .f32 := k0_pay1 a x4
/-- The positive-energy block the last point stores. -/
abbrev peOut (a : Vec F S512x512 .f32) (x4 : Vec F S1x512 .f32) (x5 : Vec F S512x512 .f32) : Vec F S512x128 .f32 := k0_pay2 a x4 x5

/-- The proof data of the embedding pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => embOut (acc V c t.val t.isLt) (iblk0 V c 4 t)
    | ⟨7, _⟩ => peOut (acc V c t.val t.isLt) (iblk0 V c 4 t) (iblk0 V c 5 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = embOut (acc V c t.val t.isLt) (iblk0 V c 4 t) := by dsimp only [dat0]
theorem after0_7 (c : Dev nD) (t : Fin cfg0.N) : (dat0 V c).after 7 t = peOut (acc V c t.val t.isLt) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Cert.Kernel.Hand

end
-- ==== Proof.K.R0Body.lean ====
import proofs.«177815_j10213432230335_2_alg».proof.Proof.Gen.Kernel.Launch
import proofs.«177815_j10213432230335_2_alg».proof.Proof.Gen.Kernel.Skeleton
import proofs.«177815_j10213432230335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177815_j10213432230335_2_alg».proof.Proof.K.R0Dat
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The embedding region's body obligation

At every point the pipeline hands the body the invariant, the core's dues and the eight windows' current buffers; the body
must hand back the invariant at the next position, the same dues and each buffer at what the proof data says. The six
inputs hold their blocks and are left alone; the two outputs are idle (handed back as found) except at the last point,
where they receive the embedding block and the positive-energy block; the accumulator moves one step. -/

variable (V : (c : Dev nD) → (b : Ref sig .tc) → Buf (Elt F) ((c : Thread nD τ).loc b))

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  have hN : t.val < 4 := lt_of_lt_of_eq t.isLt (show cfg0.N = 4 from N_0)
  by_cases h1 : t.val = 0
  · -- the first point: the accumulator is zeroed, then takes the first tile
    have hc1 : cond0_1 (grid0.coords t) := (hcond0_1 t).mpr h1
    have hc2 : ¬cond0_2 (grid0.coords t) := fun h => by have := (hcond0_2 t).mp h; omega
    rw [Dat.leavesExact_idle (dat0 V c) 6 t (idle0_6 t hc2) (noflush0_6 t hc2),
      Dat.leavesExact_idle (dat0 V c) 7 t (idle0_7 t hc2) (noflush0_7 t hc2)]
    rw [acc_zero V c t h1, PhiS_castSucc V c t, PhiS_zero V c _ _ h1, PhiA0_eq]
    iintro ⟨⟨⟨HS, HB⟩, Hg⟩, Ho, ⟨%d0, H0⟩, ⟨%d1, H1⟩, ⟨%d2, H2⟩, ⟨%d3, H3⟩, ⟨%d4, H4⟩, ⟨%d5, H5⟩, H6, H7⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h3 : t.val = 3
    · -- the last point: the last tile, then the two output blocks
      have hc1 : ¬cond0_1 (grid0.coords t) := fun h => h1 ((hcond0_1 t).mp h)
      have hc2 : cond0_2 (grid0.coords t) := (hcond0_2 t).mpr h3
      rw [show (dat0 V c).leavesExact 6 t = owns (c : Thread nD τ) (ms0_6 t) fullShare ((dat0 V c).after 6 t) from by
        unfold Dat.leavesExact; rw [live0_6 t hc2], after0_6]
      rw [show (dat0 V c).leavesExact 7 t = owns (c : Thread nD τ) (ms0_7 t) fullShare ((dat0 V c).after 7 t) from by
        unfold Dat.leavesExact; rw [live0_7 t hc2], after0_7]
      rw [acc_pos V c t h1, PhiS_castSucc V c t, PhiS_pos V c _ _ h1]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 (iblk0 V c 0 t) (iblk0 V c 1 t) (iblk0 V c 2 t) (iblk0 V c 3 t) (iblk0 V c 4 t) (iblk0 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point: one more tile
      have hc1 : ¬cond0_1 (grid0.coords t) := fun h => h1 ((hcond0_1 t).mp h)
      have hc2 : ¬cond0_2 (grid0.coords t) := fun h => h3 ((hcond0_2 t).mp h)
      rw [Dat.leavesExact_idle (dat0 V c) 6 t (idle0_6 t hc2) (noflush0_6 t hc2),
        Dat.leavesExact_idle (dat0 V c) 7 t (idle0_7 t hc2) (noflush0_7 t hc2)]
      rw [acc_pos V c t h1, PhiS_castSucc V c t, PhiS_pos V c _ _ h1]
      iintro ⟨⟨⟨HS, HB⟩, Hg⟩, Ho, ⟨%d0, H0⟩, ⟨%d1, H1⟩, ⟨%d2, H2⟩, ⟨%d3, H3⟩, ⟨%d4, H4⟩, ⟨%d5, H5⟩, H6, H7⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1 of the kernel program: the second kernel call, which turns a block of the embedding and a block
  of the (zero-padded) negative targets into a block of energies, on its grid of 4 x 8 points.

  Everything here is stated at a parameter `V`, the TensorCore's buffer contents when the region is entered.
  Window 0 is the embedding block of 128 samples by 512 channels (block row `i`), window 1 the block of 128
  negatives by 512 channels (block row `j`), window 2 the 128 x 128 block `(i, j)` of energies the body writes.
  The body reads the two input blocks in four channel chunks of 128 and stores one whole block; `out1_2` names
  what that store leaves, as a function of the two input blocks alone.
-/
import proofs.«177815_j10213432230335_2_alg».proof.Proof.Gen.Kernel.Launch
import proofs.«177815_j10213432230335_2_alg».proof.Proof.Gen.Kernel.Skeleton
import proofs.«177815_j10213432230335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The three windows' blocks at a grid point -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The embedding window's staging buffer holds the embedding block of the current block row at EVERY point of the
    grid, although the block is fetched only when the block row changes (every eighth point): between fetches the
    block index does not move and the body leaves the buffer as it found it. For any proof data over `V`'s arrays
    whose body leaves this window's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The negatives window's staging buffer holds the block of negatives of the current block column at every point
    (it is fetched at every point; the same statement covers it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- Channel chunk 0 (channels 0–127) of an input block; -/
abbrev chunk1_0 : Rect S128x512 := Rect.unit (s := S128x512) (k1_off1 0#32) S128x128.size (k1_off1_inb 0)
/-- chunk 1 (channels 128–255); -/
abbrev chunk1_1 : Rect S128x512 := Rect.unit (s := S128x512) (k1_off1 1#32) S128x128.size (k1_off1_inb 1)
/-- chunk 2 (channels 256–383); -/
abbrev chunk1_2 : Rect S128x512 := Rect.unit (s := S128x512) (k1_off1 2#32) S128x128.size (k1_off1_inb 2)
/-- chunk 3 (channels 384–511). -/
abbrev chunk1_3 : Rect S128x512 := Rect.unit (s := S128x512) (k1_off1 3#32) S128x128.size (k1_off1_inb 3)
/-- The whole output block. -/
abbrev whole1_2 : Rect S128x128 := Rect.unit (s := S128x128) ![0, 0] S128x128.size inb_S128x128_S128x128_0_0

/-! ## What the body leaves in the output window's buffer -/

/-- The energies' staging buffer after the body, from the embedding block `x0` and the negatives block `x1`: one
    store through the whole block, of the running sum over the four channel chunks (chunks 0 and 1 summed in
    `k1_pay2`, chunks 2 and 3 added in `k1_pay1`). -/
def out1_2 (x0 x1 : Vec F S128x512 .f32) : Vec F S128x128 .f32 :=
  View.canon [⟨whole1_2,
    k1_pay1 (k1_pay2 (View.ld x0 chunk1_0) (View.ld x1 chunk1_0) (View.ld x0 chunk1_1) (View.ld x1 chunk1_1))
      (k1_pay3 (View.ld x0 chunk1_2)) (View.ld x1 chunk1_2) (View.ld x0 chunk1_3) (View.ld x1 chunk1_3)⟩]

/-- The one store is through the whole block, so it covers it. -/
theorem cover1_2 (p0 : Vec F S128x128 .f32) (y : S128x128.Idx) :
    ∃ pc ∈ ([⟨whole1_2, p0⟩] : List (View.Piece (Elt F) S128x128 .f32)), y ∈ pc.1.set :=
  View.cover_of_tiled [⟨whole1_2, p0⟩] S128x128.size (by rfl) y

/-! ## The body's triple -/

set_option maxHeartbeats 1000000 in
/-- The body on whole staging memrefs — the two inputs' at read contents `x0`, `x1`, the output's at anything —
    runs to the continuation with the inputs' as they were and the output's at `out1_2 x0 x1`. -/
theorem sound_kernel1 (c : Dev nD) (E : Set ℕ) (i : grid1.Coords)
    (arg2 : Memref sig .tc .vmem S128x512 .f32) (harg2 : arg2.IsWhole)
    (arg3 : Memref sig .tc .vmem S128x512 .f32) (harg3 : arg3.IsWhole)
    (arg4 : Memref sig .tc .vmem S128x128 .f32) (harg4 : arg4.IsWhole)
    (x0 x1 : Vec F S128x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__ne_kernel i arg2 harg2 arg3 harg3 arg4 harg4) K := by
  simp only [cc1__ne_kernel_eq_skeleton]; unfold cc1__ne_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the region on core `c`: the arrays as the region finds them (`V`); after the body at point
    `t` each input's buffer still at its block and the output's at `out1_2` of the two input blocks; the invariant
    keeps the scoped rest and the generator register untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and the three current staging
    buffers at what the pipeline left in them; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Frame.lean ====
import proofs.«177815_j10213432230335_2_alg».proof.Proof.Gen.Kernel.Launch
import proofs.«177815_j10213432230335_2_alg».proof.Proof.Gen.Kernel.Skeleton
import proofs.«177815_j10213432230335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177815_j10213432230335_2_alg».proof.Proof.Gen.Kernel.Regions
import proofs.«177815_j10213432230335_2_alg».proof.Proof.K.R0Body
import proofs.«177815_j10213432230335_2_alg».proof.Proof.K.R1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run of @main

@main is six segments: three reshapes, the embedding region, a constant, the zero padding of the negatives, the energy
region, and the eight host operations that lay the two results out. The buffers' contents at each boundary are a fold
from the launch memory: a host stretch applies its operations, a region leaves its arrays at what its write-backs make
of them and every other buffer as entered. Each region is entered from "every unscoped buffer at the boundary's contents,
the generator register at some state, nothing owed" and left at the same with the next contents; so the run ends with
every unscoped buffer at the last boundary's contents, which is what both the frame claim and the value claim read. -/

variable (m : (ℓ : Loc nD τ sig) → Buf (Elt F) ℓ)

/-! ## The contents at each boundary -/

/-- At launch. -/
abbrev W0 : Dev nD → Valuation τ sig (Elt F) := fun c b => m (c, b)
/-- After the three reshapes (the embedding region's entry). -/
abbrev W1 : Dev nD → Valuation τ sig (Elt F) := fun c => StableHlo.after hostOps0 (W0 m c)
abbrev VR1 : (c : Dev nD) → (b : Ref sig .tc) → Buf (Elt F) ((c : Thread nD τ).loc b) := fun c b => W1 m c b
/-- At the embedding region's exit. -/
def W2 (c : Dev nD) : Valuation τ sig (Elt F) :=
  Pipeline.withArrays spec0 c (W1 m c) fun w => (dat0 (VR1 m) c).arrAt w cfg0.N
theorem W2_arr (c : Dev nD) (w : Fin cfg0.W) :
    W2 m c (Proc.devRef .tc (Pipeline.arrRef spec0 w)) = (dat0 (VR1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VR2 : (c : Dev nD) → (b : Ref sig .tc) → Buf (Elt F) ((c : Thread nD τ).loc b) := fun c b => W2 m c b
theorem hF0 (c : Dev nD) (w : Fin cfg0.W) : (dat0 (VR1 m) c).arrAt w cfg0.N = VR2 m c (Pipeline.arrRef spec0 w) :=
  (W2_arr m c w).symm
theorem hrest0 (c : Dev nD) : ∀ b, b ∉ Finset.univ.image (Pipeline.arrRef spec0) → VR2 m c b = VR1 m c b :=
  fun b hb => W2_of_ne m c b fun w e => hb (Finset.mem_image.mpr ⟨w, Finset.mem_univ _, e⟩)
/-- After the constant, -/
abbrev W3 : Dev nD → Valuation τ sig (Elt F) := fun c => StableHlo.after hostOps1 (W2 m c)
/-- and after the padding (the energy region's entry). -/
abbrev W4 : Dev nD → Valuation τ sig (Elt F) := fun c => StableHlo.after hostOps1_1 (W3 m c)
abbrev VR4 : (c : Dev nD) → (b : Ref sig .tc) → Buf (Elt F) ((c : Thread nD τ).loc b) := fun c b => W4 m c b
/-- At the energy region's exit. -/
def W5 (c : Dev nD) : Valuation τ sig (Elt F) :=
  Pipeline.withArrays spec1 c (W4 m c) fun w => (dat1 (VR4 m) c).arrAt w cfg1.N
theorem W5_arr (c : Dev nD) (w : Fin cfg1.W) :
    W5 m c (Proc.devRef .tc (Pipeline.arrRef spec1 w)) = (dat1 (VR4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev VR5 : (c : Dev nD) → (b : Ref sig .tc) → Buf (Elt F) ((c : Thread nD τ).loc b) := fun c b => W5 m c b
theorem hF1 (c : Dev nD) (w : Fin cfg1.W) : (dat1 (VR4 m) c).arrAt w cfg1.N = VR5 m c (Pipeline.arrRef spec1 w) :=
  (W5_arr m c w).symm
theorem hrest1 (c : Dev nD) : ∀ b, b ∉ Finset.univ.image (Pipeline.arrRef spec1) → VR5 m c b = VR4 m c b :=
  fun b hb => W5_of_ne m c b fun w e => hb (Finset.mem_image.mpr ⟨w, Finset.mem_univ _, e⟩)
/-- After the last stretch: what the launch reads at the end. -/
abbrev W6 : Dev nD → Valuation τ sig (Elt F) := fun c => StableHlo.after hostOps2 (W5 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m c) ∗ ∃ r, prngReg c r)

/-- After the last point the embedding region's invariant gives the class's back: the accumulator's contents are forgotten. -/
theorem hout0 (c : Dev nD) : (dat0 (VR1 m) c).Φ (Fin.last cfg0.N) ⊢ Pipeline.ΦA spec0 c := by
  rw [show (dat0 (VR1 m) c).Φ (Fin.last cfg0.N) = PhiS (VR1 m) c (Fin.last cfg0.N).val (Nat.le_of_lt_succ (Fin.last cfg0.N).isLt) from rfl,
    PhiS_pos (VR1 m) c _ _ (by rw [Fin.val_last]; have : cfg0.N = 4 := N_0; omega), PhiA0_eq]
  iintro ⟨⟨HS, HB⟩, Hg⟩
  isplitl [HS HB]
  · isplitl [HS]; · iexists _; iexact HS
    iexact HB
  iexact Hg

/-! ## The regions as segments -/

set_option backward.isDefEq.respectTransparency.types false in
/-- The embedding region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The energy region: entered from every unscoped buffer at `W4`, left at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (VR4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR4 m c) (VR5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

set_option backward.isDefEq.respectTransparency.types false in
/-- THE RUN: from any memory with zero counters every weakly fair execution of @main terminates, nothing faulting, and
    every final memory holds each unscoped buffer at the last boundary's contents `W6`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.K.Keep.lean ====
import proofs.«177815_j10213432230335_2_alg».proof.Proof.Gen.Kernel.Launch
import proofs.«177815_j10213432230335_2_alg».proof.Proof.Gen.Kernel.Skeleton
import proofs.«177815_j10213432230335_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«177815_j10213432230335_2_alg».proof.Proof.K.Frame
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Every argument array reaches the end as launched

No host operation writes an argument, the embedding region only reads the three it stages (an input window's array is
never written) and bypasses the rest, and the energy region stages none of them. -/

variable (m : (ℓ : Loc nD τ sig) → Buf (Elt F) ℓ)

/-- A buffer no host stretch writes, which the two regions leave as entered, holds its launch contents at the end. -/
theorem W6_keep (c : Dev nD) (r : Ref sig .tc) (h0 : r ∉ hostOps0_W) (h1 : r ∉ hostOps1_W) (h11 : r ∉ hostOps1_1_W) (h2 : r ∉ hostOps2_W)
    (hr0 : W2 m c (Proc.devRef .tc r) = W1 m c (Proc.devRef .tc r)) (hr1 : W5 m c (Proc.devRef .tc r) = W4 m c (Proc.devRef .tc r)) :
    W6 m c (Proc.devRef .tc r) = m ((c : Thread nD τ).loc r) :=
  (StableHlo.after_of_writes_sub hostOps2 _ hostOps2_writes h2).trans <| hr1.trans <|
    (StableHlo.after_of_writes_sub hostOps1_1 _ hostOps1_1_writes h11).trans <|
    (StableHlo.after_of_writes_sub hostOps1 _ hostOps1_writes h1).trans <| hr0.trans <|
    (StableHlo.after_of_writes_sub hostOps0 _ hostOps0_writes h0).trans rfl

/-- An input window's array leaves the embedding region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (VR1 m) c).arrAt_in w hw _).trans (A_eq0 (VR1 m) c w))

theorem W6_main_arg0 (c : Dev nD) : W6 m c (Proc.devRef .tc main_arg0) = m ((c : Thread nD τ).loc main_arg0) :=
  W6_keep m c main_arg0 (by decide) (by decide) (by decide) (by decide) (W2_in m c 0 rfl) (W5_of_ne m c main_arg0 (by decide))
theorem W6_main_arg1 (c : Dev nD) : W6 m c (Proc.devRef .tc main_arg1) = m ((c : Thread nD τ).loc main_arg1) :=
  W6_keep m c main_arg1 (by decide) (by decide) (by decide) (by decide) (W2_in m c 5 rfl) (W5_of_ne m c main_arg1 (by decide))
theorem W6_main_arg2 (c : Dev nD) : W6 m c (Proc.devRef .tc main_arg2) = m ((c : Thread nD τ).loc main_arg2) :=
  W6_keep m c main_arg2 (by decide) (by decide) (by decide) (by decide) (W2_of_ne m c main_arg2 (by decide)) (W5_of_ne m c main_arg2 (by decide))
theorem W6_main_arg3 (c : Dev nD) : W6 m c (Proc.devRef .tc main_arg3) = m ((c : Thread nD τ).loc main_arg3) :=
  W6_keep m c main_arg3 (by decide) (by decide) (by decide) (by decide) (W2_of_ne m c main_arg3 (by decide)) (W5_of_ne m c main_arg3 (by decide))
theorem W6_main_arg4 (c : Dev nD) : W6 m c (Proc.devRef .tc main_arg4) = m ((c : Thread nD τ).loc main_arg4) :=
  W6_keep m c main_arg4 (by decide) (by decide) (by decide) (by decide) (W2_of_ne m c main_arg4 (by decide)) (W5_of_ne m c main_arg4 (by decide))
theorem W6_main_arg5 (c : Dev nD) : W6 m c (Proc.devRef .tc main_arg5) = m ((c : Thread nD τ).loc main_arg5) :=
  W6_keep m c main_arg5 (by decide) (by decide) (by decide) (by decide) (W2_in m c 1 rfl) (W5_of_ne m c main_arg5 (by decide))
theorem W6_main_arg6 (c : Dev nD) : W6 m c (Proc.devRef .tc main_arg6) = m ((c : Thread nD τ).loc main_arg6) :=
  W6_keep m c main_arg6 (by decide) (by decide) (by decide) (by decide) (W2_of_ne m c main_arg6 (by decide)) (W5_of_ne m c main_arg6 (by decide))

/-- THE FRAME CLAIM's post, at any instance: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c)⟩) (run_all m ρ)

end Cert.Kernel.Hand

end
-- ==== Proof.KI.R0Run.lean ====
import proofs.«177815_j10213432230335_2_alg».proof.Proof.Gen.KernelIdeal.Launch
import proofs.«177815_j10213432230335_2_alg».proof.Proof.Gen.KernelIdeal.Skeleton
import proofs.«177815_j10213432230335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the embedding kernel, run once per control case

The grid has four points, one per tile of 1024 feature columns. At every point the body adds to an accumulator (a scratch
matrix of 512 by 512 carried from point to point) the product of the normalised feature tile with the weight tile; at
the first point it zeroes the accumulator before, and at the last point it afterwards writes the two output blocks from
the finished accumulator. So there are three control cases: first, middle, last. Every store is through the whole
rectangle of its buffer, so each buffer ends holding exactly the last value stored into it. -/

/-- The first conditional of the body: the grid coordinate is zero. -/
abbrev cond0_1 (i : grid0.Coords) : Prop := (Scalar.cmpi .ne (Scalar.extui (Scalar.cmpi .eq (BitVec.ofNat 32 (i 0).val) 0#32)) 0#32) = 1#1
/-- The second: the grid coordinate is the last. -/
abbrev cond0_2 (i : grid0.Coords) : Prop := k0_cond2 i = 1#1

/-- The zero offsets of a rank-2 rectangle, as a constant function. -/
theorem hz2 : (![0, 0] : Fin 2 → ℕ) = fun _ => 0 := by funext a; fin_cases a <;> rfl

/-- A list whose first piece is the whole rectangle covers every index. -/
theorem cover_whole {S : Shape} {e : EltTy} (off : Fin S.rank → ℕ) (h : off = fun _ => 0) (inb : ∀ a, off a + S.size a ≤ S.size a)
    (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self .., View.mem_set_unit_zero h inb y⟩

/-- The accumulator after a point: the tile's contribution added to what it held (the kernel's own payload). -/
abbrev accStep (x0 x1 : Vec F S512x1024 .f32) (x2 x3 : Vec F S1x1024 .f32) (xs : Vec F S512x512 .f32) : Vec F S512x512 .f32 :=
  k0_pay4 x0 x2 x3 x1 xs

set_option maxHeartbeats 2000000 in
/-- MIDDLE points: the accumulator goes from `xs` to `accStep … xs`; nothing else is touched. -/
theorem run_mid (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x512 .f32) (harg9 : arg9.IsWhole)
    (h1 : ¬cond0_1 i) (h2 : ¬cond0_2 i)
    (x0 x1 : Vec F S512x1024 .f32) (x2 x3 : Vec F S1x1024 .f32) (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg9 fullShare (accStep x0 x1 x2 x3 xs)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg9.eq_unread hfs
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  rw [View.read_writes_eq_canon _ _ _ (cover_whole _ hz2 _ _ _), View.canon_unit_zero hz2]
  simp only [View.readAt_eq_ld, hf0, hf1, hf2, hf3, hfs, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]

set_option maxHeartbeats 2000000 in
/-- FIRST point: the accumulator, whatever it held, is zeroed and then takes the first tile's contribution. -/
theorem run_first (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x512 .f32) (harg9 : arg9.IsWhole)
    (h1 : cond0_1 i) (h2 : ¬cond0_2 i)
    (x0 x1 : Vec F S512x1024 .f32) (x2 x3 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg9 fullShare (accStep x0 x1 x2 x3 k0_pay3)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg1.eq_unread hf0; obtain rfl := harg2.eq_unread hf1; obtain rfl := harg3.eq_unread hf2
  obtain rfl := harg4.eq_unread hf3
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  sl_unfold_run_names
  rw [View.read_writes_eq_canon _ _ _ (cover_whole _ hz2 _ _ _), View.canon_cons_unit_zero hz2]
  simp only [View.readAt_eq_ld, hf0, hf1, hf2, hf3, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]

set_option maxHeartbeats 4000000 in
/-- LAST point: the accumulator takes the last tile's contribution; then the embedding block (accumulator plus bias row)
    and the positive-energy block are stored from it. -/
theorem run_last (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x512 .f32) (harg9 : arg9.IsWhole)
    (h1 : ¬cond0_1 i) (h2 : cond0_2 i)
    (x0 x1 : Vec F S512x1024 .f32) (x2 x3 : Vec F S1x1024 .f32) (x4 : Vec F S1x512 .f32) (x5 : Vec F S512x512 .f32)
    (xs : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k0_pay1 (accStep x0 x1 x2 x3 xs) x4) ∗ owns (c : Thread nD τ) arg8 fullShare (k0_pay2 (accStep x0 x1 x2 x3 xs) x4 x5)
            ∗ owns (c : Thread nD τ) arg9 fullShare (accStep x0 x1 x2 x3 xs)) -∗ K ⟨⟩))
      ⊢ wp frame (wpE (defs₀ (F := F)) Variants.none c none) E (cc0__emb_kernel i arg1 harg1 arg2 harg2 arg3 harg3 arg4 harg4 arg5 harg5 arg6 harg6 arg7 harg7 arg8 harg8 arg9 harg9) K := by
  simp only [cc0__emb_kernel_eq_skeleton]; unfold cc0__emb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5; obtain rfl := harg9.eq_unread hfs
  sl_exec (disch := first | exact h1 | exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H7]
  · iexists _; isplitr
    swap; · iexact H7
    ipureintro
    sl_unfold_run_names
    rw [View.read_writes_eq_canon _ _ _ (cover_whole _ hz2 _ _ _), View.canon_cons_unit_zero hz2]
    simp only [View.readAt_eq_ld, hf0, hf1, hf2, hf3, hf4, hf5, hfs, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]
  isplitl [H8]
  · iexists _; isplitr
    swap; · iexact H8
    ipureintro
    sl_unfold_run_names
    rw [View.read_writes_eq_canon _ _ _ (cover_whole _ hz2 _ _ _), View.canon_cons_unit_zero hz2]
    simp only [View.readAt_eq_ld, hf0, hf1, hf2, hf3, hf4, hf5, hfs, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]
  iexists _; isplitr
  swap; · iexact HS
  ipureintro
  sl_unfold_run_names
  rw [View.read_writes_eq_canon _ _ _ (cover_whole _ hz2 _ _ _), View.canon_cons_unit_zero hz2]
  simp only [View.readAt_eq_ld, hf0, hf1, hf2, hf3, hf4, hf5, hfs, View.ld_unit_zero (S := S512x1024) hz2, View.ld_unit_zero (S := S1x1024) hz2, View.ld_unit_zero (S := S512x512) hz2, View.ld_unit_zero (S := S1x512) hz2, View.ld_unit_zero (S := S512x128) hz2, View.readCov_unit_zero (S := S512x512) _ hz2]

end Cert.KernelIdeal.Hand

end
-- ==== Proof.KI.R0Dat.lean ====
import proofs.«177815_j10213432230335_2_alg».proof.Proof.Gen.KernelIdeal.Launch
import proofs.«177815_j10213432230335_2_alg».proof.Proof.Gen.KernelIdeal.Skeleton
import proofs.«177815_j10213432230335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177815_j10213432230335_2_alg».proof.Proof.KI.R0Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The embedding region's proof data

What each window's staging buffer and the carried accumulator hold after the body at each of the four grid points, as
functions of the arrays the region finds (`V`): the inputs' buffers hold their blocks; the accumulator after point `n` is
`n + 1` tile contributions added to zero; the two outputs, stored at the last point only, are the kernel's payloads of the
finished accumulator, the bias row and the positive targets. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched point has
    the same block index as the one before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (an unfetched point has
    the same block index as the one before it). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (an unfetched point has
    the same block index as the one before it). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (an unfetched point has
    the same block index as the one before it). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (an unfetched point has
    the same block index as the one before it). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (an unfetched point has
    the same block index as the one before it). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The conditions in closed form, and where the output windows are idle -/

/-- The first conditional holds at the first point only. -/
theorem hcond0_1 : ∀ t : Fin cfg0.N, cond0_1 (grid0.coords t) ↔ t.val = 0 :=
  (by decide +kernel : ∀ t : Fin grid0.N, cond0_1 (grid0.coords t) ↔ t.val = 0)
/-- The second holds at the last point only. -/
theorem hcond0_2 : ∀ t : Fin cfg0.N, cond0_2 (grid0.coords t) ↔ t.val = 3 :=
  (by decide +kernel : ∀ t : Fin grid0.N, cond0_2 (grid0.coords t) ↔ t.val = 3)

theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem live0_5 : ∀ t : Fin cfg0.N, cfg0.idle 5 (grid0.coords t) = false := fun _ => rfl
/-- Away from the last point the two output windows are idle and not written back. -/
theorem idle0_6 : ∀ t : Fin cfg0.N, ¬cond0_2 (grid0.coords t) → cfg0.idle 6 (grid0.coords t) = true := by decide +kernel
theorem idle0_7 : ∀ t : Fin cfg0.N, ¬cond0_2 (grid0.coords t) → cfg0.idle 7 (grid0.coords t) = true := by decide +kernel
theorem noflush0_6 : ∀ t : Fin cfg0.N, ¬cond0_2 (grid0.coords t) → (cfg0.win 6).flush t = false := by decide +kernel
theorem noflush0_7 : ∀ t : Fin cfg0.N, ¬cond0_2 (grid0.coords t) → (cfg0.win 7).flush t = false := by decide +kernel
/-- At the last point they are live. -/
theorem live0_6 : ∀ t : Fin cfg0.N, cond0_2 (grid0.coords t) → cfg0.idle 6 (grid0.coords t) = false := by decide +kernel
theorem live0_7 : ∀ t : Fin cfg0.N, cond0_2 (grid0.coords t) → cfg0.idle 7 (grid0.coords t) = false := by decide +kernel

/-! ## The memrefs the body is called with -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM : Memref sig .tc .vmem S512x512 .f32 := Memref.whole cc0_scratch0

/-- The other region's staging buffers, at anything: they ride through this region untouched. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the accumulator as a memref owned at some contents. -/
theorem PhiA0_eq (c : Dev nD) :
    (Pipeline.ΦA spec0 c : sProp 𝕄)
      = iprop(((∃ d, owns (c : Thread nD τ) scM fullShare d) ∗ restB c) ∗ (∃ r, prngReg c r)) := by
  unfold Pipeline.ΦA restB; rw [scopedRest0_eq]; simp only [scM, owns_whole]; try rfl

/-! ## The accumulator point by point -/

/-- The accumulator after the body at position `n`: the first point starts from the zero splat, each later one from what
    the point before left. -/
def acc (c : Dev nD) : (n : ℕ) → n < cfg0.N → Vec F S512x512 .f32
  | 0, hn => accStep (iblk0 V c 0 ⟨0, hn⟩) (iblk0 V c 1 ⟨0, hn⟩) (iblk0 V c 2 ⟨0, hn⟩) (iblk0 V c 3 ⟨0, hn⟩) k0_pay3
  | n + 1, hn => accStep (iblk0 V c 0 ⟨n + 1, hn⟩) (iblk0 V c 1 ⟨n + 1, hn⟩) (iblk0 V c 2 ⟨n + 1, hn⟩) (iblk0 V c 3 ⟨n + 1, hn⟩) (acc c n (Nat.lt_of_succ_lt hn))

theorem acc_zero (c : Dev nD) (t : Fin cfg0.N) (h : t.val = 0) :
    acc V c t.val t.isLt = accStep (iblk0 V c 0 t) (iblk0 V c 1 t) (iblk0 V c 2 t) (iblk0 V c 3 t) k0_pay3 := by
  obtain ⟨n, hn⟩ := t; cases n with
  | zero => rfl
  | succ n => exact absurd h (Nat.succ_ne_zero n)

theorem acc_pos (c : Dev nD) (t : Fin cfg0.N) (h : t.val ≠ 0) :
    acc V c t.val t.isLt = accStep (iblk0 V c 0 t) (iblk0 V c 1 t) (iblk0 V c 2 t) (iblk0 V c 3 t) (acc V c (t.val - 1) (Nat.lt_of_le_of_lt (Nat.sub_le _ _) t.isLt)) := by
  obtain ⟨n, hn⟩ := t; cases n with
  | zero => exact absurd rfl h
  | succ n => rfl

/-- The region invariant before position `n`: before the first point the class's (the accumulator at anything);
    afterwards the accumulator at what the point before left, the other scoped buffers at anything, the generator
    register at some state. -/
def PhiS (c : Dev nD) : (n : ℕ) → n ≤ cfg0.N → sProp 𝕄
  | 0, _ => Pipeline.ΦA spec0 c
  | n + 1, hn => iprop((owns (c : Thread nD τ) scM fullShare (acc V c n hn) ∗ restB c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (acc V c n hn) ∗ restB c) ∗ (∃ r, prngReg c r)) := rfl

theorem PhiS_pos (c : Dev nD) (n : ℕ) (h : n ≤ cfg0.N) (hz : n ≠ 0) :
    PhiS V c n h = iprop((owns (c : Thread nD τ) scM fullShare (acc V c (n - 1) (by omega)) ∗ restB c) ∗ (∃ r, prngReg c r)) := by
  cases n with
  | zero => exact absurd rfl hz
  | succ n => rfl

/-! ## The proof data -/

/-- The embedding block the last point stores: the finished accumulator plus the bias row. -/
abbrev embOut (a : Vec F S512x512 .f32) (x4 : Vec F S1x512 .f32) : Vec F S512x512 .f32 := k0_pay1 a x4
/-- The positive-energy block the last point stores. -/
abbrev peOut (a : Vec F S512x512 .f32) (x4 : Vec F S1x512 .f32) (x5 : Vec F S512x512 .f32) : Vec F S512x128 .f32 := k0_pay2 a x4 x5

/-- The proof data of the embedding pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => embOut (acc V c t.val t.isLt) (iblk0 V c 4 t)
    | ⟨7, _⟩ => peOut (acc V c t.val t.isLt) (iblk0 V c 4 t) (iblk0 V c 5 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = embOut (acc V c t.val t.isLt) (iblk0 V c 4 t) := by dsimp only [dat0]
theorem after0_7 (c : Dev nD) (t : Fin cfg0.N) : (dat0 V c).after 7 t = peOut (acc V c t.val t.isLt) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

end Cert.KernelIdeal.Hand

end
-- ==== Proof.KI.R0Body.lean ====
import proofs.«177815_j10213432230335_2_alg».proof.Proof.Gen.KernelIdeal.Launch
import proofs.«177815_j10213432230335_2_alg».proof.Proof.Gen.KernelIdeal.Skeleton
import proofs.«177815_j10213432230335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177815_j10213432230335_2_alg».proof.Proof.KI.R0Dat
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The embedding region's body obligation

At every point the pipeline hands the body the invariant, the core's dues and the eight windows' current buffers; the body
must hand back the invariant at the next position, the same dues and each buffer at what the proof data says. The six
inputs hold their blocks and are left alone; the two outputs are idle (handed back as found) except at the last point,
where they receive the embedding block and the positive-energy block; the accumulator moves one step. -/

variable (V : (c : Dev nD) → (b : Ref sig .tc) → Buf (Elt F) ((c : Thread nD τ).loc b))

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  rw [show (dat0 V c).leavesExact 5 t = owns (c : Thread nD τ) (ms0_5 t) fullShare ((dat0 V c).after 5 t) from by
    unfold Dat.leavesExact; rw [live0_5 t], after0_5]
  have hN : t.val < 4 := lt_of_lt_of_eq t.isLt (show cfg0.N = 4 from N_0)
  by_cases h1 : t.val = 0
  · -- the first point: the accumulator is zeroed, then takes the first tile
    have hc1 : cond0_1 (grid0.coords t) := (hcond0_1 t).mpr h1
    have hc2 : ¬cond0_2 (grid0.coords t) := fun h => by have := (hcond0_2 t).mp h; omega
    rw [Dat.leavesExact_idle (dat0 V c) 6 t (idle0_6 t hc2) (noflush0_6 t hc2),
      Dat.leavesExact_idle (dat0 V c) 7 t (idle0_7 t hc2) (noflush0_7 t hc2)]
    rw [acc_zero V c t h1, PhiS_castSucc V c t, PhiS_zero V c _ _ h1, PhiA0_eq]
    iintro ⟨⟨⟨HS, HB⟩, Hg⟩, Ho, ⟨%d0, H0⟩, ⟨%d1, H1⟩, ⟨%d2, H2⟩, ⟨%d3, H3⟩, ⟨%d4, H4⟩, ⟨%d5, H5⟩, H6, H7⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HB Hg]
    · isplitl [HS HB]
      · isplitl [HS]; · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h3 : t.val = 3
    · -- the last point: the last tile, then the two output blocks
      have hc1 : ¬cond0_1 (grid0.coords t) := fun h => h1 ((hcond0_1 t).mp h)
      have hc2 : cond0_2 (grid0.coords t) := (hcond0_2 t).mpr h3
      rw [show (dat0 V c).leavesExact 6 t = owns (c : Thread nD τ) (ms0_6 t) fullShare ((dat0 V c).after 6 t) from by
        unfold Dat.leavesExact; rw [live0_6 t hc2], after0_6]
      rw [show (dat0 V c).leavesExact 7 t = owns (c : Thread nD τ) (ms0_7 t) fullShare ((dat0 V c).after 7 t) from by
        unfold Dat.leavesExact; rw [live0_7 t hc2], after0_7]
      rw [acc_pos V c t h1, PhiS_castSucc V c t, PhiS_pos V c _ _ h1]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 (iblk0 V c 0 t) (iblk0 V c 1 t) (iblk0 V c 2 t) (iblk0 V c 3 t) (iblk0 V c 4 t) (iblk0 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a middle point: one more tile
      have hc1 : ¬cond0_1 (grid0.coords t) := fun h => h1 ((hcond0_1 t).mp h)
      have hc2 : ¬cond0_2 (grid0.coords t) := fun h => h3 ((hcond0_2 t).mp h)
      rw [Dat.leavesExact_idle (dat0 V c) 6 t (idle0_6 t hc2) (noflush0_6 t hc2),
        Dat.leavesExact_idle (dat0 V c) 7 t (idle0_7 t hc2) (noflush0_7 t hc2)]
      rw [acc_pos V c t h1, PhiS_castSucc V c t, PhiS_pos V c _ _ h1]
      iintro ⟨⟨⟨HS, HB⟩, Hg⟩, Ho, ⟨%d0, H0⟩, ⟨%d1, H1⟩, ⟨%d2, H2⟩, ⟨%d3, H3⟩, ⟨%d4, H4⟩, ⟨%d5, H5⟩, H6, H7⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc1 hc2 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HB Hg]
      · isplitl [HS HB]
        · isplitl [HS]; · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1 of the idealized kernel program: the second kernel call, which turns a block of the embedding and a block
  of the (zero-padded) negative targets into a block of energies, on its grid of 4 x 8 points.

  Everything here is stated at a parameter `V`, the TensorCore's buffer contents when the region is entered.
  Window 0 is the embedding block of 128 samples by 512 channels (block row `i`), window 1 the block of 128
  negatives by 512 channels (block row `j`), window 2 the 128 x 128 block `(i, j)` of energies the body writes.
  The body reads the two input blocks in four channel chunks of 128 and stores one whole block; `out1_2` names
  what that store leaves, as a function of the two input blocks alone.
-/
import proofs.«177815_j10213432230335_2_alg».proof.Proof.Gen.KernelIdeal.Launch
import proofs.«177815_j10213432230335_2_alg».proof.Proof.Gen.KernelIdeal.Skeleton
import proofs.«177815_j10213432230335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The three windows' blocks at a grid point -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The embedding window's staging buffer holds the embedding block of the current block row at EVERY point of the
    grid, although the block is fetched only when the block row changes (every eighth point): between fetches the
    block index does not move and the body leaves the buffer as it found it. For any proof data over `V`'s arrays
    whose body leaves this window's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The negatives window's staging buffer holds the block of negatives of the current block column at every point
    (it is fetched at every point; the same statement covers it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- Channel chunk 0 (channels 0–127) of an input block; -/
abbrev chunk1_0 : Rect S128x512 := Rect.unit (s := S128x512) (k1_off1 0#32) S128x128.size (k1_off1_inb 0)
/-- chunk 1 (channels 128–255); -/
abbrev chunk1_1 : Rect S128x512 := Rect.unit (s := S128x512) (k1_off1 1#32) S128x128.size (k1_off1_inb 1)
/-- chunk 2 (channels 256–383); -/
abbrev chunk1_2 : Rect S128x512 := Rect.unit (s := S128x512) (k1_off1 2#32) S128x128.size (k1_off1_inb 2)
/-- chunk 3 (channels 384–511). -/
abbrev chunk1_3 : Rect S128x512 := Rect.unit (s := S128x512) (k1_off1 3#32) S128x128.size (k1_off1_inb 3)
/-- The whole output block. -/
abbrev whole1_2 : Rect S128x128 := Rect.unit (s := S128x128) ![0, 0] S128x128.size inb_S128x128_S128x128_0_0

/-! ## What the body leaves in the output window's buffer -/

/-- The energies' staging buffer after the body, from the embedding block `x0` and the negatives block `x1`: one
    store through the whole block, of the running sum over the four channel chunks (chunks 0 and 1 summed in
    `k1_pay2`, chunks 2 and 3 added in `k1_pay1`). -/
def out1_2 (x0 x1 : Vec F S128x512 .f32) : Vec F S128x128 .f32 :=
  View.canon [⟨whole1_2,
    k1_pay1 (k1_pay2 (View.ld x0 chunk1_0) (View.ld x1 chunk1_0) (View.ld x0 chunk1_1) (View.ld x1 chunk1_1))
      (k1_pay3 (View.ld x0 chunk1_2)) (View.ld x1 chunk1_2) (View.ld x0 chunk1_3) (View.ld x1 chunk1_3)⟩]

/-- The one store is through the whole block, so it covers it. -/
theorem cover1_2 (p0 : Vec F S128x128 .f32) (y : S128x128.Idx) :
    ∃ pc ∈ ([⟨whole1_2, p0⟩] : List (View.Piece (Elt F) S128x128 .f32)), y ∈ pc.1.set :=
  View.cover_of_tiled [⟨whole1_2, p0⟩] S128x128.size (by rfl) y

/-! ## The body's triple -/

set_option maxHeartbeats 1000000 in
/-- The body on whole staging memrefs — the two inputs' at read contents `x0`, `x1`, the output's at anything —
    runs to the continuation with the inputs' as they were and the output's at `out1_2 x0 x1`. -/
theorem sound_kernel1 (c : Dev nD) (E : Set ℕ) (i : grid1.Coords)
    (arg2 : Memref sig .tc .vmem S128x512 .f32) (harg2 : arg2.IsWhole)
    (arg3 : Memref sig .tc .vmem S128x512 .f32) (harg3 : arg3.IsWhole)
    (arg4 : Memref sig .tc .vmem S128x128 .f32) (harg4 : arg4.IsWhole)
    (x0 x1 : Vec F S128x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__ne_kernel i arg2 harg2 arg3 harg3 arg4 harg4) K := by
  simp only [cc1__ne_kernel_eq_skeleton]; unfold cc1__ne_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The region's proof data -/

/-- The proof data of the region on core `c`: the arrays as the region finds them (`V`); after the body at point
    `t` each input's buffer still at its block and the output's at `out1_2` of the two input blocks; the invariant
    keeps the scoped rest and the generator register untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, the core's debts, and the three current staging
    buffers at what the pipeline left in them; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Frame.lean ====
import proofs.«177815_j10213432230335_2_alg».proof.Proof.Gen.KernelIdeal.Launch
import proofs.«177815_j10213432230335_2_alg».proof.Proof.Gen.KernelIdeal.Skeleton
import proofs.«177815_j10213432230335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«177815_j10213432230335_2_alg».proof.Proof.Gen.KernelIdeal.Regions
import proofs.«177815_j10213432230335_2_alg».proof.Proof.KI.R0Body
import proofs.«177815_j10213432230335_2_alg».proof.Proof.KI.R1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run of @main

@main is six segments: three reshapes, the embedding region, a constant, the zero padding of the negatives, the energy
region, and the eight host operations that lay the two results out. The buffers' contents at each boundary are a fold
from the launch memory: a host stretch applies its operations, a region leaves its arrays at what its write-backs make
of them and every other buffer as entered. Each region is entered from "every unscoped buffer at the boundary's contents,
the generator register at some state, nothing owed" and left at the same with the next contents; so the run ends with
every unscoped buffer at the last boundary's contents, which is what both the frame claim and the value claim read. -/

variable (m : (ℓ : Loc nD τ sig) → Buf (Elt F) ℓ)

/-! ## The contents at each boundary -/

/-- At launch. -/
abbrev W0 : Dev nD → Valuation τ sig (Elt F) := fun c b => m (c, b)
/-- After the three reshapes (the embedding region's entry). -/
abbrev W1 : Dev nD → Valuation τ sig (Elt F) := fun c => StableHlo.after hostOps0 (W0 m c)
abbrev VR1 : (c : Dev nD) → (b : Ref sig .tc) → Buf (Elt F) ((c : Thread nD τ).loc b) := fun c b => W1 m c b
/-- At the embedding region's exit. -/
def W2 (c : Dev nD) : Valuation τ sig (Elt F) :=
  Pipeline.withArrays spec0 c (W1 m c) fun w => (dat0 (VR1 m) c).arrAt w cfg0.N
theorem W2_arr (c : Dev nD) (w : Fin cfg0.W) :
    W2 m c (Proc.devRef .tc (Pipeline.arrRef spec0 w)) = (dat0 (VR1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VR2 : (c : Dev nD) → (b : Ref sig .tc) → Buf (Elt F) ((c : Thread nD τ).loc b) := fun c b => W2 m c b
theorem hF0 (c : Dev nD) (w : Fin cfg0.W) : (dat0 (VR1 m) c).arrAt w cfg0.N = VR2 m c (Pipeline.arrRef spec0 w) :=
  (W2_arr m c w).symm
theorem hrest0 (c : Dev nD) : ∀ b, b ∉ Finset.univ.image (Pipeline.arrRef spec0) → VR2 m c b = VR1 m c b :=
  fun b hb => W2_of_ne m c b fun w e => hb (Finset.mem_image.mpr ⟨w, Finset.mem_univ _, e⟩)
/-- After the constant, -/
abbrev W3 : Dev nD → Valuation τ sig (Elt F) := fun c => StableHlo.after hostOps1 (W2 m c)
/-- and after the padding (the energy region's entry). -/
abbrev W4 : Dev nD → Valuation τ sig (Elt F) := fun c => StableHlo.after hostOps1_1 (W3 m c)
abbrev VR4 : (c : Dev nD) → (b : Ref sig .tc) → Buf (Elt F) ((c : Thread nD τ).loc b) := fun c b => W4 m c b
/-- At the energy region's exit. -/
def W5 (c : Dev nD) : Valuation τ sig (Elt F) :=
  Pipeline.withArrays spec1 c (W4 m c) fun w => (dat1 (VR4 m) c).arrAt w cfg1.N
theorem W5_arr (c : Dev nD) (w : Fin cfg1.W) :
    W5 m c (Proc.devRef .tc (Pipeline.arrRef spec1 w)) = (dat1 (VR4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev VR5 : (c : Dev nD) → (b : Ref sig .tc) → Buf (Elt F) ((c : Thread nD τ).loc b) := fun c b => W5 m c b
theorem hF1 (c : Dev nD) (w : Fin cfg1.W) : (dat1 (VR4 m) c).arrAt w cfg1.N = VR5 m c (Pipeline.arrRef spec1 w) :=
  (W5_arr m c w).symm
theorem hrest1 (c : Dev nD) : ∀ b, b ∉ Finset.univ.image (Pipeline.arrRef spec1) → VR5 m c b = VR4 m c b :=
  fun b hb => W5_of_ne m c b fun w e => hb (Finset.mem_image.mpr ⟨w, Finset.mem_univ _, e⟩)
/-- After the last stretch: what the launch reads at the end. -/
abbrev W6 : Dev nD → Valuation τ sig (Elt F) := fun c => StableHlo.after hostOps2 (W5 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m c) ∗ ∃ r, prngReg c r)

/-- After the last point the embedding region's invariant gives the class's back: the accumulator's contents are forgotten. -/
theorem hout0 (c : Dev nD) : (dat0 (VR1 m) c).Φ (Fin.last cfg0.N) ⊢ Pipeline.ΦA spec0 c := by
  rw [show (dat0 (VR1 m) c).Φ (Fin.last cfg0.N) = PhiS (VR1 m) c (Fin.last cfg0.N).val (Nat.le_of_lt_succ (Fin.last cfg0.N).isLt) from rfl,
    PhiS_pos (VR1 m) c _ _ (by rw [Fin.val_last]; have : cfg0.N = 4 := N_0; omega), PhiA0_eq]
  iintro ⟨⟨HS, HB⟩, Hg⟩
  isplitl [HS HB]
  · isplitl [HS]; · iexists _; iexact HS
    iexact HB
  iexact Hg

/-! ## The regions as segments -/

set_option backward.isDefEq.respectTransparency.types false in
/-- The embedding region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The energy region: entered from every unscoped buffer at `W4`, left at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (VR4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR4 m c) (VR5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's six segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

set_option backward.isDefEq.respectTransparency.types false in
/-- THE RUN: from any memory with zero counters every weakly fair execution of @main terminates, nothing faulting, and
    every final memory holds each unscoped buffer at the last boundary's contents `W6`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.KI.Keep.lean ====
import proofs.«177815_j10213432230335_2_alg».proof.Proof.Gen.KernelIdeal.Launch
import proofs.«177815_j10213432230335_2_alg».proof.Proof.Gen.KernelIdeal.Skeleton
import proofs.«177815_j10213432230335_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«177815_j10213432230335_2_alg».proof.Proof.KI.Frame
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Every argument array reaches the end as launched

No host operation writes an argument, the embedding region only reads the three it stages (an input window's array is
never written) and bypasses the rest, and the energy region stages none of them. -/

variable (m : (ℓ : Loc nD τ sig) → Buf (Elt F) ℓ)

/-- A buffer no host stretch writes, which the two regions leave as entered, holds its launch contents at the end. -/
theorem W6_keep (c : Dev nD) (r : Ref sig .tc) (h0 : r ∉ hostOps0_W) (h1 : r ∉ hostOps1_W) (h11 : r ∉ hostOps1_1_W) (h2 : r ∉ hostOps2_W)
    (hr0 : W2 m c (Proc.devRef .tc r) = W1 m c (Proc.devRef .tc r)) (hr1 : W5 m c (Proc.devRef .tc r) = W4 m c (Proc.devRef .tc r)) :
    W6 m c (Proc.devRef .tc r) = m ((c : Thread nD τ).loc r) :=
  (StableHlo.after_of_writes_sub hostOps2 _ hostOps2_writes h2).trans <| hr1.trans <|
    (StableHlo.after_of_writes_sub hostOps1_1 _ hostOps1_1_writes h11).trans <|
    (StableHlo.after_of_writes_sub hostOps1 _ hostOps1_writes h1).trans <| hr0.trans <|
    (StableHlo.after_of_writes_sub hostOps0 _ hostOps0_writes h0).trans rfl

/-- An input window's array leaves the embedding region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (VR1 m) c).arrAt_in w hw _).trans (A_eq0 (VR1 m) c w))

theorem W6_main_arg0 (c : Dev nD) : W6 m c (Proc.devRef .tc main_arg0) = m ((c : Thread nD τ).loc main_arg0) :=
  W6_keep m c main_arg0 (by decide) (by decide) (by decide) (by decide) (W2_in m c 0 rfl) (W5_of_ne m c main_arg0 (by decide))
theorem W6_main_arg1 (c : Dev nD) : W6 m c (Proc.devRef .tc main_arg1) = m ((c : Thread nD τ).loc main_arg1) :=
  W6_keep m c main_arg1 (by decide) (by decide) (by decide) (by decide) (W2_in m c 5 rfl) (W5_of_ne m c main_arg1 (by decide))
theorem W6_main_arg2 (c : Dev nD) : W6 m c (Proc.devRef .tc main_arg2) = m ((c : Thread nD τ).loc main_arg2) :=
  W6_keep m c main_arg2 (by decide) (by decide) (by decide) (by decide) (W2_of_ne m c main_arg2 (by decide)) (W5_of_ne m c main_arg2 (by decide))
theorem W6_main_arg3 (c : Dev nD) : W6 m c (Proc.devRef .tc main_arg3) = m ((c : Thread nD τ).loc main_arg3) :=
  W6_keep m c main_arg3 (by decide) (by decide) (by decide) (by decide) (W2_of_ne m c main_arg3 (by decide)) (W5_of_ne m c main_arg3 (by decide))
theorem W6_main_arg4 (c : Dev nD) : W6 m c (Proc.devRef .tc main_arg4) = m ((c : Thread nD τ).loc main_arg4) :=
  W6_keep m c main_arg4 (by decide) (by decide) (by decide) (by decide) (W2_of_ne m c main_arg4 (by decide)) (W5_of_ne m c main_arg4 (by decide))
theorem W6_main_arg5 (c : Dev nD) : W6 m c (Proc.devRef .tc main_arg5) = m ((c : Thread nD τ).loc main_arg5) :=
  W6_keep m c main_arg5 (by decide) (by decide) (by decide) (by decide) (W2_in m c 1 rfl) (W5_of_ne m c main_arg5 (by decide))
theorem W6_main_arg6 (c : Dev nD) : W6 m c (Proc.devRef .tc main_arg6) = m ((c : Thread nD τ).loc main_arg6) :=
  W6_keep m c main_arg6 (by decide) (by decide) (by decide) (by decide) (W2_of_ne m c main_arg6 (by decide)) (W5_of_ne m c main_arg6 (by decide))

/-- THE FRAME CLAIM's post, at any instance: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c)⟩) (run_all m ρ)

end Cert.KernelIdeal.Hand

end
-- ==== Proof.Frames.lean ====
/-
  The three frame claims and the idealization claim.

  Both kernel programs (the word-level one and its idealization, the same text read at two instances) run through the
  same six segments; the whole run ends with every unscoped buffer at the last boundary's contents, and no segment writes
  an argument array. The reference has no kernel: its frame is its run with the results dropped. The idealization
  rewrote no operation, so what it preserves is stated as `True`.
-/
import proofs.«177815_j10213432230335_2_alg».proof.Defs
import proofs.«177815_j10213432230335_2_alg».proof.Proof.Gen.Kernel
import proofs.«177815_j10213432230335_2_alg».proof.Proof.Gen.KernelIdeal
import proofs.«177815_j10213432230335_2_alg».proof.Proof.Gen.ReferenceIdeal
import proofs.«177815_j10213432230335_2_alg».proof.Proof.Gen.Pre_finite_inputs
import proofs.«177815_j10213432230335_2_alg».proof.Proof.Gen.ReferenceIdeal.Run
import proofs.«177815_j10213432230335_2_alg».proof.Proof.K.Keep
import proofs.«177815_j10213432230335_2_alg».proof.Proof.KI.Keep

noncomputable section

namespace Cert.Proof.Frames

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

end Cert.Proof.Frames

end
-- ==== Proof.Spec.lean ====
/-
  The mathematics both programs compute, index by index on the extended reals, over plain coordinate functions
  (no program is imported here).

  Inputs: a batch `vf` of 512 rows and 4096 features, a scale `γ` and a shift `β` per feature, a weight matrix `W`
  of 512 output channels by 4096 features, a bias `b` per channel, positive targets `p` (one row of 512 channels per
  sample) and 1000 negative targets `nw` of 512 channels each.

  * each feature is normalised over the batch: `mean d = (∑ r, vf r d) / 512`, the biased variance
    `var d = (∑ r, (vf r d - mean d)²) / 512`, and `bn r d = (vf r d - mean d) · rsqrt (var d + ε) · γ d + β d`;
  * the embedding is the affine image `emb i e = (∑ d, bn i d · W e d) + b e`;
  * the energy of a target row `a` against sample `i` is the squared positive part of the difference, summed over
    the channels: `∑ e, max (a e - emb i e) 0 ²`; `pe i` takes `a = p i`, `ne i n` takes `a = nw n`.
  The two results list, for the flat position `j = i · 1000 + n`, `pe i` and `ne i n`.
-/
import Idealize.ShloMosaic.PureOps.Ideal

noncomputable section

namespace Cert.Spec

open Idealize.ShloMosaic

/-- The batch size as the float literal both programs divide by. -/
abbrev c512 : EReal := Ideal.ofBits .f32 0x44000000#32
/-- The variance offset, the same float literal in both programs. -/
abbrev eps : EReal := Ideal.ofBits .f32 0x3727C5AC#32

variable (vf : Fin 512 → Fin 4096 → EReal) (γ β : Fin 4096 → EReal) (W : Fin 512 → Fin 4096 → EReal)
  (b : Fin 512 → EReal) (p : Fin 512 → Fin 512 → EReal) (nw : Fin 1000 → Fin 512 → EReal)

/-- The batch mean of feature `d`. -/
def mean (d : Fin 4096) : EReal := Ideal.div (∑ r : Fin 512, vf r d) c512

/-- The biased batch variance of feature `d`. -/
def var (d : Fin 4096) : EReal :=
  Ideal.div (∑ r : Fin 512, (vf r d - mean vf d) * (vf r d - mean vf d)) c512

/-- The normalised, scaled and shifted feature `d` of sample `r`. -/
def bn (r : Fin 512) (d : Fin 4096) : EReal :=
  (vf r d - mean vf d) * Ideal.rsqrt (var vf d + eps) * γ d + β d

/-- Channel `e` of sample `i`'s embedding. -/
def emb (i e : Fin 512) : EReal := (∑ d : Fin 4096, bn vf γ β i d * W e d) + b e

/-- The squared positive part of `a - x`. -/
def sqrelu (a x : EReal) : EReal := max (a - x) 0 * max (a - x) 0

/-- The positive energy of sample `i`. -/
def pe (i : Fin 512) : EReal := ∑ e : Fin 512, sqrelu (p i e) (emb vf γ β W b i e)

/-- The energy of negative `n` against sample `i`. -/
def ne (i : Fin 512) (n : Fin 1000) : EReal := ∑ e : Fin 512, sqrelu (nw n e) (emb vf γ β W b i e)

/-- The sample a flat position `j < 512000` belongs to. -/
def rowOf (j : Fin 512000) : Fin 512 := ⟨j.val / 1000, by have := j.isLt; omega⟩
/-- The negative a flat position `j < 512000` belongs to. -/
def colOf (j : Fin 512000) : Fin 1000 := ⟨j.val % 1000, Nat.mod_lt _ (by norm_num)⟩

end Cert.Spec

end
-- ==== Proof.KI.Tile.lean ====
/-
  The batch normalisation of one tile of columns, and the tiles of a wide matrix.

  The kernel walks the 4096 features in four tiles of 1024 columns. On a tile `t` of 512 rows and 1024 columns it takes,
  per column `j`, the mean `(∑ r, t r j) / 512`, the biased variance `(∑ r, (t r j - mean j)²) / 512`, and normalises,
  scales and shifts each entry: `(t r j - mean j) · rsqrt (var j + ε) · g j + h j`. These are the shared specification's
  column statistics read on the tile alone: a column's statistics involve no other column.

  Tile `k` of a matrix with 4096 columns is its columns `k · 1024 + j`, `j < 1024`; likewise for a vector of 4096 entries.
-/
import proofs.«177815_j10213432230335_2_alg».proof.Proof.Spec

noncomputable section

namespace Cert.KernelIdeal.Tile

open Idealize.ShloMosaic

/-- Column `k · 1024 + j` of a 4096-wide array, for a tile `k < 4` and a position `j < 1024` in it. -/
def tileCol (k : Fin 4) (j : Fin 1024) : Fin 4096 :=
  ⟨k.val * 1024 + j.val, by have := k.isLt; have := j.isLt; omega⟩

/-- Tile `k` of a matrix with 4096 columns. -/
def tileOf (M : Fin 512 → Fin 4096 → EReal) (k : Fin 4) (r : Fin 512) (j : Fin 1024) : EReal := M r (tileCol k j)

/-- Tile `k` of a vector of 4096 entries. -/
def gtile (g : Fin 4096 → EReal) (k : Fin 4) (j : Fin 1024) : EReal := g (tileCol k j)

/-- The mean of column `j` of a tile over its 512 rows. -/
def tmean (t : Fin 512 → Fin 1024 → EReal) (j : Fin 1024) : EReal :=
  Ideal.div (∑ r : Fin 512, t r j) Cert.Spec.c512

/-- The biased variance of column `j` of a tile over its 512 rows. -/
def tvar (t : Fin 512 → Fin 1024 → EReal) (j : Fin 1024) : EReal :=
  Ideal.div (∑ r : Fin 512, (t r j - tmean t j) * (t r j - tmean t j)) Cert.Spec.c512

/-- Entry `(r, j)` of a tile, normalised over its column, scaled by `g j` and shifted by `h j`. -/
def tbn (t : Fin 512 → Fin 1024 → EReal) (g h : Fin 1024 → EReal) (r : Fin 512) (j : Fin 1024) : EReal :=
  (t r j - tmean t j) * Ideal.rsqrt (tvar t j + Cert.Spec.eps) * g j + h j

end Cert.KernelIdeal.Tile

end
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.LibIdx3.lean ====
/-
  A rank-3 index set is the product of its three coordinate ranges, so a sum over the indices of a rank-3 array is the
  triple sum over its coordinates at `ix3`.  (The rank-2 form, `sum_idx2`, is in the library's Lib/ValueIdx.lean.)
  And two ways of taking a largest entry agree: a fold of `max` from the least extended real over a finite index type
  is the supremum of the family, a supremum over the rows' suprema is the supremum over all pairs, and a supremum over
  the row-major positions `r · m + c` of an n × m table is the supremum over the pairs `(r, c)`.
-/
import Idealize.ShloMosaic.Lib.ValueIdx
import Mathlib.Data.EReal.Basic
import Mathlib.Order.CompleteLattice.Finset
import Mathlib.Logic.Equiv.Fin.Basic

noncomputable section

namespace Cert.Idx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A fold of `max` from the least extended real over a whole finite index type is the family's supremum. -/
theorem fold_max_bot {ι : Type*} [Fintype ι] (f : ι → EReal) :
    (Finset.univ : Finset ι).fold max ⊥ f = ⨆ k, f k := by
  rw [← Finset.sup_univ_eq_iSup]
  rfl

/-- The row-major position of the pair `(r, c)` in an n × m table. -/
def pos {n m : Nat} (N : Nat) (h : N = n * m) (r : Fin n) (c : Fin m) : Fin N :=
  ⟨r.val * m + c.val, by
    have hr := r.isLt; have hc := c.isLt
    calc r.val * m + c.val < r.val * m + m := by omega
      _ = (r.val + 1) * m := by rw [Nat.add_mul, Nat.one_mul]
      _ ≤ n * m := Nat.mul_le_mul_right m hr
      _ = N := h.symm⟩

/-- The pairs `(r, c)` and the row-major positions of an n × m table correspond one to one. -/
def posEquiv {n m : Nat} (N : Nat) (h : N = n * m) (hm : 0 < m) : Fin n × Fin m ≃ Fin N where
  toFun p := pos N h p.1 p.2
  invFun k := (⟨k.val / m, by
      have hk : k.val < n * m := h ▸ k.isLt
      exact Nat.div_lt_of_lt_mul (by rwa [Nat.mul_comm] at hk)⟩, ⟨k.val % m, Nat.mod_lt _ hm⟩)
  left_inv p := by
    obtain ⟨r, c⟩ := p
    have hc := c.isLt
    refine Prod.ext (Fin.ext ?_) (Fin.ext ?_)
    · show (r.val * m + c.val) / m = r.val
      rw [Nat.mul_comm, Nat.mul_add_div hm, Nat.div_eq_of_lt hc, Nat.add_zero]
    · show (r.val * m + c.val) % m = c.val
      rw [Nat.mul_comm, Nat.mul_add_mod, Nat.mod_eq_of_lt hc]
  right_inv k := Fin.ext (by
    show k.val / m * m + k.val % m = k.val
    rw [Nat.mul_comm]; exact Nat.div_add_mod _ _)

/-- A supremum over the row-major positions of an n × m table is the supremum over rows of the rows' suprema. -/
theorem iSup_pos {α : Type*} [CompleteLattice α] {n m : Nat} (N : Nat) (h : N = n * m) (hm : 0 < m) (F : Fin N → α) :
    (⨆ k : Fin N, F k) = ⨆ (r : Fin n) (c : Fin m), F (pos N h r c) := by
  rw [← (posEquiv N h hm).iSup_comp (g := F), iSup_prod]
  rfl

end Cert.Idx3

end
-- ==== Proof.LibAxisReduce.lean ====
/-
  One-axis reductions of a matrix of extended reals, read at coordinates.  Over the columns (axis 1) of an m × n matrix,
  entry p of the sum is the sum over c of the entries (p, c), and entry p of the maximum taken from minus infinity is
  the supremum over c of the entries (p, c); over the rows (axis 0), entry t gathers the entries (r, t) in the same
  two ways.  The accumulator's hypothesis is stated of the literal word, as a printed program's own evidence is.
-/
import Idealize.ShloMosaic.PureOps.Ideal.Laws
import Idealize.ShloMosaic.Lib.ValueIdx
import proofs.«177815_j10213432230335_2_alg».proof.Proof.LibLift2
import proofs.«177815_j10213432230335_2_alg».proof.Proof.LibIdx3

noncomputable section

namespace Cert.AxisReduce

open Idealize.ShloMosaic Idealize.ShloMosaic.ValueIdx Cert.Lift2 Cert.Idx3

/-- The word of minus infinity denotes the least extended real. -/
theorem ofBits_neg_inf : Ideal.ofBits .f32 0xFF800000#32 = (⊥ : EReal) := by
  simp [Ideal.ofBits, Ideal.ieee]

/-- A fold of `max` from the word of minus infinity over a whole finite index type is the family's supremum. -/
theorem fold_max_neg_inf {ι : Type*} [Fintype ι] (f : ι → EReal) :
    (Finset.univ : Finset ι).fold max (FloatOps.ofBits (F := Ideal) .f32 0xFF800000#32) f = ⨆ k, f k := by
  rw [Ideal.ofBits_def, ofBits_neg_inf]
  exact fold_max_bot f

/-- Entry `p` of the sum over the columns is the sum of row `p`. -/
theorem rowSum_apply {m n : Nat} (v : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) v 0x00000000#32 h hφ hacc (ix1 p) = ∑ c : Fin n, v (ix2 p c) := by
  refine (Ideal.multiReduction_add_single v 0x00000000#32 h hφ hacc (ix1 p)).trans ?_
  show ∑ k : Fin n, v (h.lift (ix1 p) k) = _
  exact Finset.sum_congr rfl fun k _ => congrArg v (lift_axis1 h p k)

/-- Entry `t` of the sum over the rows is the sum of column `t`. -/
theorem colSum_apply {m n : Nat} (v : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (t : Fin n) :
    multiReduction .add [0] (⟨1, ![n]⟩ : Shape) v 0x00000000#32 h hφ hacc (ix1 t) = ∑ r : Fin m, v (ix2 r t) := by
  refine (Ideal.multiReduction_add_single v 0x00000000#32 h hφ hacc (ix1 t)).trans ?_
  show ∑ k : Fin m, v (h.lift (ix1 t) k) = _
  exact Finset.sum_congr rfl fun k _ => congrArg v (lift_axis0 h t k)

/-- Entry `p` of the maximum over the columns, taken from minus infinity, is the supremum of row `p`. -/
theorem rowMax_apply {m n : Nat} (v : FVec Ideal ⟨2, ![m, n]⟩ .f32) (h : (⟨2, ![m, n]⟩ : Shape).Reduces [1] (⟨1, ![m]⟩ : Shape))
    (hφ : FKind.Formats .f32) (hacc : (0xFF800000#32 : BitVec 32) = 0xFF800000#32) (p : Fin m) :
    multiReduction .maximumf [1] (⟨1, ![m]⟩ : Shape) v 0xFF800000#32 h hφ hacc (ix1 p) = ⨆ c : Fin n, v (ix2 p c) := by
  refine (Ideal.multiReduction_maximumf_single v 0xFF800000#32 h hφ hacc (ix1 p)).trans ?_
  refine (fold_max_neg_inf _).trans ?_
  exact iSup_congr fun k => congrArg v (lift_axis1 h p k)

/-- Entry `t` of the maximum over the rows, taken from minus infinity, is the supremum of column `t`. -/
theorem colMax_apply {m n : Nat} (v : FVec Ideal ⟨2, ![m, n]⟩ .f32) (h : (⟨2, ![m, n]⟩ : Shape).Reduces [0] (⟨1, ![n]⟩ : Shape))
    (hφ : FKind.Formats .f32) (hacc : (0xFF800000#32 : BitVec 32) = 0xFF800000#32) (t : Fin n) :
    multiReduction .maximumf [0] (⟨1, ![n]⟩ : Shape) v 0xFF800000#32 h hφ hacc (ix1 t) = ⨆ r : Fin m, v (ix2 r t) := by
  refine (Ideal.multiReduction_maximumf_single v 0xFF800000#32 h hφ hacc (ix1 t)).trans ?_
  refine (fold_max_neg_inf _).trans ?_
  exact iSup_congr fun k => congrArg v (lift_axis0 h t k)

end Cert.AxisReduce

end
-- ==== Proof.LibTransDot.lean ====
/-
  A matrix product with the right operand given by rows, into a zero accumulator, read at coordinates.

  For a dot of a `[M, K]` matrix with a `[N, K]` matrix whose dimension numbers contract the second axis of both operands
  and keep the first axes in order (the product of the left matrix with the transpose of the right one), the product
  accumulated into the zero splat is, at `(p, c)`,

      ∑ k : Fin K, l (p, k) · r (c, k)

  on the extended reals. The dimension record enters only through four facts about its operand indices — the left index at
  output index `i` and contraction position `q` is `(i 0, q)`, the right one `(i 1, q)` — which a concrete record proves by
  unfolding; with them the sum over the record's one-axis contraction shape is re-indexed over `Fin K`.
-/
import Idealize.ShloMosaic.PureOps.Ideal.Laws
import Idealize.ShloMosaic.Lib.ValueIdx

namespace Cert.Lib.TransDot

open Idealize.ShloMosaic Idealize.ShloMosaic.ValueIdx

/-- The product of an `[M, K]` matrix with the transpose of an `[N, K]` matrix into the zero splat at `(p, c)`: the sum
    over `k` of `l (p, k) · r (c, k)`. -/
theorem matmul_zero_ix2_nt {M K N : ℕ} {φ₁ φ₂ : FTy}
    (D : DotDims ⟨2, ![M, K]⟩ ⟨2, ![N, K]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (i (1 : Fin 2)).val)
    (hr1 : ∀ (i : (⟨2, ![M, N]⟩ : Shape).Idx) (q : D.contr.Idx), (D.rhsIdx i q (1 : Fin 2)).val = (q ⟨0, by omega⟩).val)
    (prec : Option ContractPrecision) (l : FVec Ideal ⟨2, ![M, K]⟩ φ₁) (r : FVec Ideal ⟨2, ![N, K]⟩ φ₂) (p : Fin M) (c : Fin N) :
    FloatOps.matmul D prec l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.TransDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.KI.Pay0.lean ====
/-
  What the first kernel computes at one grid point, entry by entry on the extended reals.

  At a grid point the kernel holds a tile of 512 rows by 1024 columns of the batch, the matching 1024 entries of the scale
  and of the shift, the matching tile of the weights and a running total of 512 by 512. It normalises every column of the
  tile over the 512 rows (mean, biased variance, reciprocal square root of the variance plus a small constant), scales and
  shifts, and adds to the running total the product of the normalised tile with the transposed weight tile. After the last
  tile it adds the bias row to the total, and from the result and the positive targets it forms, per sample, the sum over
  the channels of the squared positive part of the difference, repeated over 128 lanes.

  Each theorem reads one of these values at an entry written with coordinates. The casts to the narrow float format on
  the way into the product are the identity on the extended reals.
-/
import proofs.«177815_j10213432230335_2_alg».proof.Proof.Gen.KernelIdeal.Skeleton
import proofs.«177815_j10213432230335_2_alg».proof.Proof.Spec
import proofs.«177815_j10213432230335_2_alg».proof.Proof.KI.Tile
import proofs.«177815_j10213432230335_2_alg».proof.Proof.LibAxisReduce
import proofs.«177815_j10213432230335_2_alg».proof.Proof.LibTransDot
import proofs.«177815_j10213432230335_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal

open Idealize.ShloMosaic Idealize.ShloMosaic.ValueIdx Cert.KernelIdeal Cert.KernelIdeal.Gen Cert.KernelIdeal.Tile

/-- The zero the running total starts from. -/
theorem pay3_apply (i e : Fin 512) : k0_pay3 (F := Ideal) (ix2 i e) = 0 := by
  unfold k0_pay3
  refine (congrFun (shapeCast_self _ _) (ix2 i e)).trans ?_
  exact Ideal.ofBits_zero_f32

/-- The running total with the bias row added: entry `(i, e)` gains the bias of channel `e`. -/
theorem pay1_apply (v40 : Vec Ideal S512x512 .f32) (v41 : Vec Ideal S1x512 .f32) (i e : Fin 512) :
    k0_pay1 (F := Ideal) v40 v41 (ix2 i e) = v40 (ix2 i e) + v41 (ix2 0 e) := by
  unfold k0_pay1
  refine congrArg (v40 (ix2 i e) + ·) ?_
  refine (broadcastTo_1b_ab_apply _ broadcasts_S1x512_S512x512 i e).trans ?_
  exact congrFun (shapeCast_self _ _) (ix2 0 e)

/-- The positive energies: entry `(i, l)`, whatever the lane `l`, is the sum over the channels of the squared positive part of the
    target minus the biased total. -/
theorem pay2_apply (v40 : Vec Ideal S512x512 .f32) (v41 : Vec Ideal S1x512 .f32) (v46 : Vec Ideal S512x512 .f32)
    (i : Fin 512) (l : Fin 128) :
    k0_pay2 (F := Ideal) v40 v41 v46 (ix2 i l)
      = ∑ e : Fin 512, Cert.Spec.sqrelu (v46 (ix2 i e)) (v40 (ix2 i e) + v41 (ix2 0 e)) := by
  unfold k0_pay2
  refine (Cert.Lib.Columns.broadcastTo_a1_ab_apply _ broadcasts_S512x1_S512x128 i l).trans ?_
  refine (congrFun (shapeCast_self _ _) (ix2 i 0)).trans ?_
  refine (Cert.Lib.Columns.shapeCast_a_a1_apply _ shapeCasts_S512_S512x1 i 0).trans ?_
  refine (Cert.AxisReduce.rowSum_apply _ reduces_S512x512_S512 (.inl rfl) rfl i).trans ?_
  refine Finset.sum_congr rfl fun e _ => ?_
  show max (v46 (ix2 i e) - k0_pay1 (F := Ideal) v40 v41 (ix2 i e)) (Ideal.ofBits .f32 0x00000000#32)
      * max (v46 (ix2 i e) - k0_pay1 (F := Ideal) v40 v41 (ix2 i e)) (Ideal.ofBits .f32 0x00000000#32) = _
  rw [pay1_apply, Ideal.ofBits_zero_f32]
  rfl

/-- The row of column sums of a tile, laid out as one row: entry `(u, j)` is the sum of column `j`. -/
theorem colSumRow_apply (v : FVec Ideal S512x1024 .f32) (u : Fin 1) (j : Fin 1024) :
    shapeCast S1x1024 (multiReduction (F := Ideal) .add [0] S1024 v 0x00000000#32 reduces_S512x1024_S1024 (.inl rfl) rfl)
        shapeCasts_S1024_S1x1024 (ix2 u j) = ∑ r : Fin 512, v (ix2 r j) :=
  (shapeCast_a_1a_apply _ shapeCasts_S1024_S1x1024 u j).trans
    (Cert.AxisReduce.colSum_apply v reduces_S512x1024_S1024 (.inl rfl) rfl j)

/-- The dimension record of the kernel's product contracts one axis of 1024 positions, the second of both operands. -/
theorem tileProduct_apply (l r : FVec Ideal S512x1024 .bf16) (i e : Fin 512) :
    matmul dot_S512x1024_S512x1024_S512x512_1_1_0_0_n_n none l r (constant (F := Ideal) S512x512 .f32 0x00000000#32) (ix2 i e)
      = ∑ j : Fin 1024, l (ix2 i j) * r (ix2 e j) :=
  Cert.Lib.TransDot.matmul_zero_ix2_nt dot_S512x1024_S512x1024_S512x512_1_1_0_0_n_n rfl rfl
    (fun _ _ => rfl) (fun _ _ => rfl) (fun _ _ => rfl) (fun _ _ => rfl) none l r i e

/-! ### The normalisation of a tile, stage by stage -/

/-- The row of column means of a tile: each column's sum over the 512 rows, divided by 512. -/
def meanRow (v : FVec Ideal S512x1024 .f32) : FVec Ideal S1x1024 .f32 :=
  divf (shapeCast S1x1024
      (multiReduction (F := Ideal) .add [0] S1024 v 0x00000000#32 reduces_S512x1024_S1024 (.inl rfl) rfl)
      shapeCasts_S1024_S1x1024)
    (broadcast S1x1024 (Scalar.ofBits (F := Ideal) .f32 0x44000000#32))

theorem meanRow_apply (v : FVec Ideal S512x1024 .f32) (u : Fin 1) (j : Fin 1024) :
    meanRow v (ix2 u j) = Ideal.div (∑ r : Fin 512, v (ix2 r j)) Cert.Spec.c512 :=
  congrArg (Ideal.div · Cert.Spec.c512) (colSumRow_apply v u j)

/-- A tile with each column's mean subtracted from the column. -/
def centred (v : FVec Ideal S512x1024 .f32) : FVec Ideal S512x1024 .f32 :=
  subf v (broadcastTo S512x1024 (meanRow v) broadcasts_S1x1024_S512x1024)

theorem centred_apply (v : FVec Ideal S512x1024 .f32) (r : Fin 512) (j : Fin 1024) :
    centred v (ix2 r j) = v (ix2 r j) - tmean (fun r j => v (ix2 r j)) j :=
  congrArg (v (ix2 r j) - ·)
    ((broadcastTo_1b_ab_apply _ broadcasts_S1x1024_S512x1024 r j).trans (meanRow_apply v 0 j))

/-- The row of reciprocal standard deviations: the mean of the squared centred column, plus the offset, under the
    reciprocal square root. -/
def rstdRow (v : FVec Ideal S512x1024 .f32) : FVec Ideal S1x1024 .f32 :=
  rsqrt (addf (meanRow (mulf (centred v) (centred v)))
    (broadcast S1x1024 (Scalar.ofBits (F := Ideal) .f32 0x3727C5AC#32)))

theorem rstdRow_apply (v : FVec Ideal S512x1024 .f32) (u : Fin 1) (j : Fin 1024) :
    rstdRow v (ix2 u j) = Ideal.rsqrt (tvar (fun r j => v (ix2 r j)) j + Cert.Spec.eps) := by
  show Ideal.rsqrt (meanRow (mulf (centred v) (centred v)) (ix2 u j) + Cert.Spec.eps) = _
  rw [meanRow_apply]
  refine congrArg (fun s => Ideal.rsqrt (Ideal.div s Cert.Spec.c512 + Cert.Spec.eps)) ?_
  refine Finset.sum_congr rfl fun r _ => ?_
  show centred v (ix2 r j) * centred v (ix2 r j) = _
  rw [centred_apply]

/-- The tile normalised, scaled by the row `g` and shifted by the row `h`. -/
def normalised (v : FVec Ideal S512x1024 .f32) (g h : FVec Ideal S1x1024 .f32) : FVec Ideal S512x1024 .f32 :=
  addf (mulf (mulf (centred v) (broadcastTo S512x1024 (rstdRow v) broadcasts_S1x1024_S512x1024))
      (broadcastTo S512x1024 g broadcasts_S1x1024_S512x1024))
    (broadcastTo S512x1024 h broadcasts_S1x1024_S512x1024)

theorem normalised_apply (v : FVec Ideal S512x1024 .f32) (g h : FVec Ideal S1x1024 .f32) (r : Fin 512) (j : Fin 1024) :
    normalised v g h (ix2 r j)
      = tbn (fun r j => v (ix2 r j)) (fun j => g (ix2 0 j)) (fun j => h (ix2 0 j)) r j := by
  show centred v (ix2 r j) * broadcastTo S512x1024 (rstdRow v) broadcasts_S1x1024_S512x1024 (ix2 r j)
      * broadcastTo S512x1024 g broadcasts_S1x1024_S512x1024 (ix2 r j)
      + broadcastTo S512x1024 h broadcasts_S1x1024_S512x1024 (ix2 r j) = _
  rw [centred_apply, broadcastTo_1b_ab_apply, broadcastTo_1b_ab_apply, broadcastTo_1b_ab_apply, rstdRow_apply]
  rfl

/-- One step of the running total: entry `(i, e)` gains the contraction, over the tile's 1024 columns, of row `i` of the
    normalised tile with row `e` of the weight tile. -/
theorem pay4_apply (v3 : Vec Ideal S512x1024 .f32) (v20 v24 : Vec Ideal S1x1024 .f32) (v29 : Vec Ideal S512x1024 .f32)
    (v31 : Vec Ideal S512x512 .f32) (i e : Fin 512) :
    k0_pay4 (F := Ideal) v3 v20 v24 v29 v31 (ix2 i e)
      = v31 (ix2 i e) + ∑ j : Fin 1024,
          tbn (fun r j => v3 (ix2 r j)) (fun j => v20 (ix2 0 j)) (fun j => v24 (ix2 0 j)) i j * v29 (ix2 e j) := by
  have stages : k0_pay4 (F := Ideal) v3 v20 v24 v29 v31
      = shapeCast S512x512 (addf v31 (matmul dot_S512x1024_S512x1024_S512x512_1_1_0_0_n_n none
          (truncf .bf16 (normalised v3 (shapeCast S1x1024 v20 shapeCasts_S1x1024_S1x1024)
            (shapeCast S1x1024 v24 shapeCasts_S1x1024_S1x1024)) bitsLt_bf16_f32)
          (truncf .bf16 v29 bitsLt_bf16_f32) (constant (F := Ideal) S512x512 .f32 0x00000000#32)))
        shapeCasts_S512x512_S512x512 := rfl
  rw [stages, shapeCast_self, shapeCast_self, shapeCast_self]
  refine congrArg (v31 (ix2 i e) + ·) ?_
  refine (tileProduct_apply _ _ i e).trans ?_
  refine Finset.sum_congr rfl fun j _ => ?_
  exact congrArg (· * v29 (ix2 e j)) (normalised_apply v3 v20 v24 i j)

end Cert.KernelIdeal.PayVal

end
-- ==== Proof.KI.Acc0.lean ====
/-
  The four tiles of the feature axis add up to the whole contraction.

  The embedding contracts the 4096 normalised features against a row of the weights. The kernel does it in four steps
  of 1024 features, each step adding its tile's partial contraction to a running total that starts at zero. Two facts
  make the running total the full contraction:

  * the normalisation of a tile is the normalisation of the whole batch read on that tile's columns, because the mean and
    the variance of a feature are taken over the rows of that one column;
  * the 4096 features are the four tiles of 1024 laid end to end, so a sum over all of them is the sum of the four tile
    sums; on the extended reals addition is associative and commutative and zero is neutral, which is all this uses.
-/
import proofs.«177815_j10213432230335_2_alg».proof.Proof.KI.Tile
import Mathlib.Algebra.BigOperators.Fin
import Mathlib.Logic.Equiv.Fin.Basic

noncomputable section

namespace Cert.KernelIdeal.AccVal

open Cert.KernelIdeal.Tile

/-- The normalised entry `(r, j)` of tile `k` is the batch normalisation of feature `k · 1024 + j` of sample `r`. -/
theorem tbn_tile (vf : Fin 512 → Fin 4096 → EReal) (γ β : Fin 4096 → EReal) (k : Fin 4) (r : Fin 512) (j : Fin 1024) :
    tbn (tileOf vf k) (gtile γ k) (gtile β k) r j = Cert.Spec.bn vf γ β r (tileCol k j) := rfl

/-- A sum over the 4096 features is the sum over the four tiles of each tile's sum over its 1024 columns. -/
theorem sum_tiles {M : Type*} [AddCommMonoid M] (f : Fin 4096 → M) :
    ∑ d : Fin 4096, f d = ∑ k : Fin 4, ∑ j : Fin 1024, f (tileCol k j) := by
  rw [← Equiv.sum_comp (finProdFinEquiv (m := 4) (n := 1024)) f, Fintype.sum_prod_type]
  refine Finset.sum_congr rfl fun k _ => Finset.sum_congr rfl fun j _ => ?_
  exact congrArg f (Fin.ext (by simp [finProdFinEquiv, tileCol, Nat.add_comm, Nat.mul_comm]))

/-- The partial contraction of tile `k`: its normalised row `i` against row `e` of the weights' tile. -/
abbrev tileDot (vf : Fin 512 → Fin 4096 → EReal) (γ β : Fin 4096 → EReal) (W : Fin 512 → Fin 4096 → EReal)
    (i e : Fin 512) (k : Fin 4) : EReal :=
  ∑ j : Fin 1024, tbn (tileOf vf k) (gtile γ k) (gtile β k) i j * tileOf W k e j

/-- The running total after the four tiles, started at zero, is the contraction over all 4096 features. -/
theorem acc_four (vf : Fin 512 → Fin 4096 → EReal) (γ β : Fin 4096 → EReal) (W : Fin 512 → Fin 4096 → EReal)
    (i e : Fin 512) :
    (((0 + tileDot vf γ β W i e 0) + tileDot vf γ β W i e 1) + tileDot vf γ β W i e 2) + tileDot vf γ β W i e 3
      = ∑ d : Fin 4096, Cert.Spec.bn vf γ β i d * W e d := by
  rw [zero_add, sum_tiles, Fin.sum_univ_four]
  rfl

end Cert.KernelIdeal.AccVal

end
-- ==== Proof.KI.Step0.lean ====
/-
  The first kernel's values against the specification.

  When the blocks a grid point holds are tile `k` of the batch, of the scale, of the shift and of the weights, one step of the
  running total adds tile `k`'s partial contraction. After the four tiles the total, started at zero, is the full
  contraction; with the bias added it is the embedding, and the lane-repeated sums of squared positive parts against the
  positive targets are the positive energies.
-/
import proofs.«177815_j10213432230335_2_alg».proof.Proof.KI.Pay0
import proofs.«177815_j10213432230335_2_alg».proof.Proof.KI.Acc0

noncomputable section

namespace Cert.KernelIdeal.StepVal

open Idealize.ShloMosaic Idealize.ShloMosaic.ValueIdx Cert.KernelIdeal Cert.KernelIdeal.Gen Cert.KernelIdeal.Tile
  Cert.KernelIdeal.PayVal Cert.KernelIdeal.AccVal

/-- One step of the running total on tile `k`: the total gains tile `k`'s partial contraction. -/
theorem pay4_tile (vf : Fin 512 → Fin 4096 → EReal) (γ β : Fin 4096 → EReal) (W : Fin 512 → Fin 4096 → EReal) (k : Fin 4)
    (v3 : Vec Ideal S512x1024 .f32) (v20 v24 : Vec Ideal S1x1024 .f32) (v29 : Vec Ideal S512x1024 .f32)
    (v31 : Vec Ideal S512x512 .f32)
    (h3 : ∀ (r : Fin 512) (j : Fin 1024), v3 (ix2 r j) = vf r (tileCol k j))
    (h20 : ∀ j : Fin 1024, v20 (ix2 0 j) = γ (tileCol k j))
    (h24 : ∀ j : Fin 1024, v24 (ix2 0 j) = β (tileCol k j))
    (h29 : ∀ (e : Fin 512) (j : Fin 1024), v29 (ix2 e j) = W e (tileCol k j)) (i e : Fin 512) :
    k0_pay4 (F := Ideal) v3 v20 v24 v29 v31 (ix2 i e) = v31 (ix2 i e) + tileDot vf γ β W i e k := by
  have e3 : (fun (r : Fin 512) (j : Fin 1024) => v3 (ix2 r j)) = tileOf vf k := funext fun r => funext fun j => h3 r j
  have e20 : (fun j : Fin 1024 => v20 (ix2 0 j)) = gtile γ k := funext h20
  have e24 : (fun j : Fin 1024 => v24 (ix2 0 j)) = gtile β k := funext h24
  rw [pay4_apply, e3, e20, e24]
  refine congrArg (v31 (ix2 i e) + ·) (Finset.sum_congr rfl fun j _ => ?_)
  rw [h29]
  rfl

/-- The total after the four tiles with the bias added is the embedding. -/
theorem emb_of_total (vf : Fin 512 → Fin 4096 → EReal) (γ β : Fin 4096 → EReal) (W : Fin 512 → Fin 4096 → EReal)
    (b : Fin 512 → EReal) (i e : Fin 512) :
    ((((0 + tileDot vf γ β W i e 0) + tileDot vf γ β W i e 1) + tileDot vf γ β W i e 2) + tileDot vf γ β W i e 3) + b e
      = Cert.Spec.emb vf γ β W b i e := by
  rw [acc_four]
  rfl

/-- With the full contraction in the total and the bias row in hand, the stored sum is the embedding. -/
theorem pay1_emb (vf : Fin 512 → Fin 4096 → EReal) (γ β : Fin 4096 → EReal) (W : Fin 512 → Fin 4096 → EReal)
    (b : Fin 512 → EReal) (v40 : Vec Ideal S512x512 .f32) (v41 : Vec Ideal S1x512 .f32)
    (h40 : ∀ i e : Fin 512, v40 (ix2 i e) = ∑ d : Fin 4096, Cert.Spec.bn vf γ β i d * W e d)
    (h41 : ∀ e : Fin 512, v41 (ix2 0 e) = b e) (i e : Fin 512) :
    k0_pay1 (F := Ideal) v40 v41 (ix2 i e) = Cert.Spec.emb vf γ β W b i e := by
  rw [pay1_apply, h40, h41]
  rfl

/-- With moreover the positive targets in hand, every lane of row `i` of the stored energies is sample `i`'s positive energy. -/
theorem pay2_pe (vf : Fin 512 → Fin 4096 → EReal) (γ β : Fin 4096 → EReal) (W : Fin 512 → Fin 4096 → EReal)
    (b : Fin 512 → EReal) (p : Fin 512 → Fin 512 → EReal)
    (v40 : Vec Ideal S512x512 .f32) (v41 : Vec Ideal S1x512 .f32) (v46 : Vec Ideal S512x512 .f32)
    (h40 : ∀ i e : Fin 512, v40 (ix2 i e) = ∑ d : Fin 4096, Cert.Spec.bn vf γ β i d * W e d)
    (h41 : ∀ e : Fin 512, v41 (ix2 0 e) = b e)
    (h46 : ∀ i e : Fin 512, v46 (ix2 i e) = p i e) (i : Fin 512) (l : Fin 128) :
    k0_pay2 (F := Ideal) v40 v41 v46 (ix2 i l) = Cert.Spec.pe vf γ β W b p i := by
  rw [pay2_apply]
  refine Finset.sum_congr rfl fun e _ => ?_
  rw [h40, h41, h46]
  rfl

end Cert.KernelIdeal.StepVal

end
-- ==== Proof.KI.R0Val.lean ====
/-
  The first region's two arrays, entry by entry, as the specification's embedding and positive energies.

  The region walks the 4096 features in four tiles of 1024 columns. At each grid point the input windows hold, of the arrays
  the region finds: the tile of the batch and of the weights (all 512 rows, columns `k · 1024 + j`), the tile of the scale and
  of the shift (one row, the same columns), and, whole, the bias row and the positive targets. So

  * each block read at coordinates is the array read at the tile's column (the block index on the column axis is the
    point's number, on every other axis zero);
  * the running total after the last point is the four tiles' partial contractions added in order to zero, which is the
    contraction over all 4096 features;
  * the last point stores the total plus the bias — the embedding — and the lane-repeated sums of squared positive parts —
    the positive energies — into its two output buffers, and these are written back once, through the whole array at zero
    offsets; the earlier points write nothing back. The arrays therefore end holding exactly those two functions.
-/
import proofs.«177815_j10213432230335_2_alg».proof.Proof.KI.R0Dat
import proofs.«177815_j10213432230335_2_alg».proof.Proof.KI.Step0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.Tile Cert.KernelIdeal.PayVal Cert.KernelIdeal.AccVal Cert.KernelIdeal.StepVal

variable (V : (c : Dev nD) → (b : Ref sig .tc) → Buf (Elt Ideal) ((c : Thread nD τ).loc b))

/-- The block index of every window at every point: the four tiled inputs walk the column tiles, the others stay. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem lt4 (t : Fin cfg0.N) : t.val < 4 := lt_of_lt_of_eq t.isLt N_0

/-- The tile a grid point works on. -/
abbrev tileAt (t : Fin cfg0.N) : Fin 4 := ⟨t.val, lt4 t⟩

theorem blk0_apply (c : Dev nD) (t : Fin cfg0.N) (r : Fin 512) (j : Fin 1024) :
    (iblk0 V c 0 t : Vec Ideal S512x1024 .f32) (ix2 r j)
      = (V c main_arg0 : S512x4096.Idx → EReal) (ix2 r (tileCol (tileAt t) j)) := by
  obtain ⟨e0, e1, -⟩ := index_facts t
  unfold iblk0
  rw [View.read_apply]
  show V c main_arg0 _ = V c main_arg0 _
  refine congrArg _ ?_
  funext a
  apply Fin.ext
  match a with
  | ⟨0, _⟩ => show win0_0.index t 0 * 512 + 1 * r.val = r.val; rw [e0]; omega
  | ⟨1, _⟩ => show win0_0.index t 1 * 1024 + 1 * j.val = t.val * 1024 + j.val; rw [e1]; omega

theorem blk1_apply (c : Dev nD) (t : Fin cfg0.N) (r : Fin 512) (j : Fin 1024) :
    (iblk0 V c 1 t : Vec Ideal S512x1024 .f32) (ix2 r j)
      = (V c main_arg5 : S512x4096.Idx → EReal) (ix2 r (tileCol (tileAt t) j)) := by
  obtain ⟨-, -, e0, e1, -⟩ := index_facts t
  unfold iblk0
  rw [View.read_apply]
  show V c main_arg5 _ = V c main_arg5 _
  refine congrArg _ ?_
  funext a
  apply Fin.ext
  match a with
  | ⟨0, _⟩ => show win0_1.index t 0 * 512 + 1 * r.val = r.val; rw [e0]; omega
  | ⟨1, _⟩ => show win0_1.index t 1 * 1024 + 1 * j.val = t.val * 1024 + j.val; rw [e1]; omega

theorem blk2_apply (c : Dev nD) (t : Fin cfg0.N) (j : Fin 1024) :
    (iblk0 V c 2 t : Vec Ideal S1x1024 .f32) (ix2 0 j)
      = (V c main_v0 : S1x4096.Idx → EReal) (ix2 0 (tileCol (tileAt t) j)) := by
  obtain ⟨-, -, -, -, e0, e1, -⟩ := index_facts t
  unfold iblk0
  rw [View.read_apply]
  show V c main_v0 _ = V c main_v0 _
  refine congrArg _ ?_
  funext a
  apply Fin.ext
  match a with
  | ⟨0, _⟩ => show win0_2.index t 0 * 1 + 1 * 0 = 0; rw [e0]
  | ⟨1, _⟩ => show win0_2.index t 1 * 1024 + 1 * j.val = t.val * 1024 + j.val; rw [e1]; omega

theorem blk3_apply (c : Dev nD) (t : Fin cfg0.N) (j : Fin 1024) :
    (iblk0 V c 3 t : Vec Ideal S1x1024 .f32) (ix2 0 j)
      = (V c main_v1 : S1x4096.Idx → EReal) (ix2 0 (tileCol (tileAt t) j)) := by
  obtain ⟨-, -, -, -, -, -, e0, e1, -⟩ := index_facts t
  unfold iblk0
  rw [View.read_apply]
  show V c main_v1 _ = V c main_v1 _
  refine congrArg _ ?_
  funext a
  apply Fin.ext
  match a with
  | ⟨0, _⟩ => show win0_3.index t 0 * 1 + 1 * 0 = 0; rw [e0]
  | ⟨1, _⟩ => show win0_3.index t 1 * 1024 + 1 * j.val = t.val * 1024 + j.val; rw [e1]; omega

theorem blk4_apply (c : Dev nD) (t : Fin cfg0.N) (e : Fin 512) :
    (iblk0 V c 4 t : Vec Ideal S1x512 .f32) (ix2 0 e) = (V c main_v2 : S1x512.Idx → EReal) (ix2 0 e) := by
  obtain ⟨-, -, -, -, -, -, -, -, e0, e1, -⟩ := index_facts t
  unfold iblk0
  rw [View.read_apply]
  show V c main_v2 _ = V c main_v2 _
  refine congrArg _ ?_
  funext a
  apply Fin.ext
  match a with
  | ⟨0, _⟩ => show win0_4.index t 0 * 1 + 1 * 0 = 0; rw [e0]
  | ⟨1, _⟩ => show win0_4.index t 1 * 512 + 1 * e.val = e.val; rw [e1]; omega

theorem blk5_apply (c : Dev nD) (t : Fin cfg0.N) (i e : Fin 512) :
    (iblk0 V c 5 t : Vec Ideal S512x512 .f32) (ix2 i e) = (V c main_arg1 : S512x512.Idx → EReal) (ix2 i e) := by
  obtain ⟨-, -, -, -, -, -, -, -, -, -, e0, e1⟩ := index_facts t
  unfold iblk0
  rw [View.read_apply]
  show V c main_arg1 _ = V c main_arg1 _
  refine congrArg _ ?_
  funext a
  apply Fin.ext
  match a with
  | ⟨0, _⟩ => show win0_5.index t 0 * 512 + 1 * i.val = i.val; rw [e0]; omega
  | ⟨1, _⟩ => show win0_5.index t 1 * 512 + 1 * e.val = e.val; rw [e1]; omega

/-! ## The arrays the region finds, as coordinate functions -/

abbrev vfA (c : Dev nD) : Fin 512 → Fin 4096 → EReal := fun r d => (V c main_arg0 : S512x4096.Idx → EReal) (ix2 r d)
abbrev gammaA (c : Dev nD) : Fin 4096 → EReal := fun d => (V c main_v0 : S1x4096.Idx → EReal) (ix2 0 d)
abbrev betaA (c : Dev nD) : Fin 4096 → EReal := fun d => (V c main_v1 : S1x4096.Idx → EReal) (ix2 0 d)
abbrev wA (c : Dev nD) : Fin 512 → Fin 4096 → EReal := fun e d => (V c main_arg5 : S512x4096.Idx → EReal) (ix2 e d)
abbrev biasA (c : Dev nD) : Fin 512 → EReal := fun e => (V c main_v2 : S1x512.Idx → EReal) (ix2 0 e)
abbrev posA (c : Dev nD) : Fin 512 → Fin 512 → EReal := fun i e => (V c main_arg1 : S512x512.Idx → EReal) (ix2 i e)

/-! ## The running total -/

/-- One grid point adds its tile's partial contraction to the running total. -/
theorem accStep_apply (c : Dev nD) (t : Fin cfg0.N) (prev : Vec Ideal S512x512 .f32) (i e : Fin 512) :
    accStep (iblk0 V c 0 t) (iblk0 V c 1 t) (iblk0 V c 2 t) (iblk0 V c 3 t) prev (ix2 i e)
      = prev (ix2 i e) + tileDot (vfA V c) (gammaA V c) (betaA V c) (wA V c) i e (tileAt t) :=
  pay4_tile (vfA V c) (gammaA V c) (betaA V c) (wA V c) (tileAt t) (iblk0 V c 0 t) (iblk0 V c 2 t) (iblk0 V c 3 t)
    (iblk0 V c 1 t) prev (blk0_apply V c t) (blk2_apply V c t) (blk3_apply V c t) (blk1_apply V c t) i e

/-- After the last grid point the running total is the contraction over all 4096 features. -/
theorem acc_last (c : Dev nD) (h3 : 3 < cfg0.N) (i e : Fin 512) :
    acc V c 3 h3 (ix2 i e)
      = ∑ d : Fin 4096, Cert.Spec.bn (vfA V c) (gammaA V c) (betaA V c) i d * wA V c e d := by
  have h2 : 2 < cfg0.N := Nat.lt_of_succ_lt h3
  have h1 : 1 < cfg0.N := Nat.lt_of_succ_lt h2
  have h0 : 0 < cfg0.N := Nat.lt_of_succ_lt h1
  refine Eq.trans ?_ (acc_four (vfA V c) (gammaA V c) (betaA V c) (wA V c) i e)
  refine (accStep_apply V c ⟨3, h3⟩ (acc V c 2 h2) i e).trans ?_
  refine congrArg (· + tileDot (vfA V c) (gammaA V c) (betaA V c) (wA V c) i e 3) ?_
  refine (accStep_apply V c ⟨2, h2⟩ (acc V c 1 h1) i e).trans ?_
  refine congrArg (· + tileDot (vfA V c) (gammaA V c) (betaA V c) (wA V c) i e 2) ?_
  refine (accStep_apply V c ⟨1, h1⟩ (acc V c 0 h0) i e).trans ?_
  refine congrArg (· + tileDot (vfA V c) (gammaA V c) (betaA V c) (wA V c) i e 1) ?_
  refine (accStep_apply V c ⟨0, h0⟩ (k0_pay3 (F := Ideal)) i e).trans ?_
  exact congrArg (· + tileDot (vfA V c) (gammaA V c) (betaA V c) (wA V c) i e 0) (pay3_apply i e)

/-! ## What the last point stores -/

theorem lastN : 3 < cfg0.N := by rw [show cfg0.N = 4 from N_0]; decide

/-- The last grid point. -/
abbrev tLast : Fin cfg0.N := ⟨3, lastN⟩

/-- The embedding the region leaves, as an array. -/
abbrev embG (c : Dev nD) : S512x512.Idx → EReal := fun y =>
  Cert.Spec.emb (vfA V c) (gammaA V c) (betaA V c) (wA V c) (biasA V c) (y 0) (y 1)

/-- The positive energies the region leaves, repeated over the 128 lanes. -/
abbrev peG (c : Dev nD) : S512x128.Idx → EReal := fun y =>
  Cert.Spec.pe (vfA V c) (gammaA V c) (betaA V c) (wA V c) (biasA V c) (posA V c) (y 0)

theorem after6_last (c : Dev nD) : (dat0 V c).after 6 tLast = embG V c := by
  rw [after0_6]
  funext y
  obtain ⟨i, e, rfl⟩ : ∃ (i : Fin 512) (e : Fin 512), y = ix2 i e := ⟨y 0, y 1, eq_ix2 y⟩
  exact pay1_emb (vfA V c) (gammaA V c) (betaA V c) (wA V c) (biasA V c) (acc V c 3 lastN) (iblk0 V c 4 tLast)
    (acc_last V c lastN) (blk4_apply V c tLast) i e

theorem after7_last (c : Dev nD) : (dat0 V c).after 7 tLast = peG V c := by
  rw [after0_7]
  funext y
  obtain ⟨i, l, rfl⟩ : ∃ (i : Fin 512) (l : Fin 128), y = ix2 i l := ⟨y 0, y 1, eq_ix2 y⟩
  exact pay2_pe (vfA V c) (gammaA V c) (betaA V c) (wA V c) (biasA V c) (posA V c) (acc V c 3 lastN)
    (iblk0 V c 4 tLast) (iblk0 V c 5 tLast) (acc_last V c lastN) (blk4_apply V c tLast) (blk5_apply V c tLast) i l

/-! ## The two arrays after the region -/

/-- The one write-back of the embedding, at the last point, writes the whole array. -/
theorem flushed6_eq (c : Dev nD) (t : Fin cfg0.N) (hf : (cfg0.win 6).flush t = true) :
    (dat0 V c).flushed 6 t = ((cfg0.win 6).blk t).view.read (Elt Ideal) (embG V c) := by
  have h3 : t.val = 3 := by have := (flush0_6 t).mp hf; have := lt4 t; omega
  obtain rfl : t = tLast := Fin.ext h3
  show (cfg0.win 6).cut (grid0.coords tLast) ((dat0 V c).after 6 tLast) = _
  rw [after6_last]
  have hz' : (fun a => win0_6.index tLast a * main_v3_0.ty.shape.size a) = fun _ => 0 :=
    funext fun a => by fin_cases a <;> decide +kernel
  exact (Memref.read_access_unit_zero (Elt Ideal) main_v3_0 hz' (fun a => by rw [congrFun hz' a]; simp) (embG V c)).symm

/-- The one write-back of the positive energies, at the last point, writes the whole array. -/
theorem flushed7_eq (c : Dev nD) (t : Fin cfg0.N) (hf : (cfg0.win 7).flush t = true) :
    (dat0 V c).flushed 7 t = ((cfg0.win 7).blk t).view.read (Elt Ideal) (peG V c) := by
  have h3 : t.val = 3 := by have := (flush0_7 t).mp hf; have := lt4 t; omega
  obtain rfl : t = tLast := Fin.ext h3
  show (cfg0.win 7).cut (grid0.coords tLast) ((dat0 V c).after 7 tLast) = _
  rw [after7_last]
  have hz' : (fun a => win0_7.index tLast a * main_v3_1.ty.shape.size a) = fun _ => 0 :=
    funext fun a => by fin_cases a <;> decide +kernel
  exact (Memref.read_access_unit_zero (Elt Ideal) main_v3_1 hz' (fun a => by rw [congrFun hz' a]; simp) (peG V c)).symm

/-- The embedding array ends holding the embedding. -/
theorem final6 (c : Dev nD) : (dat0 V c).arrAt 6 cfg0.N = embG V c :=
  (dat0 V c).arrAt_eq_of_cover 6 (embG V c) (flushed6_eq V c) fun i =>
    ⟨tLast, (flush0_6 tLast).mpr rfl, by
      show i ∈ ((View.whole main_v3_0).slice (win0_6.rect tLast)).set
      rw [View.set_slice_whole, Rect.mem_set_unit]
      intro a
      have h0 : (i 0 : Nat) < 512 := (i 0).isLt
      have h1 : (i 1 : Nat) < 512 := (i 1).isLt
      match a with
      | ⟨0, _⟩ =>
        show win0_6.index tLast 0 * win0_6.size 0 ≤ (i 0 : Nat)
          ∧ (i 0 : Nat) < win0_6.index tLast 0 * win0_6.size 0 + win0_6.xsize (grid0.coords tLast) 0
        rw [show win0_6.index tLast 0 * win0_6.size 0 = 0 from by decide +kernel,
          show win0_6.xsize (grid0.coords tLast) 0 = 512 from by decide +kernel]
        omega
      | ⟨1, _⟩ =>
        show win0_6.index tLast 1 * win0_6.size 1 ≤ (i 1 : Nat)
          ∧ (i 1 : Nat) < win0_6.index tLast 1 * win0_6.size 1 + win0_6.xsize (grid0.coords tLast) 1
        rw [show win0_6.index tLast 1 * win0_6.size 1 = 0 from by decide +kernel,
          show win0_6.xsize (grid0.coords tLast) 1 = 512 from by decide +kernel]
        omega⟩

/-- The energy array ends holding the positive energies on every lane. -/
theorem final7 (c : Dev nD) : (dat0 V c).arrAt 7 cfg0.N = peG V c :=
  (dat0 V c).arrAt_eq_of_cover 7 (peG V c) (flushed7_eq V c) fun i =>
    ⟨tLast, (flush0_7 tLast).mpr rfl, by
      show i ∈ ((View.whole main_v3_1).slice (win0_7.rect tLast)).set
      rw [View.set_slice_whole, Rect.mem_set_unit]
      intro a
      have h0 : (i 0 : Nat) < 512 := (i 0).isLt
      have h1 : (i 1 : Nat) < 128 := (i 1).isLt
      match a with
      | ⟨0, _⟩ =>
        show win0_7.index tLast 0 * win0_7.size 0 ≤ (i 0 : Nat)
          ∧ (i 0 : Nat) < win0_7.index tLast 0 * win0_7.size 0 + win0_7.xsize (grid0.coords tLast) 0
        rw [show win0_7.index tLast 0 * win0_7.size 0 = 0 from by decide +kernel,
          show win0_7.xsize (grid0.coords tLast) 0 = 512 from by decide +kernel]
        omega
      | ⟨1, _⟩ =>
        show win0_7.index tLast 1 * win0_7.size 1 ≤ (i 1 : Nat)
          ∧ (i 1 : Nat) < win0_7.index tLast 1 * win0_7.size 1 + win0_7.xsize (grid0.coords tLast) 1
        rw [show win0_7.index tLast 1 * win0_7.size 1 = 0 from by decide +kernel,
          show win0_7.xsize (grid0.coords tLast) 1 = 128 from by decide +kernel]
        omega⟩

/-- Entry `(i, e)` of the embedding array after the region is channel `e` of sample `i`'s embedding. -/
theorem emb_val (c : Dev nD) (i e : Fin 512) :
    (dat0 V c).arrAt 6 cfg0.N (ix2 i e)
      = Cert.Spec.emb (fun r d => V c main_arg0 (ix2 r d)) (fun d => V c main_v0 (ix2 0 d)) (fun d => V c main_v1 (ix2 0 d))
          (fun e d => V c main_arg5 (ix2 e d)) (fun e => V c main_v2 (ix2 0 e)) i e :=
  congrFun (final6 V c) (ix2 i e)

/-- Entry `(i, l)` of the energy array after the region is sample `i`'s positive energy, on every lane `l`. -/
theorem pe_val (c : Dev nD) (i : Fin 512) (l : Fin 128) :
    (dat0 V c).arrAt 7 cfg0.N (ix2 i l)
      = Cert.Spec.pe (fun r d => V c main_arg0 (ix2 r d)) (fun d => V c main_v0 (ix2 0 d)) (fun d => V c main_v1 (ix2 0 d))
          (fun e d => V c main_arg5 (ix2 e d)) (fun e => V c main_v2 (ix2 0 e)) (fun i e => V c main_arg1 (ix2 i e)) i :=
  congrFun (final7 V c) (ix2 i l)

end Cert.KernelIdeal.Hand

end
-- ==== Proof.LibMidAxis.lean ====
/-
  Layout operations on rank-3 arrays read at coordinates, for the shapes met when a row block `[a, c]` and a
  column block `[b, c]` are combined into all pairs `[a, b, c]`: a matrix given a unit MIDDLE axis, an
  `[a, 1, c]` array repeated along the middle axis, a `[1, b, c]` array repeated along the leading axis, and the
  index a reduction over the middle axis puts back: the reduced index `(i, k)` with `j` inserted is `(i, j, k)`.
-/
import Idealize.ShloMosaic.Lib.ValueLayout
import Idealize.ShloMosaic.PureOps.Ideal.Laws

namespace Cert.Lib.MidAxis

open Idealize.ShloMosaic Idealize.ShloMosaic.ValueIdx

variable {α : Type}

/-- An `[a, c]` matrix cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Reducing `[a, b, c]` over its middle axis: the reduced index `(i, k)` with `j` put back is `(i, j, k)`. -/
theorem lift_mid {a b c : ℕ} (h : Shape.Reduces ⟨3, ![a, b, c]⟩ [1] ⟨2, ![a, c]⟩) (i : Fin a) (k : Fin c) (j : Fin b) :
    h.lift (ix2 i k) j = ix3 i j k :=
  funext fun ax => Fin.ext (by
    match ax with
    | ⟨0, _⟩ => rfl
    | ⟨1, _⟩ => rfl
    | ⟨2, _⟩ => rfl)

/-- A vector sum over the middle axis of an `[a, b, c]` array of extended reals, from the zero word, read at
    `(i, k)`: the sum over `j` of the entries `(i, j, k)`. -/
theorem midSum_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (lift_mid h i k j))

/-- The host's sum over the middle axis, from an initial value, read at `(i, k)`. -/
theorem hostMidSum_apply {a b c : ℕ} (x : (⟨3, ![a, b, c]⟩ : Shape).Idx → EReal) (init : EReal)
    (h' : Shape.ReducesTo ⟨3, ![a, b, c]⟩ [1] ⟨2, ![a, c]⟩) (h : Shape.Reduces ⟨3, ![a, b, c]⟩ [1] ⟨2, ![a, c]⟩)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (lift_mid h i k j)))

end Cert.Lib.MidAxis
-- ==== Proof.LibBlockSum.lean ====
/-
  Two laws about finite sums in a commutative monoid.

  The first splits a sum over `n * b` consecutive indices into `n` consecutive blocks of `b` indices each: the
  index `b * k + r` is the `r`-th index of block `k`. The second solves a running-total recurrence: a sequence that
  starts at `z + f 0` and gains `f (n + 1)` at each step is `z` plus the partial sum of `f`. The third is the same for
  a running total that starts afresh at every multiple of `b`.
-/
import Mathlib

namespace Cert.Lib.BlockSum

/-- The `r`-th index of block `k`, among `n` blocks of `b` indices each, is below `n * b`:
`b * k + r < b * k + b = b * (k + 1) ≤ b * n`. -/
theorem block_lt {n b : ℕ} (k : Fin n) (r : Fin b) : b * k.val + r.val < n * b :=
  calc b * k.val + r.val < b * k.val + b := Nat.add_lt_add_left r.isLt _
    _ = b * (k.val + 1) := (Nat.mul_succ b k.val).symm
    _ ≤ b * n := Nat.mul_le_mul_left b k.isLt
    _ = n * b := Nat.mul_comm b n

/-- A sum over `n * b` indices is the sum, over the `n` blocks, of each block's sum over its `b` indices. The map
`(k, r) ↦ b * k + r` is a bijection from pairs onto the indices, so the sum is re-indexed along it and then
written as an iterated sum. -/
theorem sum_blocks {M : Type*} [AddCommMonoid M] (n b : ℕ) (f : Fin (n * b) → M) :
    ∑ J, f J = ∑ k : Fin n, ∑ r : Fin b, f ⟨b * k.val + r.val, block_lt k r⟩ := by
  rw [← Equiv.sum_comp finProdFinEquiv f, Fintype.sum_prod_type]
  refine Finset.sum_congr rfl fun k _ => Finset.sum_congr rfl fun r _ => ?_
  exact congrArg f (Fin.ext (by simp [finProdFinEquiv, Nat.add_comm]))

/-- The case of 4096 indices read as 16 blocks of 256. -/
theorem sum_blocks_16_256 {M : Type*} [AddCommMonoid M] (f : Fin 4096 → M) :
    ∑ J, f J = ∑ k : Fin 16, ∑ r : Fin 256, f ⟨256 * k.val + r.val, by omega⟩ :=
  sum_blocks 16 256 f

/-- A running total: if `a 0 = z + f 0` and `a (n + 1) = a n + f (n + 1)` for every `n`, then `a n` is `z` plus the
sum of `f 0, …, f n`. By induction on `n`; the step peels the last term off the partial sum. -/
theorem acc_eq {M : Type*} [AddCommMonoid M] (z : M) (f a : ℕ → M) (h0 : a 0 = z + f 0)
    (hs : ∀ n, a (n + 1) = a n + f (n + 1)) (n : ℕ) :
    a n = z + ∑ k ∈ Finset.range (n + 1), f k := by
  induction n with
  | zero => rw [h0, Finset.sum_range_one]
  | succ n ih => rw [hs, ih, Finset.sum_range_succ _ (n + 1), add_assoc]

/-- An accumulator with resets: if at every step `n` that is a multiple of `b` the accumulator is set to `z + f n`,
and at every other step it adds `f n` to what the step before left, then `r` steps into block `q` (with `r < b`) it
holds `z` plus the block's first `r + 1` addends, `f (b * q), …, f (b * q + r)`. By induction on `r`: the block's first
step is a multiple of `b`; a later step `b * q + (r + 1)` has remainder `r + 1 ≠ 0`, so it adds its addend to the
total of the `r + 1` before it. -/
theorem acc_reset {M : Type*} [AddCommMonoid M] (b N : ℕ) (z : M) (a f : ℕ → M)
    (h0 : ∀ n, n < N → n % b = 0 → a n = z + f n)
    (hs : ∀ n, n < N → n % b ≠ 0 → a n = a (n - 1) + f n)
    (q r : ℕ) (hr : r < b) (hN : b * q + r < N) :
    a (b * q + r) = z + ∑ k ∈ Finset.range (r + 1), f (b * q + k) := by
  induction r with
  | zero =>
    rw [Finset.sum_range_one]
    exact h0 _ hN (by rw [Nat.add_zero, Nat.mul_mod_right])
  | succ r ih =>
    have hmod : (b * q + (r + 1)) % b ≠ 0 := by
      rw [Nat.mul_add_mod, Nat.mod_eq_of_lt hr]
      exact Nat.succ_ne_zero r
    rw [hs _ hN hmod, show b * q + (r + 1) - 1 = b * q + r by omega, ih (by omega) (by omega),
      Finset.sum_range_succ _ (r + 1), add_assoc]

end Cert.Lib.BlockSum
-- ==== Proof.KI.R1Val.lean ====
/-
  What region 1 of the idealized kernel program leaves in a block of energies, at the exact values.

  The body receives a block `x0` of 128 samples' embeddings and a block `x1` of 128 negative targets, each of 512
  channels, and walks the channels in four chunks of 128. For a chunk it forms, for every pair (sample `i`,
  negative `j`) and channel `k` of the chunk, the positive part of `x1 j k - x0 i k`, squares it, and sums over
  the chunk's channels; the four chunk sums are added to a zero start. Read at the pair `(p, q)` the stored block
  is therefore the sum over all 512 channels `e` of the squared positive part of `x1 q e - x0 p e`.
-/
import proofs.«177815_j10213432230335_2_alg».proof.Proof.KI.R1
import proofs.«177815_j10213432230335_2_alg».proof.Proof.Spec
import proofs.«177815_j10213432230335_2_alg».proof.Proof.LibMidAxis
import proofs.«177815_j10213432230335_2_alg».proof.Proof.LibBlockSum
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.ValueIdx
open Cert.Lib.MidAxis Cert.Lib.BlockSum

/-! ## A sum over the last axis of a rank-3 vector -/

/-- Reducing `[a, b, c]` over its last axis: the reduced index `(i, j)` with `k` put back is `(i, j, k)`. -/
theorem lift_last {a b c : ℕ} (h : Shape.Reduces ⟨3, ![a, b, c]⟩ [2] ⟨2, ![a, b]⟩) (i : Fin a) (j : Fin b) (k : Fin c) :
    h.lift (ix2 i j) k = ix3 i j k :=
  funext fun ax => Fin.ext (by
    match ax with
    | ⟨0, _⟩ => rfl
    | ⟨1, _⟩ => rfl
    | ⟨2, _⟩ => rfl)

/-- A vector sum over the last axis of an `[a, b, c]` array of extended reals, from the zero word, read at
    `(i, j)`: the sum over `k` of the entries `(i, j, k)`. -/
theorem lastSum_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (j : Fin b) :
    multiReduction (F := Ideal) .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (lift_last h i j k))

/-! ## One chunk of channels -/

/-- For a chunk `em` of the samples' embeddings and the same chunk `ng` of the negatives: the positive part of
    `ng j k - em i k` for every sample `i`, negative `j` and channel `k` of the chunk. -/
def posDiff (em ng : FVec Ideal S128x128 .f32) : FVec Ideal S128x128x128 .f32 :=
  maximumf
    (subf (broadcastTo S128x128x128 (shapeCast S1x128x128 ng shapeCasts_S128x128_S1x128x128) broadcasts_S1x128x128_S128x128x128)
      (broadcastTo S128x128x128 (shapeCast S128x1x128 em shapeCasts_S128x128_S128x1x128) broadcasts_S128x1x128_S128x128x128))
    (broadcast S128x128x128 (Scalar.ofBits .f32 0x00000000#32))

/-- The chunk's energies: the squares of those positive parts summed over the chunk's channels. -/
def chunkEnergy (em ng : FVec Ideal S128x128 .f32) : FVec Ideal S128x128 .f32 :=
  multiReduction (F := Ideal) .add [2] S128x128 (mulf (posDiff em ng) (posDiff em ng)) 0x00000000#32
    reduces_S128x128x128_S128x128 (.inl rfl) rfl

theorem posDiff_apply (em ng : FVec Ideal S128x128 .f32) (i j k : Fin 128) :
    posDiff em ng (ix3 i j k) = max (ng (ix2 j k) - em (ix2 i k)) 0 := by
  have e1 : broadcastTo S128x128x128 (shapeCast S1x128x128 ng shapeCasts_S128x128_S1x128x128) broadcasts_S1x128x128_S128x128x128 (ix3 i j k)
      = ng (ix2 j k) :=
    (broadcastTo_1bc_abc_apply _ _ i j k).trans (shapeCast_ab_1ab_apply ng _ 0 j k)
  have e2 : broadcastTo S128x128x128 (shapeCast S128x1x128 em shapeCasts_S128x128_S128x1x128) broadcasts_S128x1x128_S128x128x128 (ix3 i j k)
      = em (ix2 i k) :=
    (broadcastTo_a1c_abc_apply _ _ i j k).trans (shapeCast_ac_a1c_apply em _ i 0 k)
  show max (_ - _) (Ideal.ofBits .f32 0x00000000#32) = _
  rw [e1, e2, Ideal.ofBits_zero_f32]

theorem chunkEnergy_apply (em ng : FVec Ideal S128x128 .f32) (p q : Fin 128) :
    chunkEnergy em ng (ix2 p q) = ∑ k : Fin 128, Cert.Spec.sqrelu (ng (ix2 q k)) (em (ix2 p k)) := by
  unfold chunkEnergy
  refine (lastSum_apply _ _ _ _ p q).trans (Finset.sum_congr rfl fun k _ => ?_)
  show posDiff em ng (ix3 p q k) * posDiff em ng (ix3 p q k) = _
  rw [posDiff_apply]
  rfl

/-! ## The payloads as chunk energies -/

/-- The first two chunks, added to a zero start. -/
theorem pay2_eq (v4 v7 v22 v25 : Vec Ideal S128x128 .f32) :
    k1_pay2 (F := Ideal) v4 v7 v22 v25
      = addf (addf (broadcast S128x128 (Scalar.ofBits .f32 0x00000000#32)) (chunkEnergy v4 v7)) (chunkEnergy v22 v25) := by
  unfold k1_pay2 chunkEnergy posDiff
  simp only [shapeCast_self]

/-- The third chunk's embeddings pass through unchanged. -/
theorem pay3_eq (v40 : Vec Ideal S128x128 .f32) : k1_pay3 (F := Ideal) v40 = v40 := by
  unfold k1_pay3
  simp only [shapeCast_self]

/-- The last two chunks, added to the running sum. -/
theorem pay1_eq (v36 v41 : FVec Ideal S128x128 .f32) (v43 v58 v61 : Vec Ideal S128x128 .f32) :
    k1_pay1 (F := Ideal) v36 v41 v43 v58 v61 = addf (addf v36 (chunkEnergy v41 v43)) (chunkEnergy v58 v61) := by
  unfold k1_pay1 chunkEnergy posDiff
  simp only [shapeCast_self]

/-! ## A chunk of a block, read at coordinates -/

/-- Channel `k` of chunk `r` of a 512-channel block is channel `128 r + k` of the block. -/
theorem ld_chunk (x : Vec Ideal S128x512 .f32) (r : Fin 4) (j k : Fin 128) :
    View.ld x (Rect.unit (s := S128x512) (k1_off1 (BitVec.ofNat 32 r.val)) S128x128.size (k1_off1_inb r)) (ix2 j k)
      = x (ix2 j (⟨128 * r.val + k.val, by have := r.isLt; have := k.isLt; omega⟩ : Fin 512)) := by
  refine congrArg x (funext fun a => Fin.ext ?_)
  have h := k1_off1_eq r
  match a with
  | ⟨0, _⟩ =>
    show k1_off1 (BitVec.ofNat 32 r.val) 0 + 1 * j.val = j.val
    rw [h]; simp
  | ⟨1, _⟩ =>
    show k1_off1 (BitVec.ofNat 32 r.val) 1 + 1 * k.val = 128 * r.val + k.val
    rw [h]; simp

theorem hz : (![0, 0] : Fin 2 → Nat) = fun _ => 0 := funext fun a => by fin_cases a <;> rfl

/-! ## The stored block -/

/-- The block of energies the body stores, read at (sample `p`, negative `q`): the squared positive part of the
    difference summed over all 512 channels. The four chunk sums, added in order to a zero start, are the four
    consecutive blocks of 128 terms of the sum over 512. -/
theorem out1_2_apply (x0 x1 : Vec Ideal S128x512 .f32) (p q : Fin 128) :
    out1_2 (F := Ideal) x0 x1 (ix2 p q) = ∑ e : Fin 512, Cert.Spec.sqrelu (x1 (ix2 q e)) (x0 (ix2 p e)) := by
  have hchunk : ∀ r : Fin 4,
      chunkEnergy (View.ld x0 (Rect.unit (s := S128x512) (k1_off1 (BitVec.ofNat 32 r.val)) S128x128.size (k1_off1_inb r)))
          (View.ld x1 (Rect.unit (s := S128x512) (k1_off1 (BitVec.ofNat 32 r.val)) S128x128.size (k1_off1_inb r))) (ix2 p q)
        = ∑ k : Fin 128, Cert.Spec.sqrelu (x1 (ix2 q (⟨128 * r.val + k.val, by have := r.isLt; have := k.isLt; omega⟩ : Fin 512)))
            (x0 (ix2 p (⟨128 * r.val + k.val, by have := r.isLt; have := k.isLt; omega⟩ : Fin 512))) := fun r => by
    refine (chunkEnergy_apply _ _ p q).trans (Finset.sum_congr rfl fun k _ => ?_)
    rw [ld_chunk x1 r q k, ld_chunk x0 r p k]
  unfold out1_2
  rw [View.canon_unit_zero hz, pay1_eq, pay2_eq, pay3_eq]
  show ((Ideal.ofBits .f32 0x00000000#32 + _) + _ + _) + _ = _
  rw [Ideal.ofBits_zero_f32, zero_add]
  refine Eq.trans ?_ (((sum_blocks 4 128 fun e : Fin 512 => Cert.Spec.sqrelu (x1 (ix2 q e)) (x0 (ix2 p e))).trans
    (Fin.sum_univ_four _)).symm)
  exact congrArg₂ (· + ·) (congrArg₂ (· + ·) (congrArg₂ (· + ·) (hchunk 0) (hchunk 1)) (hchunk 2)) (hchunk 3)

end Cert.KernelIdeal.Hand

end
-- ==== Proof.KI.R1Arr.lean ====
/-
  The whole array of energies after region 1 has run over its grid, at the exact values.

  The region's 32 points write the 4 x 8 blocks of 128 x 128 energies. Point `t` writes the block whose block row
  is the embedding window's block row and whose block column is the negatives window's block row, and what it
  writes is, entry by entry, the sum over the 512 channels of the squared positive part of "negative minus
  embedding". That is the block of ONE function of the array's index `(i, n)`, namely the energy of negative `n`
  against sample `i` computed from the two whole input arrays; the blocks tile the array, so the array ends
  holding that function.
-/
import proofs.«177815_j10213432230335_2_alg».proof.Proof.KI.R1Val
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Array1

variable (V : (c : Dev nD) → (b : Ref sig .tc) → Buf (Elt Ideal) ((c : Thread nD τ).loc b))

/-- The energy of negative `y 1` against sample `y 0`, from the two input arrays as the region finds them: the
    embedding array (512 samples by 512 channels) and the padded negatives (1024 by 512 channels). -/
def energies (c : Dev nD) : S512x1024.Idx → EReal := fun y =>
  ∑ e : Fin 512, Cert.Spec.sqrelu ((V c main_v4 : S1024x512.Idx → EReal) (ix2 (y 1 : Fin 1024) e))
    ((V c main_v3_0 : S512x512.Idx → EReal) (ix2 (y 0 : Fin 512) e))

/-- The stored block at any index of the block. -/
theorem blockEnergy (x0 x1 : Vec Ideal S128x512 .f32) (j : S128x128.Idx) :
    out1_2 (F := Ideal) x0 x1 j
      = ∑ e : Fin 512, Cert.Spec.sqrelu (x1 (ix2 (j 1 : Fin 128) e)) (x0 (ix2 (j 0 : Fin 128) e)) :=
  (congrArg (out1_2 (F := Ideal) x0 x1) (eq_ix2 j)).trans (out1_2_apply x0 x1 (j 0) (j 1))

/-- The three windows' block indices at every point of the grid: the embedding window's block row is the output's
    block row, the negatives window's block row is the output's block column, both input windows take all 512
    channels (block column 0), and the output's block indices stay within 4 x 8. -/
theorem blockIndex_facts : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0
    ∧ win1_2.index t (0 : Fin 2) ≤ 3 ∧ win1_2.index t (1 : Fin 2) ≤ 7 :=
  (by decide +kernel : ∀ t : Fin grid1.N, _)

/-- Every one of the 4 x 8 blocks is some point's. -/
theorem blockIndex_onto : ∀ (q0 : Fin 4) (q1 : Fin 8), ∃ t : Fin cfg1.N, win1_2.index t = ![q0.val, q1.val] :=
  (by decide +kernel : ∀ (q0 : Fin 4) (q1 : Fin 8), ∃ t : Fin grid1.N, win1_2.index t = ![q0.val, q1.val])

/-- What point `t` writes back is block `t` of the whole array of energies. -/
theorem flushed1_2_eq (c : Dev nD) (t : Fin cfg1.N) :
    (dat1 (F := Ideal) V c).flushed 2 t = ((cfg1.win 2).blk t).view.read (Elt Ideal) (energies V c) := by
  show (cfg1.win 2).cut (grid1.coords t) ((dat1 V c).after 2 t) = _
  rw [after1_2]
  obtain ⟨e0, e1, e2, e3, e4, e5⟩ := blockIndex_facts t
  funext j
  show out1_2 (iblk1 V c 0 t) (iblk1 V c 1 t) j = energies V c (((cfg1.win 2).blk t).view.emb j)
  refine (blockEnergy _ _ j).trans ?_
  refine Finset.sum_congr rfl fun e _ => ?_
  have h0 : ((cfg1.win 0).blk t).view.emb (ix2 (j 0 : Fin 128) e)
      = ix2 ((((cfg1.win 2).blk t).view.emb j) 0 : Fin 512) e := by
    funext a; apply Fin.ext
    match a with
    | ⟨0, _⟩ =>
      show win1_0.index t (0 : Fin 2) * 128 + 1 * (j 0).val = win1_2.index t (0 : Fin 2) * 128 + 1 * (j 0).val
      omega
    | ⟨1, _⟩ =>
      show win1_0.index t (1 : Fin 2) * 512 + 1 * e.val = e.val
      omega
  have h1 : ((cfg1.win 1).blk t).view.emb (ix2 (j 1 : Fin 128) e)
      = ix2 ((((cfg1.win 2).blk t).view.emb j) 1 : Fin 1024) e := by
    funext a; apply Fin.ext
    match a with
    | ⟨0, _⟩ =>
      show win1_1.index t (0 : Fin 2) * 128 + 1 * (j 1).val = win1_2.index t (1 : Fin 2) * 128 + 1 * (j 1).val
      omega
    | ⟨1, _⟩ =>
      show win1_1.index t (1 : Fin 2) * 512 + 1 * e.val = e.val
      omega
  show Cert.Spec.sqrelu ((V c main_v4 : S1024x512.Idx → EReal) (((cfg1.win 1).blk t).view.emb (ix2 (j 1 : Fin 128) e)))
      ((V c main_v3_0 : S512x512.Idx → EReal) (((cfg1.win 0).blk t).view.emb (ix2 (j 0 : Fin 128) e))) = _
  rw [h0, h1]
  rfl

/-- An index of the array is in point `t`'s block iff each coordinate is in the block's range on its axis. -/
theorem mem_block1_2 (t : Fin cfg1.N) (i : S512x1024.Idx) :
    i ∈ ((cfg1.win 2).blk t).view.set ↔ ∀ a : Fin 2, win1_2.index t a * S128x128.size a ≤ (i a).val
      ∧ (i a).val < win1_2.index t a * S128x128.size a + S128x128.size a := by
  show i ∈ ((View.whole main_v5).slice (win1_2.rect t)).set ↔ _
  rw [View.set_slice_whole, Rect.mem_set_unit]
  exact Iff.rfl

/-- The blocks tile the array: the index `(i, n)` lies in the block `(i / 128, n / 128)`. -/
theorem blocks_cover (i : S512x1024.Idx) :
    ∃ t : Fin cfg1.N, (cfg1.win 2).flush t = true ∧ i ∈ ((cfg1.win 2).blk t).view.set := by
  have hi0 : (i 0).val < 512 := (i 0).isLt
  have hi1 : (i 1).val < 1024 := (i 1).isLt
  obtain ⟨t, ht⟩ := blockIndex_onto ⟨(i 0).val / 128, by omega⟩ ⟨(i 1).val / 128, by omega⟩
  have q0 : win1_2.index t (0 : Fin 2) = (i 0).val / 128 := congrFun ht 0
  have q1 : win1_2.index t (1 : Fin 2) = (i 1).val / 128 := congrFun ht 1
  refine ⟨t, flush1_2 t, ?_⟩
  rw [mem_block1_2]
  intro a
  match a with
  | ⟨0, _⟩ =>
    show win1_2.index t (0 : Fin 2) * 128 ≤ (i 0).val ∧ (i 0).val < win1_2.index t (0 : Fin 2) * 128 + 128
    omega
  | ⟨1, _⟩ =>
    show win1_2.index t (1 : Fin 2) * 128 ≤ (i 1).val ∧ (i 1).val < win1_2.index t (1 : Fin 2) * 128 + 128
    omega

/-- The array of energies after all 32 points. -/
theorem arr1_2_eq (c : Dev nD) : (dat1 (F := Ideal) V c).arrAt 2 cfg1.N = energies V c :=
  (dat1 (F := Ideal) V c).arrAt_eq_of_cover 2 (energies V c) (fun t _ => flushed1_2_eq V c t) blocks_cover

/-- Read at sample `i` and (padded) negative `n`. -/
theorem ne_val (c : Dev nD) (i : Fin 512) (n : Fin 1024) :
    (dat1 (F := Ideal) V c).arrAt 2 cfg1.N (ix2 i n)
      = ∑ e : Fin 512, Cert.Spec.sqrelu (V c main_v4 (ix2 n e)) (V c main_v3_0 (ix2 i e)) := by
  rw [arr1_2_eq]
  rfl

end Array1

end Cert.KernelIdeal.Hand

end
-- ==== Proof.KI.HostVal.lean ====
/-
  The host operations around the two kernel regions, read at coordinates, from any contents of the buffers.

  Before the first region the scale, the shift and the bias are laid out as one-row matrices. Before the second
  region the negatives are padded below with 24 zero rows. After the second region the first lane of the positive
  energies is repeated 1000 times along each row and flattened, and the first 1000 columns of the negative energies
  are flattened: flat position j reads sample j / 1000 and negative j % 1000.
-/
import proofs.«177815_j10213432230335_2_alg».proof.Proof.Gen.KernelIdeal.Regions
import proofs.«177815_j10213432230335_2_alg».proof.Proof.Spec
import Idealize.ShloMosaic.Lib.StableHlo.Run
import Idealize.ShloMosaic.Lib.Pipeline.Value
import Idealize.ShloMosaic.Lib.ValueIdx
import Idealize.ShloMosaic.Lib.KernelVsHost

noncomputable section

namespace Cert.KernelIdeal.HostVal

open Cert.KernelIdeal Cert.KernelIdeal.Gen Idealize.ShloMosaic Idealize.ShloMosaic.TcCoe Idealize.ShloMosaic.ValueIdx Idealize.SL.Sem

/-! ### The layout operations at coordinates, over any vector -/

/-- A vector of 4096 entries laid out as one row: entry (0, d) is entry d. -/
theorem rowOf4096_apply (x : S4096.Idx → EReal) (d : Fin 4096) :
    shapeCast S1x4096 x shapeCasts_S4096_S1x4096 (ix2 (0 : Fin 1) d) = x (ix1 d) :=
  shapeCast_apply x shapeCasts_S4096_S1x4096 (ix2 (0 : Fin 1) d) (ix1 d)
    (by rw [Shape.rowMajor_val_two, Shape.rowMajor_val_one]; show d.val = 0 * 4096 + d.val; omega)

/-- A vector of 512 entries laid out as one row: entry (0, e) is entry e. -/
theorem rowOf512_apply (x : S512.Idx → EReal) (e : Fin 512) :
    shapeCast S1x512 x shapeCasts_S512_S1x512 (ix2 (0 : Fin 1) e) = x (ix1 e) :=
  shapeCast_apply x shapeCasts_S512_S1x512 (ix2 (0 : Fin 1) e) (ix1 e)
    (by rw [Shape.rowMajor_val_two, Shape.rowMajor_val_one]; show e.val = 0 * 512 + e.val; omega)

/-- The first lane of a matrix of 128 lanes, as a one-column matrix. -/
theorem firstLane_apply (x : S512x128.Idx → EReal) (i : Fin 512) :
    extractStridedSlice S512x1 ![0, 0] x slices_S512x128_S512x1_0_0 (ix2 i (0 : Fin 1)) = x (ix2 i (0 : Fin 128)) :=
  extractStridedSlice_apply ![0, 0] x slices_S512x128_S512x1_0_0 (ix2 i (0 : Fin 1)) (ix2 i (0 : Fin 128))
    (fun a => match a with
      | ⟨0, _⟩ => by show i.val = 0 + i.val; omega
      | ⟨1, _⟩ => by show 0 = 0 + 0; rfl)

/-- A one-column matrix as a vector. -/
theorem column_apply (x : S512x1.Idx → EReal) (i : Fin 512) :
    shapeCast S512 x shapeCasts_S512x1_S512 (ix1 i) = x (ix2 i (0 : Fin 1)) :=
  shapeCast_apply x shapeCasts_S512x1_S512 (ix1 i) (ix2 i (0 : Fin 1))
    (by rw [Shape.rowMajor_val_two, Shape.rowMajor_val_one]; show i.val * 1 + 0 = i.val; omega)

/-- A vector repeated 1000 times along each row. -/
theorem repeated_apply (x : S512.Idx → EReal) (i : Fin 512) (n : Fin 1000) :
    broadcastInDim S512x1000 ![0] bcast_S512_S512x1000_0 x (ix2 i n) = x (ix1 i) :=
  broadcastInDim_apply ![0] bcast_S512_S512x1000_0 x (ix2 i n) (ix1 i)
    (fun a => match a with
      | ⟨0, _⟩ => by show i.val = if (512 : Nat) = 1 then 0 else i.val; rw [if_neg (by decide)])

/-- A matrix of 512 rows of 1000 flattened: flat position jj is entry (jj / 1000, jj % 1000). -/
theorem flat_apply (x : S512x1000.Idx → EReal) (jj : Fin 512000) :
    shapeCast S512000 x shapeCasts_S512x1000_S512000 (ix1 jj) = x (ix2 (Cert.Spec.rowOf jj) (Cert.Spec.colOf jj)) :=
  shapeCast_apply x shapeCasts_S512x1000_S512000 (ix1 jj) (ix2 (Cert.Spec.rowOf jj) (Cert.Spec.colOf jj))
    (by rw [Shape.rowMajor_val_two, Shape.rowMajor_val_one]
        have h := jj.isLt
        show jj.val / 1000 * 1000 + jj.val % 1000 = jj.val; omega)

/-- A flat vector as a one-column matrix. -/
theorem flatColumn_apply (x : S512000.Idx → EReal) (jj : Fin 512000) :
    broadcastInDim S512000x1 ![0] bcast_S512000_S512000x1_0 x (ix2 jj (0 : Fin 1)) = x (ix1 jj) :=
  broadcastInDim_apply ![0] bcast_S512000_S512000x1_0 x (ix2 jj (0 : Fin 1)) (ix1 jj)
    (fun a => match a with
      | ⟨0, _⟩ => by show jj.val = if (512000 : Nat) = 1 then 0 else jj.val; rw [if_neg (by decide)])

/-- The first 1000 columns of a matrix of 1024 columns. -/
theorem firstColumns_apply (x : S512x1024.Idx → EReal) (i : Fin 512) (n : Fin 1000) :
    extractStridedSlice S512x1000 ![0, 0] x slices_S512x1024_S512x1000_0_0 (ix2 i n)
      = x (ix2 i (⟨n.val, by have := n.isLt; omega⟩ : Fin 1024)) :=
  extractStridedSlice_apply ![0, 0] x slices_S512x1024_S512x1000_0_0 (ix2 i n) (ix2 i (⟨n.val, by have := n.isLt; omega⟩ : Fin 1024))
    (fun a => match a with
      | ⟨0, _⟩ => by show i.val = 0 + i.val; omega
      | ⟨1, _⟩ => by show n.val = 0 + n.val; omega)

/-- A matrix of 1000 rows padded below with 24 rows of the value z: rows below 1000 are the matrix's, the rest are z. -/
theorem paddedRows_apply (x : S1000x512.Idx → EReal) (z : S_.Idx → EReal) (n : Fin 1024) (e : Fin 512) :
    pad S1024x512 ![0, 0] ![24, 0] ![0, 0] x z pads_S1000x512_S1024x512_0240_000 h_S_ (ix2 n e)
      = if h : n.val < 1000 then x (ix2 ⟨n.val, h⟩ e) else z (Shape.Idx.first h_S_) := by
  by_cases h : n.val < 1000
  · rw [dif_pos h]
    exact pad_apply_of_inside ![0, 0] ![24, 0] ![0, 0] x z pads_S1000x512_S1024x512_0240_000 h_S_ (ix2 n e) (ix2 ⟨n.val, h⟩ e)
      (fun a => match a with
        | ⟨0, _⟩ => by show n.val = 0 + n.val * (0 + 1); omega
        | ⟨1, _⟩ => by show e.val = 0 + e.val * (0 + 1); omega)
  · rw [dif_neg h]
    exact pad_apply_of_not_inside ![0, 0] ![24, 0] ![0, 0] x z pads_S1000x512_S1024x512_0240_000 h_S_ (ix2 n e) (0 : Fin 2)
      (fun hh => h (by
        have h3 : (n.val - 0) / (0 + 1) < 1000 := hh.2.2
        omega))

variable (W : Valuation τ sig (Elt Ideal))

/-! ### Before the first region -/

/-- The scale as a one-row matrix. -/
theorem pre_gamma (d : Fin 4096) :
    StableHlo.after hostOps0 W main_v0 (ix2 (0 : Fin 1) d) = W main_arg3 (ix1 d) := by
  have e : (StableHlo.after hostOps0 W main_v0 : S1x4096.Idx → EReal)
      = shapeCast S1x4096 (W main_arg3 : S4096.Idx → EReal) shapeCasts_S4096_S1x4096 := by
    show StableHlo.after hostOps0 W (Proc.devRef .tc main_v0) = _
    after_results
    rfl
  exact (congrFun e _).trans (rowOf4096_apply _ d)

/-- The shift as a one-row matrix. -/
theorem pre_beta (d : Fin 4096) :
    StableHlo.after hostOps0 W main_v1 (ix2 (0 : Fin 1) d) = W main_arg4 (ix1 d) := by
  have e : (StableHlo.after hostOps0 W main_v1 : S1x4096.Idx → EReal)
      = shapeCast S1x4096 (W main_arg4 : S4096.Idx → EReal) shapeCasts_S4096_S1x4096 := by
    show StableHlo.after hostOps0 W (Proc.devRef .tc main_v1) = _
    after_results
    rfl
  exact (congrFun e _).trans (rowOf4096_apply _ d)

/-- The bias as a one-row matrix. -/
theorem pre_bias (e : Fin 512) :
    StableHlo.after hostOps0 W main_v2 (ix2 (0 : Fin 1) e) = W main_arg6 (ix1 e) := by
  have t : (StableHlo.after hostOps0 W main_v2 : S1x512.Idx → EReal)
      = shapeCast S1x512 (W main_arg6 : S512.Idx → EReal) shapeCasts_S512_S1x512 := by
    show StableHlo.after hostOps0 W (Proc.devRef .tc main_v2) = _
    after_results
    rfl
  exact (congrFun t _).trans (rowOf512_apply _ e)

/-- The layout operations before the first region change nothing else. -/
theorem keep_pre (r : Ref sig .tc) (h : r ∉ (hostOps0_W : List (Ref sig .tc))) :
    StableHlo.after hostOps0 W r = W r :=
  StableHlo.after_of_writes_sub hostOps0 W hostOps0_writes h

/-! ### Between the regions -/

/-- The zero constant changes nothing but its own buffer. -/
theorem keep_zero (r : Ref sig .tc) (h : r ∉ (hostOps1_W : List (Ref sig .tc))) :
    StableHlo.after hostOps1 W r = W r :=
  StableHlo.after_of_writes_sub hostOps1 W hostOps1_writes h

/-- The padding changes nothing but its own two buffers. -/
theorem keep_pad (r : Ref sig .tc) (h : r ∉ (hostOps1_1_W : List (Ref sig .tc))) :
    StableHlo.after hostOps1_1 W r = W r :=
  StableHlo.after_of_writes_sub hostOps1_1 W hostOps1_1_writes h

/-- The constant and the padding together change nothing but their three buffers. -/
theorem keep_mid (r : Ref sig .tc) (h1 : r ∉ (hostOps1_W : List (Ref sig .tc))) (h2 : r ∉ (hostOps1_1_W : List (Ref sig .tc))) :
    StableHlo.after hostOps1_1 (StableHlo.after hostOps1 W) r = W r :=
  (keep_pad (StableHlo.after hostOps1 W) r h2).trans (keep_zero W r h1)

/-- The negatives padded to 1024 rows: the first 1000 rows are the negatives, the last 24 are zero. -/
theorem pad_val (n : Fin 1024) (e : Fin 512) :
    StableHlo.after hostOps1_1 (StableHlo.after hostOps1 W) main_v4 (ix2 n e)
      = if h : n.val < 1000 then (W main_arg2 : S1000x512.Idx → EReal) (ix2 ⟨n.val, h⟩ e) else (0 : EReal) := by
  have t : (StableHlo.after hostOps1_1 (StableHlo.after hostOps1 W) main_v4 : S1024x512.Idx → EReal)
      = pad S1024x512 ![0, 0] ![24, 0] ![0, 0] (W main_arg2 : S1000x512.Idx → EReal)
          (constant (F := Ideal) S_ .f32 0x00000000#32) pads_S1000x512_S1024x512_0240_000 h_S_ := by
    show StableHlo.after hostOps1_1 (StableHlo.after hostOps1 W) (Proc.devRef .tc main_v4) = _
    after_results
    rfl
  refine (congrFun t _).trans ((paddedRows_apply _ _ n e).trans ?_)
  by_cases h : n.val < 1000
  · rw [dif_pos h, dif_pos h]
  · rw [dif_neg h, dif_neg h]; exact Ideal.ofBits_zero_f32

/-! ### After the second region -/

/-- The host tail changes nothing but its own eight buffers. -/
theorem keep_tail (r : Ref sig .tc) (h : r ∉ (hostOps2_W : List (Ref sig .tc))) :
    StableHlo.after hostOps2 W r = W r :=
  StableHlo.after_of_writes_sub hostOps2 W hostOps2_writes h

/-- The first result at flat position jj is the first lane of row jj / 1000 of the positive energies. -/
theorem tail_pe (jj : Fin 512000) :
    StableHlo.after hostOps2 W main_v10 (ix2 jj (0 : Fin 1)) = W main_v3_1 (ix2 (Cert.Spec.rowOf jj) (0 : Fin 128)) := by
  have t : (StableHlo.after hostOps2 W main_v10 : S512000x1.Idx → EReal)
      = broadcastInDim S512000x1 ![0] bcast_S512000_S512000x1_0
          (shapeCast S512000
            (broadcastInDim S512x1000 ![0] bcast_S512_S512x1000_0
              (shapeCast S512
                (extractStridedSlice S512x1 ![0, 0] (W main_v3_1 : S512x128.Idx → EReal) slices_S512x128_S512x1_0_0)
                shapeCasts_S512x1_S512))
            shapeCasts_S512x1000_S512000) := by
    show StableHlo.after hostOps2 W (Proc.devRef .tc main_v10) = _
    after_results
    rfl
  refine (congrFun t _).trans ?_
  refine (flatColumn_apply _ jj).trans ?_
  refine (flat_apply _ jj).trans ?_
  refine (repeated_apply _ _ _).trans ?_
  refine (column_apply _ _).trans ?_
  exact firstLane_apply _ _

/-- The second result at flat position jj is entry (jj / 1000, jj % 1000) of the negative energies. -/
theorem tail_ne (jj : Fin 512000) :
    StableHlo.after hostOps2 W main_v13 (ix2 jj (0 : Fin 1))
      = W main_v5 (ix2 (Cert.Spec.rowOf jj) (⟨(Cert.Spec.colOf jj).val, by have := (Cert.Spec.colOf jj).isLt; omega⟩ : Fin 1024)) := by
  have t : (StableHlo.after hostOps2 W main_v13 : S512000x1.Idx → EReal)
      = broadcastInDim S512000x1 ![0] bcast_S512000_S512000x1_0
          (shapeCast S512000
            (extractStridedSlice S512x1000 ![0, 0] (W main_v5 : S512x1024.Idx → EReal) slices_S512x1024_S512x1000_0_0)
            shapeCasts_S512x1000_S512000) := by
    show StableHlo.after hostOps2 W (Proc.devRef .tc main_v13) = _
    after_results
    rfl
  refine (congrFun t _).trans ?_
  refine (flatColumn_apply _ jj).trans ?_
  refine (flat_apply _ jj).trans ?_
  exact firstColumns_apply _ _ _

end Cert.KernelIdeal.HostVal

end
-- ==== Proof.KI.KVal.lean ====
/-
  The kernel program's two results as the specification's functions of the launch memory.

  Following the buffers through the six segments at the ideal instance: the three reshapes present the scale, the shift and
  the bias as one-row matrices; the embedding region leaves the embedding array and, on every lane, the positive energies;
  the padding adds 24 zero rows below the negatives; the energy region leaves, at row `i` and column `n`, the energy of
  padded negative `n` against sample `i`; the host tail lists, at flat position `j`, lane 0 of row `j / 1000` of the
  positive energies and entry `(j / 1000, j % 1000)` of the negative ones — a column below 1000, so never a padded row.
-/
import proofs.«177815_j10213432230335_2_alg».proof.Proof.KI.Keep
import proofs.«177815_j10213432230335_2_alg».proof.Proof.KI.R0Val
import proofs.«177815_j10213432230335_2_alg».proof.Proof.KI.R1Arr
import proofs.«177815_j10213432230335_2_alg».proof.Proof.KI.HostVal
import proofs.«177815_j10213432230335_2_alg».proof.Proof.Spec

set_option maxRecDepth 16384

noncomputable section

namespace Cert.KernelIdeal.KVal

open Cert.KernelIdeal Cert.KernelIdeal.Gen Cert.KernelIdeal.Hand Cert.KernelIdeal.HostVal
open Idealize.ShloMosaic Idealize.ShloMosaic.TcCoe Idealize.ShloMosaic.ValueIdx Idealize.SL.Sem

variable (m : (ℓ : Loc nD τ sig) → Buf (Elt Ideal) ℓ) (c : Dev nD)

/-! ## The specification's views of the launch memory -/

abbrev vfM : Fin 512 → Fin 4096 → EReal := fun r d => (m ((c : Thread nD τ).loc main_arg0) : S512x4096.Idx → EReal) (ix2 r d)
abbrev pM : Fin 512 → Fin 512 → EReal := fun i e => (m ((c : Thread nD τ).loc main_arg1) : S512x512.Idx → EReal) (ix2 i e)
abbrev nwM : Fin 1000 → Fin 512 → EReal := fun n e => (m ((c : Thread nD τ).loc main_arg2) : S1000x512.Idx → EReal) (ix2 n e)
abbrev gM : Fin 4096 → EReal := fun d => (m ((c : Thread nD τ).loc main_arg3) : S4096.Idx → EReal) (ix1 d)
abbrev hM : Fin 4096 → EReal := fun d => (m ((c : Thread nD τ).loc main_arg4) : S4096.Idx → EReal) (ix1 d)
abbrev wM : Fin 512 → Fin 4096 → EReal := fun e d => (m ((c : Thread nD τ).loc main_arg5) : S512x4096.Idx → EReal) (ix2 e d)
abbrev bM : Fin 512 → EReal := fun e => (m ((c : Thread nD τ).loc main_arg6) : S512.Idx → EReal) (ix1 e)

/-! ## What the embedding region finds -/

theorem e_vf : (fun (r : Fin 512) (d : Fin 4096) => (VR1 m c main_arg0 : S512x4096.Idx → EReal) (ix2 r d)) = vfM m c := by
  funext r d; exact congrFun (keep_pre (W0 m c) main_arg0 (by decide)) (ix2 r d)
theorem e_w : (fun (e : Fin 512) (d : Fin 4096) => (VR1 m c main_arg5 : S512x4096.Idx → EReal) (ix2 e d)) = wM m c := by
  funext e d; exact congrFun (keep_pre (W0 m c) main_arg5 (by decide)) (ix2 e d)
theorem e_p : (fun (i e : Fin 512) => (VR1 m c main_arg1 : S512x512.Idx → EReal) (ix2 i e)) = pM m c := by
  funext i e; exact congrFun (keep_pre (W0 m c) main_arg1 (by decide)) (ix2 i e)
theorem e_g : (fun (d : Fin 4096) => (VR1 m c main_v0 : S1x4096.Idx → EReal) (ix2 0 d)) = gM m c := by
  funext d; exact pre_gamma (W0 m c) d
theorem e_h : (fun (d : Fin 4096) => (VR1 m c main_v1 : S1x4096.Idx → EReal) (ix2 0 d)) = hM m c := by
  funext d; exact pre_beta (W0 m c) d
theorem e_b : (fun (e : Fin 512) => (VR1 m c main_v2 : S1x512.Idx → EReal) (ix2 0 e)) = bM m c := by
  funext e; exact pre_bias (W0 m c) e

/-! ## What it leaves -/

/-- The embedding array after the first region. -/
theorem emb_W2 (i e : Fin 512) :
    (W2 m c main_v3_0 : S512x512.Idx → EReal) (ix2 i e) = Cert.Spec.emb (vfM m c) (gM m c) (hM m c) (wM m c) (bM m c) i e := by
  refine (congrFun (W2_arr m c 6) (ix2 i e)).trans ?_
  rw [emb_val (VR1 m) c i e, e_vf, e_g, e_h, e_w, e_b]

/-- The positive energies after the first region, on every lane. -/
theorem pe_W2 (i : Fin 512) (l : Fin 128) :
    (W2 m c main_v3_1 : S512x128.Idx → EReal) (ix2 i l)
      = Cert.Spec.pe (vfM m c) (gM m c) (hM m c) (wM m c) (bM m c) (pM m c) i := by
  refine (congrFun (W2_arr m c 7) (ix2 i l)).trans ?_
  rw [pe_val (VR1 m) c i l, e_vf, e_g, e_h, e_w, e_b, e_p]

/-! ## What the energy region finds and leaves -/

theorem emb_W4 (i e : Fin 512) :
    (VR4 m c main_v3_0 : S512x512.Idx → EReal) (ix2 i e) = Cert.Spec.emb (vfM m c) (gM m c) (hM m c) (wM m c) (bM m c) i e :=
  (congrFun (keep_mid (W2 m c) main_v3_0 (by decide) (by decide)) (ix2 i e)).trans (emb_W2 m c i e)

theorem nw_W2 : (W2 m c main_arg2 : S1000x512.Idx → EReal) = m ((c : Thread nD τ).loc main_arg2) :=
  (W2_of_ne m c main_arg2 (by decide)).trans (keep_pre (W0 m c) main_arg2 (by decide))

theorem nw_W4 (n : Fin 1024) (e : Fin 512) :
    (VR4 m c main_v4 : S1024x512.Idx → EReal) (ix2 n e) = if h : n.val < 1000 then nwM m c ⟨n.val, h⟩ e else 0 := by
  refine (pad_val (W2 m c) n e).trans ?_
  rw [nw_W2]

/-- The negative energies after the second region, away from the padded columns. -/
theorem ne_W5 (i : Fin 512) (n : Fin 1000) :
    (W5 m c main_v5 : S512x1024.Idx → EReal) (ix2 i (⟨n.val, by have := n.isLt; omega⟩ : Fin 1024))
      = Cert.Spec.ne (vfM m c) (gM m c) (hM m c) (wM m c) (bM m c) (nwM m c) i n := by
  have h1 : (W5 m c main_v5 : S512x1024.Idx → EReal) (ix2 i (⟨n.val, by have := n.isLt; omega⟩ : Fin 1024))
      = ∑ e : Fin 512, Cert.Spec.sqrelu ((VR4 m c main_v4 : S1024x512.Idx → EReal) (ix2 (⟨n.val, by have := n.isLt; omega⟩ : Fin 1024) e))
          ((VR4 m c main_v3_0 : S512x512.Idx → EReal) (ix2 i e)) :=
    (congrFun (W5_arr m c 2) _).trans (ne_val (VR4 m) c i ⟨n.val, by have := n.isLt; omega⟩)
  rw [h1]
  unfold Cert.Spec.ne
  refine Finset.sum_congr (M := EReal) rfl fun e _ => ?_
  rw [nw_W4, dif_pos n.isLt, emb_W4]

theorem pe_W5 (i : Fin 512) (l : Fin 128) :
    (W5 m c main_v3_1 : S512x128.Idx → EReal) (ix2 i l)
      = Cert.Spec.pe (vfM m c) (gM m c) (hM m c) (wM m c) (bM m c) (pM m c) i :=
  (congrFun ((W5_of_ne m c main_v3_1 (by decide)).trans (keep_mid (W2 m c) main_v3_1 (by decide) (by decide))) (ix2 i l)).trans
    (pe_W2 m c i l)

/-! ## The two results -/

theorem res_pe (jj : Fin 512000) :
    (W6 m c main_v10 : S512000x1.Idx → EReal) (ix2 jj (0 : Fin 1))
      = Cert.Spec.pe (vfM m c) (gM m c) (hM m c) (wM m c) (bM m c) (pM m c) (Cert.Spec.rowOf jj) :=
  (tail_pe (W5 m c) jj).trans (pe_W5 m c _ 0)

theorem res_ne (jj : Fin 512000) :
    (W6 m c main_v13 : S512000x1.Idx → EReal) (ix2 jj (0 : Fin 1))
      = Cert.Spec.ne (vfM m c) (gM m c) (hM m c) (wM m c) (bM m c) (nwM m c) (Cert.Spec.rowOf jj) (Cert.Spec.colOf jj) :=
  (tail_ne (W5 m c) jj).trans (ne_W5 m c _ _)

end Cert.KernelIdeal.KVal

end
-- ==== Proof.RefSpec.lean ====
/-
  The reference program, stage by stage at coordinates, is the specification: the batch mean and variance of each
  feature, the normalised and affinely mapped features, the embedding, and the two energies. The two results list
  those energies at the flat position j = i * 1000 + n.
-/
import proofs.«177815_j10213432230335_2_alg».proof.Proof.Gen.ReferenceIdeal.Read
import proofs.«177815_j10213432230335_2_alg».proof.Proof.Spec

noncomputable section

namespace Cert.ReferenceIdeal.RefSpec

open Cert.ReferenceIdeal Cert.ReferenceIdeal.Gen Cert.ReferenceIdeal.Read Idealize.ShloMosaic Idealize.ShloMosaic.ValueIdx

variable (x0 : (⟨S512x4096, .f32⟩ : BufTy).Contents (Elt Ideal))
  (x1 : (⟨S512x512, .f32⟩ : BufTy).Contents (Elt Ideal))
  (x2 : (⟨S1000x512, .f32⟩ : BufTy).Contents (Elt Ideal))
  (x3 x4 : (⟨S4096, .f32⟩ : BufTy).Contents (Elt Ideal))
  (x5 : (⟨S512x4096, .f32⟩ : BufTy).Contents (Elt Ideal))
  (x6 : (⟨S512, .f32⟩ : BufTy).Contents (Elt Ideal))

/-! ### Where each stage reads its operand -/

/-- A sum down the batch, taken for feature d, reads sample k of feature d. -/
theorem batchIdx (d : Fin 4096) (k : Fin 512) : idx_main_v0 (ix1 d) k = ix2 k d := by
  funext a; match a with | ⟨0, _⟩ => rfl | ⟨1, _⟩ => rfl

/-- A per-feature vector laid out as one row and repeated down the batch is read at its feature. -/
theorem featIdx (r : Fin 512) (d : Fin 4096) : idx_main_v3 (idx_main_v4 (ix2 r d)) = ix1 d := by
  funext a; match a with | ⟨0, _⟩ => rfl

/-- The contraction reads the left factor at (sample, feature k). -/
theorem dotLeftIdx (i e : Fin 512) (k : Fin 4096) : lidx_main_v26 (ix2 i e) k = ix2 i k := by
  funext a; match a with | ⟨0, _⟩ => rfl | ⟨1, _⟩ => rfl

/-- The contraction reads the transposed weights at (feature k, channel), that is the weights at (channel, feature k). -/
theorem dotRightIdx (i e : Fin 512) (k : Fin 4096) : idx_main_v25 (ridx_main_v26 (ix2 i e) k) = ix2 e k := by
  funext a; match a with | ⟨0, _⟩ => rfl | ⟨1, _⟩ => rfl

/-- The bias laid out as one row and repeated down the batch is read at its channel. -/
theorem biasIdx (i e : Fin 512) : idx_main_v27 (idx_main_v28 (ix2 i e)) = ix1 e := by
  funext a; match a with | ⟨0, _⟩ => rfl

/-- A sum along the channels, taken for sample i, reads channel k of sample i. -/
theorem chanIdx (i k : Fin 512) : idx_main_v33 (ix1 i) k = ix2 i k := by
  funext a; match a with | ⟨0, _⟩ => rfl | ⟨1, _⟩ => rfl

/-- A sum along the channels, taken for the pair (sample i, negative n), reads channel k of that pair. -/
theorem pairIdx (i : Fin 512) (n : Fin 1000) (k : Fin 512) : idx_main_v41 (ix2 i n) k = ix3 i n k := by
  funext a; match a with | ⟨0, _⟩ => rfl | ⟨1, _⟩ => rfl | ⟨2, _⟩ => rfl

/-- The negatives repeated over the samples are read at (negative, channel). -/
theorem negIdx (i : Fin 512) (n : Fin 1000) (k : Fin 512) : idx_main_v34 (idx_main_v36 (ix3 i n k)) = ix2 n k := by
  funext a; match a with | ⟨0, _⟩ => rfl | ⟨1, _⟩ => rfl

/-- The embedding repeated over the negatives is read at (sample, channel). -/
theorem embIdx (i : Fin 512) (n : Fin 1000) (k : Fin 512) : idx_main_v35 (idx_main_v37 (ix3 i n k)) = ix2 i k := by
  funext a; match a with | ⟨0, _⟩ => rfl | ⟨1, _⟩ => rfl

/-! ### The stages at coordinates -/

/-- The mean of feature d. -/
theorem mean_at (d : Fin 4096) :
    val_main_v2 (F := Ideal) x0 (ix1 d) = Cert.Spec.mean (fun r d => x0 (ix2 r d)) d := by
  rw [val_main_v2_apply, val_main_v0_apply, val_main_v1_apply, val_main_cst_0_apply, val_main_cst_apply]
  simp only [Ideal.hostDivf_def, Ideal.ofBits_def, Ideal.ofBits_zero_f32, zero_add, batchIdx]
  rfl

/-- The centred entry (r, d), as the variance sums it. -/
theorem centred_at (r : Fin 512) (d : Fin 4096) :
    val_main_v5 (F := Ideal) x0 (ix2 r d)
      = x0 (ix2 r d) - Cert.Spec.mean (fun r d => x0 (ix2 r d)) d := by
  rw [val_main_v5_apply, val_main_v4_apply, val_main_v3_apply, featIdx, mean_at]
  rfl

/-- The centred entry (r, d), as the normalisation uses it (the program computes it a second time). -/
theorem centred_at' (r : Fin 512) (d : Fin 4096) :
    val_main_v12 (F := Ideal) x0 (ix2 r d)
      = x0 (ix2 r d) - Cert.Spec.mean (fun r d => x0 (ix2 r d)) d := by
  rw [val_main_v12_apply, val_main_v11_apply, val_main_v10_apply,
    show idx_main_v10 (idx_main_v11 (ix2 r d)) = ix1 d from featIdx r d, mean_at]
  rfl

/-- The biased variance of feature d. -/
theorem var_at (d : Fin 4096) :
    val_main_v9 (F := Ideal) x0 (ix1 d) = Cert.Spec.var (fun r d => x0 (ix2 r d)) d := by
  rw [val_main_v9_apply, val_main_v7_apply, val_main_v8_apply, val_main_cst_2_apply, val_main_cst_1_apply]
  simp only [Ideal.hostDivf_def, Ideal.ofBits_def, Ideal.ofBits_zero_f32, zero_add,
    show ∀ k, idx_main_v7 (ix1 d) k = ix2 k d from batchIdx d, val_main_v6_apply, centred_at, Ideal.mulf_def]
  rfl

/-- The reciprocal standard deviation of feature d, repeated down the batch. -/
theorem rstd_at (r : Fin 512) (d : Fin 4096) :
    val_main_v17 (F := Ideal) x0 (ix2 r d)
      = Ideal.rsqrt (Cert.Spec.var (fun r d => x0 (ix2 r d)) d + Cert.Spec.eps) := by
  rw [val_main_v17_apply, val_main_v16_apply,
    show idx_main_v16 (idx_main_v17 (ix2 r d)) = ix1 d from featIdx r d,
    val_main_v15_apply, val_main_v14_apply, var_at, val_main_v13_apply, val_main_cst_3_apply]
  rfl

/-- The normalised, scaled and shifted entry (r, d). -/
theorem bn_at (r : Fin 512) (d : Fin 4096) :
    val_main_v24 (F := Ideal) x0 x3 x4 (ix2 r d)
      = Cert.Spec.bn (fun r d => x0 (ix2 r d)) (fun d => x3 (ix1 d)) (fun d => x4 (ix1 d)) r d := by
  rw [val_main_v24_apply, val_main_v21_apply, val_main_v18_apply, centred_at', rstd_at,
    val_main_v20_apply, val_main_v19_apply,
    show idx_main_v19 (idx_main_v20 (ix2 r d)) = ix1 d from featIdx r d,
    val_main_v23_apply, val_main_v22_apply,
    show idx_main_v22 (idx_main_v23 (ix2 r d)) = ix1 d from featIdx r d]
  rfl

/-- Channel e of sample i's embedding. -/
theorem emb_at (i e : Fin 512) :
    val_main_v29 (F := Ideal) x0 x3 x4 x5 x6 (ix2 i e)
      = Cert.Spec.emb (fun r d => x0 (ix2 r d)) (fun d => x3 (ix1 d)) (fun d => x4 (ix1 d))
          (fun e d => x5 (ix2 e d)) (fun e => x6 (ix1 e)) i e := by
  rw [val_main_v29_apply, val_main_v26_apply, val_main_v28_apply, val_main_v27_apply, biasIdx]
  simp only [dotLeftIdx, val_main_v25_apply, dotRightIdx, bn_at]
  rfl

/-- The positive energy of sample i. -/
theorem pe_at (i : Fin 512) :
    val_main_v33 (F := Ideal) x0 x1 x3 x4 x5 x6 (ix1 i)
      = Cert.Spec.pe (fun r d => x0 (ix2 r d)) (fun d => x3 (ix1 d)) (fun d => x4 (ix1 d))
          (fun e d => x5 (ix2 e d)) (fun e => x6 (ix1 e)) (fun i e => x1 (ix2 i e)) i := by
  rw [val_main_v33_apply, val_main_cst_4_apply]
  simp only [chanIdx, val_main_v32_apply, val_main_v31_apply, val_main_v30_apply, emb_at,
    val_main_call0_v0_apply, val_main_call0_cst_apply,
    Ideal.ofBits_def, Ideal.ofBits_zero_f32, zero_add, Ideal.mulf_def, Ideal.maximumf_def, Ideal.subf_def]
  rfl

/-- The energy of negative n against sample i. -/
theorem ne_at (i : Fin 512) (n : Fin 1000) :
    val_main_v41 (F := Ideal) x0 x2 x3 x4 x5 x6 (ix2 i n)
      = Cert.Spec.ne (fun r d => x0 (ix2 r d)) (fun d => x3 (ix1 d)) (fun d => x4 (ix1 d))
          (fun e d => x5 (ix2 e d)) (fun e => x6 (ix1 e)) (fun n e => x2 (ix2 n e)) i n := by
  rw [val_main_v41_apply, val_main_cst_5_apply]
  simp only [pairIdx, val_main_v40_apply, val_main_v39_apply, val_main_v38_apply,
    val_main_v36_apply, val_main_v34_apply, negIdx, val_main_v37_apply, val_main_v35_apply, embIdx, emb_at,
    val_main_call1_v0_apply, val_main_call1_cst_apply,
    Ideal.ofBits_def, Ideal.ofBits_zero_f32, zero_add, Ideal.mulf_def, Ideal.maximumf_def, Ideal.subf_def]
  rfl

/-! ### The two results at a flat position -/

/-- The flat position jj of the first result is read at the sample jj / 1000. -/
theorem flatRowIdx (jj : Fin 512000) :
    idx_main_v42 (idx_main_v43 (idx_main_v44 (ix2 jj (0 : Fin 1)))) = ix1 (Cert.Spec.rowOf jj) := by
  funext a; match a with | ⟨0, _⟩ => rfl

/-- The flat position jj of the second result is read at (jj / 1000, jj % 1000). -/
theorem flatPairIdx (jj : Fin 512000) :
    idx_main_v45 (idx_main_v46 (ix2 jj (0 : Fin 1))) = ix2 (Cert.Spec.rowOf jj) (Cert.Spec.colOf jj) := by
  funext a; match a with | ⟨0, _⟩ => rfl | ⟨1, _⟩ => rfl

/-- The first result at flat position jj is the positive energy of sample jj / 1000. -/
theorem ref_pe (jj : Fin 512000) :
    val_main_v44 (F := Ideal) x0 x1 x3 x4 x5 x6 (ix2 jj (0 : Fin 1))
      = Cert.Spec.pe (fun r d => x0 (ix2 r d)) (fun d => x3 (ix1 d)) (fun d => x4 (ix1 d))
          (fun e d => x5 (ix2 e d)) (fun e => x6 (ix1 e)) (fun i e => x1 (ix2 i e)) (Cert.Spec.rowOf jj) := by
  rw [val_main_v44_apply, val_main_v43_apply, val_main_v42_apply, flatRowIdx, pe_at]

/-- The second result at flat position jj is the energy of negative jj % 1000 against sample jj / 1000. -/
theorem ref_ne (jj : Fin 512000) :
    val_main_v46 (F := Ideal) x0 x2 x3 x4 x5 x6 (ix2 jj (0 : Fin 1))
      = Cert.Spec.ne (fun r d => x0 (ix2 r d)) (fun d => x3 (ix1 d)) (fun d => x4 (ix1 d))
          (fun e d => x5 (ix2 e d)) (fun e => x6 (ix1 e)) (fun n e => x2 (ix2 n e))
          (Cert.Spec.rowOf jj) (Cert.Spec.colOf jj) := by
  rw [val_main_v46_apply, val_main_v45_apply, flatPairIdx, ne_at]

/-- Every index of a result is (jj, 0) for its flat position jj. -/
theorem eq_flat (j : S512000x1.Idx) : j = ix2 (⟨(j 0).val, idx2_lt0 j⟩ : Fin 512000) (0 : Fin 1) := by
  funext a
  match a with
  | ⟨0, _⟩ => rfl
  | ⟨1, _⟩ => exact Fin.ext (by have h : (j 1).val < 1 := idx2_lt1 j; show (j 1).val = 0; omega)

/-- The first result at any index j, with flat position the first coordinate of j. -/
theorem ref_pe_idx (j : S512000x1.Idx) :
    val_main_v44 (F := Ideal) x0 x1 x3 x4 x5 x6 j
      = Cert.Spec.pe (fun r d => x0 (ix2 r d)) (fun d => x3 (ix1 d)) (fun d => x4 (ix1 d))
          (fun e d => x5 (ix2 e d)) (fun e => x6 (ix1 e)) (fun i e => x1 (ix2 i e))
          (Cert.Spec.rowOf ⟨(j 0).val, idx2_lt0 j⟩) :=
  (congrArg (val_main_v44 (F := Ideal) x0 x1 x3 x4 x5 x6) (eq_flat j)).trans (ref_pe x0 x1 x3 x4 x5 x6 _)

/-- The second result at any index j, with flat position the first coordinate of j. -/
theorem ref_ne_idx (j : S512000x1.Idx) :
    val_main_v46 (F := Ideal) x0 x2 x3 x4 x5 x6 j
      = Cert.Spec.ne (fun r d => x0 (ix2 r d)) (fun d => x3 (ix1 d)) (fun d => x4 (ix1 d))
          (fun e d => x5 (ix2 e d)) (fun e => x6 (ix1 e)) (fun n e => x2 (ix2 n e))
          (Cert.Spec.rowOf ⟨(j 0).val, idx2_lt0 j⟩) (Cert.Spec.colOf ⟨(j 0).val, idx2_lt0 j⟩) :=
  (congrArg (val_main_v46 (F := Ideal) x0 x2 x3 x4 x5 x6) (eq_flat j)).trans (ref_ne x0 x2 x3 x4 x5 x6 _)

end Cert.ReferenceIdeal.RefSpec

end
-- ==== Proof.Alg.lean ====
/-
  The value claim: at the ideal instance, from memories agreeing on the arguments, the kernel program and the reference
  both run to the end and leave equal results.

  The kernel program's run ends with every unscoped buffer at the last boundary's contents; its two results there are,
  at flat position `j`, the positive energy of sample `j / 1000` and the energy of negative `j % 1000` against that
  sample, as the specification defines them over the launch memory. The reference's run ends with its two results at
  its operations' composed term, which is the same specification over its own launch memory; the two memories agree
  on the seven arguments, so the specifications are one.
-/
import proofs.«177815_j10213432230335_2_alg».proof.Defs
import proofs.«177815_j10213432230335_2_alg».proof.Proof.Gen.Kernel
import proofs.«177815_j10213432230335_2_alg».proof.Proof.Gen.KernelIdeal
import proofs.«177815_j10213432230335_2_alg».proof.Proof.Gen.ReferenceIdeal
import proofs.«177815_j10213432230335_2_alg».proof.Proof.Gen.Pre_finite_inputs
import proofs.«177815_j10213432230335_2_alg».proof.Proof.KI.KVal
import proofs.«177815_j10213432230335_2_alg».proof.Proof.RefSpec
import proofs.«177815_j10213432230335_2_alg».proof.Proof.Gen.ReferenceIdeal.Run
import proofs.«177815_j10213432230335_2_alg».proof.Proof.Gen.ReferenceIdeal.Read

set_option maxRecDepth 16384

noncomputable section

namespace Cert.Proof.Alg

open Idealize.ShloMosaic Idealize.ShloMosaic.TcCoe Idealize.ShloMosaic.ValueIdx Idealize.SL.Sem
open Cert.KernelIdeal.Hand Cert.KernelIdeal.KVal Cert.ReferenceIdeal.RefSpec

/-- The kernel program's first result at any index. -/
theorem kernel_pe (m : (ℓ : Loc Cert.KernelIdeal.nD Cert.KernelIdeal.τ Cert.KernelIdeal.sig) → Buf (Elt Ideal) ℓ) (c : Dev Cert.KernelIdeal.nD)
    (j : Cert.KernelIdeal.S512000x1.Idx) :
    (W6 m c Cert.KernelIdeal.main_v10 : Cert.KernelIdeal.S512000x1.Idx → EReal) j
      = Cert.Spec.pe (vfM m c) (gM m c) (hM m c) (wM m c) (bM m c) (pM m c) (Cert.Spec.rowOf ⟨(j 0).val, idx2_lt0 j⟩) :=
  (congrArg (W6 m c Cert.KernelIdeal.main_v10 : Cert.KernelIdeal.S512000x1.Idx → EReal) (eq_flat j)).trans (res_pe m c _)

/-- The kernel program's second result at any index. -/
theorem kernel_ne (m : (ℓ : Loc Cert.KernelIdeal.nD Cert.KernelIdeal.τ Cert.KernelIdeal.sig) → Buf (Elt Ideal) ℓ) (c : Dev Cert.KernelIdeal.nD)
    (j : Cert.KernelIdeal.S512000x1.Idx) :
    (W6 m c Cert.KernelIdeal.main_v13 : Cert.KernelIdeal.S512000x1.Idx → EReal) j
      = Cert.Spec.ne (vfM m c) (gM m c) (hM m c) (wM m c) (bM m c) (nwM m c) (Cert.Spec.rowOf ⟨(j 0).val, idx2_lt0 j⟩)
          (Cert.Spec.colOf ⟨(j 0).val, idx2_lt0 j⟩) :=
  (congrArg (W6 m c Cert.KernelIdeal.main_v13 : Cert.KernelIdeal.S512000x1.Idx → EReal) (eq_flat j)).trans (res_ne m c _)

theorem algebraic : Cert.algebraic_KernelIdeal_ReferenceIdeal := by
  intro m ρ m' ρ' _ hagree
  refine ⟨fun c => W6 m c Cert.KernelIdeal.main_v10, fun c => W6 m c Cert.KernelIdeal.main_v13, ?_, ?_⟩
  · exact (θ_run Cert.KernelIdeal.defs _ _).mono (fun r h c =>
      ⟨h c _ (mem_uc Cert.KernelIdeal.main_v10 (by decide)), h c _ (mem_uc Cert.KernelIdeal.main_v13 (by decide)),
       (h c _ (mem_uc Cert.KernelIdeal.main_arg0 (by decide))).trans (W6_main_arg0 m c),
       (h c _ (mem_uc Cert.KernelIdeal.main_arg1 (by decide))).trans (W6_main_arg1 m c),
       (h c _ (mem_uc Cert.KernelIdeal.main_arg2 (by decide))).trans (W6_main_arg2 m c),
       (h c _ (mem_uc Cert.KernelIdeal.main_arg3 (by decide))).trans (W6_main_arg3 m c),
       (h c _ (mem_uc Cert.KernelIdeal.main_arg4 (by decide))).trans (W6_main_arg4 m c),
       (h c _ (mem_uc Cert.KernelIdeal.main_arg5 (by decide))).trans (W6_main_arg5 m c),
       (h c _ (mem_uc Cert.KernelIdeal.main_arg6 (by decide))).trans (W6_main_arg6 m c)⟩) (run_all m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v44_eq]
      funext j
      rw [ref_pe_idx, (hagree c).1, (hagree c).2.1, (hagree c).2.2.2.1, (hagree c).2.2.2.2.1, (hagree c).2.2.2.2.2.1,
        (hagree c).2.2.2.2.2.2]
      exact (kernel_pe m c j).symm
    · rw [(h c).2.1, Cert.ReferenceIdeal.Read.val_main_v46_eq]
      funext j
      rw [ref_ne_idx, (hagree c).1, (hagree c).2.2.1, (hagree c).2.2.2.1, (hagree c).2.2.2.2.1, (hagree c).2.2.2.2.2.1,
        (hagree c).2.2.2.2.2.2]
      exact (kernel_ne m c j).symm

end Cert.Proof.Alg

end
-- ==== Proof.lean ====
/-
  The certificate's claim: the two kernel programs and the reference each run to the end leaving their arguments
  unchanged; the idealization rewrote nothing; and at the ideal instance the idealized kernel program and the reference
  leave equal results. The kernel normalises each feature over the batch, embeds the samples by an affine map accumulated
  over four column tiles, and scores each sample against its positive target and against a thousand negative targets by
  the squared positive part of the difference summed over the channels; the reference computes the same with whole-array
  operations. The two agree on the extended reals because a sum may be regrouped freely there: four tile sums are the
  sum over all columns, four chunk sums are the sum over all channels, and a zero start adds nothing.
-/
import proofs.«177815_j10213432230335_2_alg».proof.Defs
import proofs.«177815_j10213432230335_2_alg».proof.Proof.Gen.Kernel
import proofs.«177815_j10213432230335_2_alg».proof.Proof.Gen.KernelIdeal
import proofs.«177815_j10213432230335_2_alg».proof.Proof.Gen.ReferenceIdeal
import proofs.«177815_j10213432230335_2_alg».proof.Proof.Gen.Pre_finite_inputs
import proofs.«177815_j10213432230335_2_alg».proof.Proof.Frames
import proofs.«177815_j10213432230335_2_alg».proof.Proof.Alg

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Frames.frame_ri, Cert.Proof.Frames.preserves,
  Cert.Proof.Alg.algebraic⟩

end Cert.Proof

end
